-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v55)) (v1 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_v56) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_v85) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S50000x3 : Shape := ⟨2, ![50000, 3]⟩
abbrev S2x600000 : Shape := ⟨2, ![2, 600000]⟩
abbrev S257x128 : Shape := ⟨2, ![257, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S256x128 : Shape := ⟨2, ![256, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000x3 : S_.BroadcastsInDim S50000x3 (![] : Fin 0 → Fin S50000x3.rank)
  reducesTo_S50000x3_S_d0_1 : S50000x3.ReducesTo [0, 1] S_
  bcast_S_S257x128 : S_.BroadcastsInDim S257x128 (![] : Fin 0 → Fin S257x128.rank)
  reducesTo_S257x128_S_d0_1 : S257x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S256x128 : S_.BroadcastsInDim S256x128 (![] : Fin 0 → Fin S256x128.rank)
  reducesTo_S256x128_S_d0_1 : S256x128.ReducesTo [0, 1] S_

variable [Facts]

def fn_part4 {F : FTy → Type} [FloatOps F] (main_arg15 : FVec F S128x1 .f32) (main_arg16 : FVec F S1 .f32) (main_v63 : IVec S_ 1) (main_v67 : IVec S_ 1) : IVec S_ 1 :=
  let main_v68 : IVec S_ 1 := andi main_v63 main_v67
  let main_v69 : FVec F S128x1 .f32 := Host.absf main_arg15
  let main_cst_26 : FVec F S_ .f32 := constant S_ .f32 0x7F800000#32
  let main_v70 : FVec F S128x1 .f32 := broadcastInDim S128x1 ![] bcast_S_S128x1 main_cst_26
  let main_v71 : IVec S128x1 1 := cmpf .olt main_v69 main_v70
  let main_c_27 : IVec S_ 1 := constantI S_ 1 1#1
  let main_v72 : IVec S_ 1 := (fun x v => Host.reduce IntOp.andi x v reducesTo_S128x1_S_d0_1 h_S_) main_v71 main_c_27
  let main_v73 : IVec S_ 1 := andi main_v68 main_v72
  let main_v74 : FVec F S1 .f32 := Host.absf main_arg16
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  main_v78

def fn_part3 {F : FTy → Type} [FloatOps F] (main_arg12 : FVec F S128 .f32) (main_arg13 : FVec F S128x128 .f32) (main_arg14 : FVec F S128 .f32) (main_arg15 : FVec F S128x1 .f32) (main_arg16 : FVec F S1 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg13
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg15 main_arg16 main_v63 main_v67

def fn_part2 {F : FTy → Type} [FloatOps F] (main_arg8 : FVec F S1 .f32) (main_arg9 : FVec F S256x128 .f32) (main_arg10 : FVec F S128 .f32) (main_arg11 : FVec F S128x128 .f32) (main_arg12 : FVec F S128 .f32) (main_arg13 : FVec F S128x128 .f32) (main_arg14 : FVec F S128 .f32) (main_arg15 : FVec F S128x1 .f32) (main_arg16 : FVec F S1 .f32) (main_v33 : IVec S_ 1) : IVec S_ 1 :=
  let main_v34 : FVec F S1 .f32 := Host.absf main_arg8
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_v39 : FVec F S256x128 .f32 := Host.absf main_arg9
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg12 main_arg13 main_arg14 main_arg15 main_arg16 main_v48 main_v49 main_v50

def fn_part1 {F : FTy → Type} [FloatOps F] (main_arg5 : FVec F S128x128 .f32) (main_arg6 : FVec F S128 .f32) (main_arg7 : FVec F S128x1 .f32) (main_arg8 : FVec F S1 .f32) (main_arg9 : FVec F S256x128 .f32) (main_arg10 : FVec F S128 .f32) (main_arg11 : FVec F S128x128 .f32) (main_arg12 : FVec F S128 .f32) (main_arg13 : FVec F S128x128 .f32) (main_arg14 : FVec F S128 .f32) (main_arg15 : FVec F S128x1 .f32) (main_arg16 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x1 .f32 := Host.absf main_arg7
  let main_cst_10 : FVec F S_ .f32 := constant S_ .f32 0x7F800000#32
  let main_v30 : FVec F S128x1 .f32 := broadcastInDim S128x1 ![] bcast_S_S128x1 main_cst_10
  let main_v31 : IVec S128x1 1 := cmpf .olt main_v29 main_v30
  let main_c_11 : IVec S_ 1 := constantI S_ 1 1#1
  let main_v32 : IVec S_ 1 := (fun x v => Host.reduce IntOp.andi x v reducesTo_S128x1_S_d0_1 h_S_) main_v31 main_c_11
  let main_v33 : IVec S_ 1 := andi main_v28 main_v32
  fn_part2 (F := F) main_arg8 main_arg9 main_arg10 main_arg11 main_arg12 main_arg13 main_arg14 main_arg15 main_arg16 main_v33

def fn {F : FTy → Type} [FloatOps F] (main_arg0 : FVec F S50000x128 .f32) (main_arg1 : FVec F S50000x3 .f32) (main_arg2 : IVec S2x600000 32) (main_arg3 : FVec F S257x128 .f32) (main_arg4 : FVec F S128 .f32) (main_arg5 : FVec F S128x128 .f32) (main_arg6 : FVec F S128 .f32) (main_arg7 : FVec F S128x1 .f32) (main_arg8 : FVec F S1 .f32) (main_arg9 : FVec F S256x128 .f32) (main_arg10 : FVec F S128 .f32) (main_arg11 : FVec F S128x128 .f32) (main_arg12 : FVec F S128 .f32) (main_arg13 : FVec F S128x128 .f32) (main_arg14 : FVec F S128 .f32) (main_arg15 : FVec F S128x1 .f32) (main_arg16 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x3 .f32 := Host.absf main_arg1
  let main_cst_0 : FVec F S_ .f32 := constant S_ .f32 0x7F800000#32
  let main_v5 : FVec F S50000x3 .f32 := broadcastInDim S50000x3 ![] bcast_S_S50000x3 main_cst_0
  let main_v6 : IVec S50000x3 1 := cmpf .olt main_v4 main_v5
  let main_c_1 : IVec S_ 1 := constantI S_ 1 1#1
  let main_v7 : IVec S_ 1 := (fun x v => Host.reduce IntOp.andi x v reducesTo_S50000x3_S_d0_1 h_S_) main_v6 main_c_1
  let main_v8 : IVec S_ 1 := andi main_v3 main_v7
  let main_v9 : FVec F S257x128 .f32 := Host.absf main_arg3
  let main_cst_2 : FVec F S_ .f32 := constant S_ .f32 0x7F800000#32
  let main_v10 : FVec F S257x128 .f32 := broadcastInDim S257x128 ![] bcast_S_S257x128 main_cst_2
  let main_v11 : IVec S257x128 1 := cmpf .olt main_v9 main_v10
  let main_c_3 : IVec S_ 1 := constantI S_ 1 1#1
  let main_v12 : IVec S_ 1 := (fun x v => Host.reduce IntOp.andi x v reducesTo_S257x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_arg15 main_arg16 main_v13 main_v16
-- ==== Kernel.lean ====
abbrev S50000x128 : Shape := ⟨2, ![50000, 128]⟩
abbrev S50000x3 : Shape := ⟨2, ![50000, 3]⟩
abbrev S2x600000 : Shape := ⟨2, ![2, 600000]⟩
abbrev S257x128 : Shape := ⟨2, ![257, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S256x128 : Shape := ⟨2, ![256, 128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x3 : Shape := ⟨2, ![600000, 3]⟩
abbrev S600000x128 : Shape := ⟨2, ![600000, 128]⟩
abbrev S1x128 : Shape := ⟨2, ![1, 128]⟩
abbrev S1x1 : Shape := ⟨2, ![1, 1]⟩
abbrev S4000x128 : Shape := ⟨2, ![4000, 128]⟩
abbrev S4000x1 : Shape := ⟨2, ![4000, 1]⟩
abbrev S4000x3 : Shape := ⟨2, ![4000, 3]⟩
abbrev S5000x128 : Shape := ⟨2, ![5000, 128]⟩

abbrev nBuf : Space → Nat
  | .hbm => 89
  | .vmem => 35
  | .smem => 0
  | _ => 0

abbrev bufTy : (tb : Table) → Fin (tcTables nBuf tb) → BufTy
  | .hbm, ⟨0, _⟩ => ⟨S50000x128, .f32⟩
  | .hbm, ⟨1, _⟩ => ⟨S50000x3, .f32⟩
  | .hbm, ⟨2, _⟩ => ⟨S2x600000, .i32⟩
  | .hbm, ⟨3, _⟩ => ⟨S257x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x1, .f32⟩
  | .hbm, ⟨8, _⟩ => ⟨S1, .f32⟩
  | .hbm, ⟨9, _⟩ => ⟨S256x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S128x1, .f32⟩
  | .hbm, ⟨16, _⟩ => ⟨S1, .f32⟩
  | .hbm, ⟨17, _⟩ => ⟨S1x600000, .i32⟩
  | .hbm, ⟨18, _⟩ => ⟨S600000, .i32⟩
  | .hbm, ⟨19, _⟩ => ⟨S1x600000, .i32⟩
  | .hbm, ⟨20, _⟩ => ⟨S600000, .i32⟩
  | .hbm, ⟨21, _⟩ => ⟨S_, .i32⟩
  | .hbm, ⟨22, _⟩ => ⟨S600000, .i32⟩
  | .hbm, ⟨23, _⟩ => ⟨S600000, .i1⟩
  | .hbm, ⟨24, _⟩ => ⟨S_, .i32⟩
  | .hbm, ⟨25, _⟩ => ⟨S600000, .i32⟩
  | .hbm, ⟨26, _⟩ => ⟨S600000, .i32⟩
  | .hbm, ⟨27, _⟩ => ⟨S600000, .i32⟩
  | .hbm, ⟨28, _⟩ => ⟨S600000x1, .i32⟩
  | .hbm, ⟨29, _⟩ => ⟨S600000x3, .f32⟩
  | .hbm, ⟨30, _⟩ => ⟨S_, .i32⟩
  | .hbm, ⟨31, _⟩ => ⟨S600000, .i32⟩
  | .hbm, ⟨32, _⟩ => ⟨S600000, .i1⟩
  | .hbm, ⟨33, _⟩ => ⟨S_, .i32⟩
  | .hbm, ⟨34, _⟩ => ⟨S600000, .i32⟩
  | .hbm, ⟨35, _⟩ => ⟨S600000, .i32⟩
  | .hbm, ⟨36, _⟩ => ⟨S600000, .i32⟩
  | .hbm, ⟨37, _⟩ => ⟨S600000x1, .i32⟩
  | .hbm, ⟨38, _⟩ => ⟨S600000x3, .f32⟩
  | .hbm, ⟨39, _⟩ => ⟨S600000x3, .f32⟩
  | .hbm, ⟨40, _⟩ => ⟨S600000x3, .f32⟩
  | .hbm, ⟨41, _⟩ => ⟨S_, .f32⟩
  | .hbm, ⟨42, _⟩ => ⟨S600000, .f32⟩
  | .hbm, ⟨43, _⟩ => ⟨S600000x1, .f32⟩
  | .hbm, ⟨44, _⟩ => ⟨S600000x1, .f32⟩
  | .hbm, ⟨45, _⟩ => ⟨S50000x128, .bf16⟩
  | .hbm, ⟨46, _⟩ => ⟨S_, .i32⟩
  | .hbm, ⟨47, _⟩ => ⟨S600000, .i32⟩
  | .hbm, ⟨48, _⟩ => ⟨S600000, .i1⟩
  | .hbm, ⟨49, _⟩ => ⟨S_, .i32⟩
  | .hbm, ⟨50, _⟩ => ⟨S600000, .i32⟩
  | .hbm, ⟨51, _⟩ => ⟨S600000, .i32⟩
  | .hbm, ⟨52, _⟩ => ⟨S600000, .i32⟩
  | .hbm, ⟨53, _⟩ => ⟨S600000x1, .i32⟩
  | .hbm, ⟨54, _⟩ => ⟨S600000x128, .bf16⟩
  | .hbm, ⟨55, _⟩ => ⟨S_, .i32⟩
  | .hbm, ⟨56, _⟩ => ⟨S600000, .i32⟩
  | .hbm, ⟨57, _⟩ => ⟨S600000, .i1⟩
  | .hbm, ⟨58, _⟩ => ⟨S_, .i32⟩
  | .hbm, ⟨59, _⟩ => ⟨S600000, .i32⟩
  | .hbm, ⟨60, _⟩ => ⟨S600000, .i32⟩
  | .hbm, ⟨61, _⟩ => ⟨S600000, .i32⟩
  | .hbm, ⟨62, _⟩ => ⟨S600000x1, .i32⟩
  | .hbm, ⟨63, _⟩ => ⟨S600000x128, .bf16⟩
  | .hbm, ⟨64, _⟩ => ⟨S128x128, .f32⟩
  | .hbm, ⟨65, _⟩ => ⟨S128x128, .f32⟩
  | .hbm, ⟨66, _⟩ => ⟨S1x128, .f32⟩
  | .hbm, ⟨67, _⟩ => ⟨S1x128, .f32⟩
  | .hbm, ⟨68, _⟩ => ⟨S1x128, .f32⟩
  | .hbm, ⟨69, _⟩ => ⟨S1x1, .f32⟩
  | .hbm, ⟨70, _⟩ => ⟨S1x128, .f32⟩
  | .hbm, ⟨71, _⟩ => ⟨S1x1, .f32⟩
  | .hbm, ⟨72, _⟩ => ⟨S600000x128, .bf16⟩
  | .hbm, ⟨73, _⟩ => ⟨S600000x3, .f32⟩
  | .hbm, ⟨74, _⟩ => ⟨S600000x128, .f32⟩
  | .hbm, ⟨75, _⟩ => ⟨S_, .f32⟩
  | .hbm, ⟨76, _⟩ => ⟨S50000x128, .f32⟩
  | .hbm, ⟨77, _⟩ => ⟨S600000x1, .i32⟩
  | .hbm, ⟨78, _⟩ => ⟨S50000x128, .f32⟩
  | .hbm, ⟨79, _⟩ => ⟨S_, .f32⟩
  | .hbm, ⟨80, _⟩ => ⟨S50000x3, .f32⟩
  | .hbm, ⟨81, _⟩ => ⟨S600000x1, .i32⟩
  | .hbm, ⟨82, _⟩ => ⟨S50000x3, .f32⟩
  | .hbm, ⟨83, _⟩ => ⟨S128x128, .f32⟩
  | .hbm, ⟨84, _⟩ => ⟨S128x128, .f32⟩
  | .hbm, ⟨85, _⟩ => ⟨S1x128, .f32⟩
  | .hbm, ⟨86, _⟩ => ⟨S1x128, .f32⟩
  | .hbm, ⟨87, _⟩ => ⟨S50000x128, .f32⟩
  | .hbm, ⟨88, _⟩ => ⟨S50000x3, .f32⟩
  | .local _ .vmem, ⟨0, _⟩ => ⟨S4000x128, .bf16⟩
  | .local _ .vmem, ⟨1, _⟩ => ⟨S4000x128, .bf16⟩
  | .local _ .vmem, ⟨2, _⟩ => ⟨S4000x128, .bf16⟩
  | .local _ .vmem, ⟨3, _⟩ => ⟨S4000x128, .bf16⟩
  | .local _ .vmem, ⟨4, _⟩ => ⟨S4000x1, .f32⟩
  | .local _ .vmem, ⟨5, _⟩ => ⟨S4000x1, .f32⟩
  | .local _ .vmem, ⟨6, _⟩ => ⟨S4000x3, .f32⟩
  | .local _ .vmem, ⟨7, _⟩ => ⟨S4000x3, .f32⟩
  | .local _ .vmem, ⟨8, _⟩ => ⟨S128x128, .f32⟩
  | .local _ .vmem, ⟨9, _⟩ => ⟨S128x128, .f32⟩
  | .local _ .vmem, ⟨10, _⟩ => ⟨S1x128, .f32⟩
  | .local _ .vmem, ⟨11, _⟩ => ⟨S1x128, .f32⟩
  | .local _ .vmem, ⟨12, _⟩ => ⟨S128x128, .f32⟩
  | .local _ .vmem, ⟨13, _⟩ => ⟨S1x128, .f32⟩
  | .local _ .vmem, ⟨14, _⟩ => ⟨S128x1, .f32⟩
  | .local _ .vmem, ⟨15, _⟩ => ⟨S1x1, .f32⟩
  | .local _ .vmem, ⟨16, _⟩ => ⟨S128x128, .f32⟩
  | .local _ .vmem, ⟨17, _⟩ => ⟨S1x128, .f32⟩
  | .local _ .vmem, ⟨18, _⟩ => ⟨S128x1, .f32⟩
  | .local _ .vmem, ⟨19, _⟩ => ⟨S1x1, .f32⟩
  | .local _ .vmem, ⟨20, _⟩ => ⟨S4000x128, .bf16⟩
  | .local _ .vmem, ⟨21, _⟩ => ⟨S4000x128, .bf16⟩
  | .local _ .vmem, ⟨22, _⟩ => ⟨S4000x3, .f32⟩
  | .local _ .vmem, ⟨23, _⟩ => ⟨S4000x3, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S128x128, .f32⟩
  | .local _ .vmem, ⟨29, _⟩ => ⟨S128x128, .f32⟩
  | .local _ .vmem, ⟨30, _⟩ => ⟨S1x128, .f32⟩
  | .local _ .vmem, ⟨31, _⟩ => ⟨S128x128, .f32⟩
  | .local _ .vmem, ⟨32, _⟩ => ⟨S1x128, .f32⟩
  | .local _ .vmem, ⟨33, _⟩ => ⟨S5000x128, .f32⟩
  | .local _ .vmem, ⟨34, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_c_1 : Ref sig .tc := ⟨.hbm, 30, rfl⟩
abbrev main_v11 : Ref sig .tc := ⟨.hbm, 31, rfl⟩
abbrev main_v12 : Ref sig .tc := ⟨.hbm, 32, rfl⟩
abbrev main_c_2 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_call0_v0 : Ref sig .tc := ⟨.hbm, 40, rfl⟩
abbrev main_call0_cst : Ref sig .tc := ⟨.hbm, 41, rfl⟩
abbrev main_call0_v1 : Ref sig .tc := ⟨.hbm, 42, rfl⟩
abbrev main_call0_v2 : Ref sig .tc := ⟨.hbm, 43, rfl⟩
abbrev main_v19 : Ref sig .tc := ⟨.hbm, 44, rfl⟩
abbrev main_v20 : Ref sig .tc := ⟨.hbm, 45, rfl⟩
abbrev main_c_3 : Ref sig .tc := ⟨.hbm, 46, rfl⟩
abbrev main_v21 : Ref sig .tc := ⟨.hbm, 47, rfl⟩
abbrev main_v22 : Ref sig .tc := ⟨.hbm, 48, rfl⟩
abbrev main_c_4 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_c_5 : Ref sig .tc := ⟨.hbm, 55, rfl⟩
abbrev main_v28 : Ref sig .tc := ⟨.hbm, 56, rfl⟩
abbrev main_v29 : Ref sig .tc := ⟨.hbm, 57, rfl⟩
abbrev main_c_6 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43_0 : Ref sig .tc := ⟨.hbm, 72, rfl⟩
abbrev main_v43_1 : Ref sig .tc := ⟨.hbm, 73, rfl⟩
abbrev main_v44 : Ref sig .tc := ⟨.hbm, 74, rfl⟩
abbrev main_cst : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_cst_7 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg16_1 : Ref sig .tc := ⟨.vmem, 21, rfl⟩
abbrev cc0_stg17_0 : Ref sig .tc := ⟨.vmem, 22, rfl⟩
abbrev cc0_stg17_1 : Ref sig .tc := ⟨.vmem, 23, rfl⟩
abbrev cc1_stg0_0 : Ref sig .tc := ⟨.vmem, 24, rfl⟩
abbrev cc1_stg0_1 : Ref sig .tc := ⟨.vmem, 25, rfl⟩
abbrev cc1_stg1_0 : Ref sig .tc := ⟨.vmem, 26, rfl⟩
abbrev cc1_stg1_1 : Ref sig .tc := ⟨.vmem, 27, rfl⟩
abbrev cc1_stg2_0 : Ref sig .tc := ⟨.vmem, 28, rfl⟩
abbrev cc1_stg3_0 : Ref sig .tc := ⟨.vmem, 29, rfl⟩
abbrev cc1_stg4_0 : Ref sig .tc := ⟨.vmem, 30, rfl⟩
abbrev cc1_stg5_0 : Ref sig .tc := ⟨.vmem, 31, rfl⟩
abbrev cc1_stg6_0 : Ref sig .tc := ⟨.vmem, 32, rfl⟩
abbrev cc1_stg7_0 : Ref sig .tc := ⟨.vmem, 33, rfl⟩
abbrev cc1_stg7_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem16_1 : DmaSem sig := 21
abbrev cc0_sem17_0 : DmaSem sig := 22
abbrev cc0_sem17_1 : DmaSem sig := 23
abbrev cc1_sem0_0 : DmaSem sig := 24
abbrev cc1_sem0_1 : DmaSem sig := 25
abbrev cc1_sem1_0 : DmaSem sig := 26
abbrev cc1_sem1_1 : DmaSem sig := 27
abbrev cc1_sem2_0 : DmaSem sig := 28
abbrev cc1_sem3_0 : DmaSem sig := 29
abbrev cc1_sem4_0 : DmaSem sig := 30
abbrev cc1_sem5_0 : DmaSem sig := 31
abbrev cc1_sem6_0 : DmaSem sig := 32
abbrev cc1_sem7_0 : DmaSem sig := 33
abbrev cc1_sem7_1 : DmaSem sig := 34

abbrev nD : Nat := 1
abbrev τ : Topo := Topo.v7x

variable {F : FTy → Type} [FloatOps F]

abbrev grid0 : Pipeline.Grid := ⟨1, ![150], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S4000x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S4000x3 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  reducesTo_S600000x3_S600000_d1 : S600000x3.ReducesTo [1] S600000
  h_S_ : 0 < S_.numel
  bitsLt_bf16_f32 : FTy.bits .bf16 < FTy.bits .f32
  slices_S257x128_S128x128_0_0 : S257x128.Slices ![0, 0] S128x128
  slices_S257x128_S128x128_128_0 : S257x128.Slices ![128, 0] S128x128
  slices_S257x128_S1x128_256_0 : S257x128.Slices ![256, 0] S1x128
  shapeCasts_S128_S1x128 : S128.ShapeCasts S1x128
  shapeCasts_S1_S1x1 : S1.ShapeCasts S1x1
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4000x1 : S1x1.Broadcasts S4000x1
  broadcasts_S4000x1_S4000x128 : S4000x1.Broadcasts S4000x128
  packedbf16_S4000x128_S4000x128_0_0 : (Rect.unit (s := S4000x128) ![0, 0] S4000x128.size inb_S4000x128_S4000x128_0_0).PackedRows (EltTy.packing .bf16)
  inb_S4000x3_S4000x3_0_0 : ∀ a, (![0, 0] : Fin 2 → Nat) a + S4000x3.size a ≤ S4000x3.size a
  h_S4000x3 : 0 < S4000x3.numel
  shapeCasts_S4000x3_S4000x3 : S4000x3.ShapeCasts S4000x3
  broadcasts_S4000x1_S4000x3 : S4000x1.Broadcasts S4000x3
  bcast_S_S50000x128 : S_.BroadcastsInDim S50000x128 (![] : Fin 0 → Fin S50000x128.rank)
  bcast_S_S50000x3 : S_.BroadcastsInDim S50000x3 (![] : Fin 0 → Fin S50000x3.rank)
  slices_S256x128_S128x128_0_0 : S256x128.Slices ![0, 0] S128x128
  slices_S256x128_S128x128_128_0 : S256x128.Slices ![128, 0] S128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S1x128_S5000x128 : S1x128.Broadcasts S5000x128
  gather_S50000x3_S600000x1_S600000x3_1_0_n_n_0_1_13_wf : GatherDims.WF S50000x3 S600000x1 S600000x3 [1] [0] [] [0] [] 1 ![1, 3]
  gather_S50000x128_S600000x1_S600000x128_1_0_n_n_0_1_1128_wf : GatherDims.WF S50000x128 S600000x1 S600000x128 [1] [0] [] [0] [] 1 ![1, 128]
  dot_S4000x128_S128x128_S4000x128_1_0_0_1_n_n_wf : DotDims.WF S4000x128 S128x128 S4000x128 [1] [0] [0] [1] [] []
  dot_S4000x1_S1x128_S4000x128_1_0_0_1_n_n_wf : DotDims.WF S4000x1 S1x128 S4000x128 [1] [0] [0] [1] [] []
  dot_S4000x128_S128x1_S4000x1_1_0_0_1_n_n_wf : DotDims.WF S4000x128 S128x1 S4000x1 [1] [0] [0] [1] [] []
  scatter_S50000x128_S600000x1_S600000x128_1_0_0_1_wf : ScatterDims.WF S50000x128 S600000x1 S600000x128 [1] [0] [0] 1
  scatter_S50000x3_S600000x1_S600000x3_1_0_0_1_wf : ScatterDims.WF S50000x3 S600000x1 S600000x3 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S600000x128.size a
  hwx0_0 : ∀ i : grid0.Coords, EltTy.bits .bf16 = 32 ∨ (Rect.block (s := S600000x128) S4000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S600000x128.size a
  hwx0_1 : ∀ i : grid0.Coords, EltTy.bits .bf16 = 32 ∨ (Rect.block (s := S600000x128) S4000x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S600000x1.size a
  hwx0_2 : ∀ i : grid0.Coords, EltTy.bits .f32 = 32 ∨ (Rect.block (s := S600000x1) S4000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x3.size a ≤ S600000x3.size a
  hwx0_3 : ∀ i : grid0.Coords, EltTy.bits .f32 = 32 ∨ (Rect.block (s := S600000x3) S4000x3.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x1.size a ≤ S128x1.size a
  hwx0_10 : ∀ i : grid0.Coords, EltTy.bits .f32 = 32 ∨ (Rect.block (s := S128x1) S128x1.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1.size a ≤ S1x1.size a
  hwx0_11 : ∀ i : grid0.Coords, EltTy.bits .f32 = 32 ∨ (Rect.block (s := S1x1) S1x1.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128x128.size a ≤ S128x128.size a
  hwx0_12 : ∀ i : grid0.Coords, EltTy.bits .f32 = 32 ∨ (Rect.block (s := S128x128) S128x128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x128.size a ≤ S1x128.size a
  hwx0_13 : ∀ i : grid0.Coords, EltTy.bits .f32 = 32 ∨ (Rect.block (s := S1x128) S1x128.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S128x1.size a ≤ S128x1.size a
  hwx0_14 : ∀ i : grid0.Coords, EltTy.bits .f32 = 32 ∨ (Rect.block (s := S128x1) S128x1.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x1.size a ≤ S1x1.size a
  hwx0_15 : ∀ i : grid0.Coords, EltTy.bits .f32 = 32 ∨ (Rect.block (s := S1x1) S1x1.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S4000x128.size a ≤ S600000x128.size a
  hwx0_16 : ∀ i : grid0.Coords, EltTy.bits .bf16 = 32 ∨ (Rect.block (s := S600000x128) S4000x128.size (cc0_transform_16 i) (hinb0_16 i)).WholeWords (EltTy.packing .bf16)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S4000x3.size a ≤ S600000x3.size a
  hwx0_17 : ∀ i : grid0.Coords, EltTy.bits .f32 = 32 ∨ (Rect.block (s := S600000x3) S4000x3.size (cc0_transform_17 i) (hinb0_17 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S50000x128.size a
  hwx1_7 : ∀ i : grid1.Coords, EltTy.bits .f32 = 32 ∨ (Rect.block (s := S50000x128) S5000x128.size (cc1_transform_7 i) (hinb1_7 i)).WholeWords (EltTy.packing .f32)

variable [Facts₀]

def gather_S50000x3_S600000x1_S600000x3_1_0_n_n_0_1_13 : GatherDims S50000x3 S600000x1 S600000x3 where
  offsetDims := [1]
  collapsedSliceDims := [0]
  operandBatchingDims := []
  startIndicesBatchingDims := []
  startIndexMap := [0]
  indexVectorDim := 1
  sliceSizes := ![1, 3]
  wf := gather_S50000x3_S600000x1_S600000x3_1_0_n_n_0_1_13_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x1_S1x128_S4000x128_1_0_0_1_n_n : DotDims S4000x1 S1x128 S4000x128 where
  lhsContracting := [1]
  rhsContracting := [0]
  lhsNonContracting := [0]
  rhsNonContracting := [1]
  lhsBatch := []
  rhsBatch := []
  wf := dot_S4000x1_S1x128_S4000x128_1_0_0_1_n_n_wf
def dot_S4000x128_S128x1_S4000x1_1_0_0_1_n_n : DotDims S4000x128 S128x1 S4000x1 where
  lhsContracting := [1]
  rhsContracting := [0]
  lhsNonContracting := [0]
  rhsNonContracting := [1]
  lhsBatch := []
  rhsBatch := []
  wf := dot_S4000x128_S128x1_S4000x1_1_0_0_1_n_n_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000x3_S600000x1_S600000x3_1_0_0_1 : ScatterDims S50000x3 S600000x1 S600000x3 where
  updateWindowDims := [1]
  insertedWindowDims := [0]
  scatterDimsToOperandDims := [0]
  indexVectorDim := 1
  wf := scatter_S50000x3_S600000x1_S600000x3_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v34) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v27) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S4000x3.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v35) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v36) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v37) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v38) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg5) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v39) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg7) S128x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v40) S1x1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg13) S128x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v41) S1x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg15) S128x1.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v42) S1x1.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v43_0) S4000x128.size cc0_transform_16 reads0_16 true false 2 stage0_16 sem0_16
    hrank0 hreads0_16 hinb0_16 nbuf0_16 (Memref.isWhole_whole _) hwx0_16 hstage0_16

abbrev win0_17 : Pipeline.Window sig grid0 :=
  Pipeline.Window.ofSpec (Memref.whole main_v43_1) S4000x3.size cc0_transform_17 reads0_17 true false 2 stage0_17 sem0_17
    hrank0 hreads0_17 hinb0_17 nbuf0_17 (Memref.isWhole_whole _) hwx0_17 hstage0_17

abbrev win0 : Fin 18 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | ⟨_ + 18, h⟩ => absurd h (Nat.not_lt.2 (Nat.le_add_left _ _))
abbrev spec0 : Fin 18 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v51) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v52) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v53) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg11) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v54) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v55) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x128 : Shape := ⟨2, ![50000, 128]⟩
abbrev S50000x3 : Shape := ⟨2, ![50000, 3]⟩
abbrev S2x600000 : Shape := ⟨2, ![2, 600000]⟩
abbrev S257x128 : Shape := ⟨2, ![257, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S256x128 : Shape := ⟨2, ![256, 128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x3 : Shape := ⟨2, ![600000, 3]⟩
abbrev S600000x128 : Shape := ⟨2, ![600000, 128]⟩
abbrev S600000x257 : Shape := ⟨2, ![600000, 257]⟩
abbrev S1x128 : Shape := ⟨2, ![1, 128]⟩
abbrev S1x1 : Shape := ⟨2, ![1, 1]⟩
abbrev S50000x256 : Shape := ⟨2, ![50000, 256]⟩

abbrev nBuf : Space → Nat
  | .hbm => 151
  | .vmem => 0
  | .smem => 0
  | _ => 0

abbrev hbmTy0_0 (i : Nat) : BufTy := match i % 128 with
  | 0 => ⟨S50000x128, .f32⟩
  | 1 => ⟨S50000x3, .f32⟩
  | 2 => ⟨S2x600000, .i32⟩
  | 3 => ⟨S257x128, .f32⟩
  | 4 => ⟨S128, .f32⟩
  | 5 => ⟨S128x128, .f32⟩
  | 6 => ⟨S128, .f32⟩
  | 7 => ⟨S128x1, .f32⟩
  | 8 => ⟨S1, .f32⟩
  | 9 => ⟨S256x128, .f32⟩
  | 10 => ⟨S128, .f32⟩
  | 11 => ⟨S128x128, .f32⟩
  | 12 => ⟨S128, .f32⟩
  | 13 => ⟨S128x128, .f32⟩
  | 14 => ⟨S128, .f32⟩
  | 15 => ⟨S128x1, .f32⟩
  | 16 => ⟨S1, .f32⟩
  | 17 => ⟨S1x600000, .i32⟩
  | 18 => ⟨S600000, .i32⟩
  | 19 => ⟨S1x600000, .i32⟩
  | 20 => ⟨S600000, .i32⟩
  | 21 => ⟨S_, .i32⟩
  | 22 => ⟨S600000, .i32⟩
  | 23 => ⟨S600000, .i1⟩
  | 24 => ⟨S_, .i32⟩
  | 25 => ⟨S600000, .i32⟩
  | 26 => ⟨S600000, .i32⟩
  | 27 => ⟨S600000, .i32⟩
  | 28 => ⟨S600000x1, .i32⟩
  | 29 => ⟨S600000x3, .f32⟩
  | 30 => ⟨S_, .i32⟩
  | 31 => ⟨S600000, .i32⟩
  | 32 => ⟨S600000, .i1⟩
  | 33 => ⟨S_, .i32⟩
  | 34 => ⟨S600000, .i32⟩
  | 35 => ⟨S600000, .i32⟩
  | 36 => ⟨S600000, .i32⟩
  | 37 => ⟨S600000x1, .i32⟩
  | 38 => ⟨S600000x3, .f32⟩
  | 39 => ⟨S600000x3, .f32⟩
  | 40 => ⟨S600000x3, .f32⟩
  | 41 => ⟨S_, .f32⟩
  | 42 => ⟨S600000, .f32⟩
  | 43 => ⟨S600000x1, .f32⟩
  | 44 => ⟨S600000x1, .f32⟩
  | 45 => ⟨S_, .i32⟩
  | 46 => ⟨S600000, .i32⟩
  | 47 => ⟨S600000, .i1⟩
  | 48 => ⟨S_, .i32⟩
  | 49 => ⟨S600000, .i32⟩
  | 50 => ⟨S600000, .i32⟩
  | 51 => ⟨S600000, .i32⟩
  | 52 => ⟨S600000x1, .i32⟩
  | 53 => ⟨S600000x128, .f32⟩
  | 54 => ⟨S_, .i32⟩
  | 55 => ⟨S600000, .i32⟩
  | 56 => ⟨S600000, .i1⟩
  | 57 => ⟨S_, .i32⟩
  | 58 => ⟨S600000, .i32⟩
  | 59 => ⟨S600000, .i32⟩
  | 60 => ⟨S600000, .i32⟩
  | 61 => ⟨S600000x1, .i32⟩
  | 62 => ⟨S600000x128, .f32⟩
  | 63 => ⟨S600000x257, .f32⟩
  | 64 => ⟨S600000x128, .f32⟩
  | 65 => ⟨S1x128, .f32⟩
  | 66 => ⟨S600000x128, .f32⟩
  | 67 => ⟨S600000x128, .f32⟩
  | 68 => ⟨S600000x128, .f32⟩
  | 69 => ⟨S600000x128, .f32⟩
  | 70 => ⟨S_, .f32⟩
  | 71 => ⟨S600000x128, .f32⟩
  | 72 => ⟨S600000x128, .f32⟩
  | 73 => ⟨S_, .f32⟩
  | 74 => ⟨S600000x128, .f32⟩
  | 75 => ⟨S600000x128, .f32⟩
  | 76 => ⟨S600000x128, .f32⟩
  | 77 => ⟨S600000x128, .f32⟩
  | 78 => ⟨S1x128, .f32⟩
  | 79 => ⟨S600000x128, .f32⟩
  | 80 => ⟨S600000x128, .f32⟩
  | 81 => ⟨S600000x128, .f32⟩
  | 82 => ⟨S600000x128, .f32⟩
  | 83 => ⟨S_, .f32⟩
  | 84 => ⟨S600000x128, .f32⟩
  | 85 => ⟨S600000x128, .f32⟩
  | 86 => ⟨S_, .f32⟩
  | 87 => ⟨S600000x128, .f32⟩
  | 88 => ⟨S600000x128, .f32⟩
  | 89 => ⟨S600000x128, .f32⟩
  | 90 => ⟨S600000x1, .f32⟩
  | 91 => ⟨S1x1, .f32⟩
  | 92 => ⟨S600000x1, .f32⟩
  | 93 => ⟨S600000x1, .f32⟩
  | 94 => ⟨S600000x1, .f32⟩
  | 95 => ⟨S600000x1, .f32⟩
  | 96 => ⟨S_, .f32⟩
  | 97 => ⟨S600000x1, .f32⟩
  | 98 => ⟨S600000x1, .f32⟩
  | 99 => ⟨S_, .f32⟩
  | 100 => ⟨S600000x1, .f32⟩
  | 101 => ⟨S600000x1, .f32⟩
  | 102 => ⟨S600000x128, .f32⟩
  | 103 => ⟨S600000x128, .f32⟩
  | 104 => ⟨S_, .f32⟩
  | 105 => ⟨S50000x128, .f32⟩
  | 106 => ⟨S600000x1, .i32⟩
  | 107 => ⟨S50000x128, .f32⟩
  | 108 => ⟨S50000x256, .f32⟩
  | 109 => ⟨S50000x128, .f32⟩
  | 110 => ⟨S1x128, .f32⟩
  | 111 => ⟨S50000x128, .f32⟩
  | 112 => ⟨S50000x128, .f32⟩
  | 113 => ⟨S50000x128, .f32⟩
  | 114 => ⟨S50000x128, .f32⟩
  | 115 => ⟨S_, .f32⟩
  | 116 => ⟨S50000x128, .f32⟩
  | 117 => ⟨S50000x128, .f32⟩
  | 118 => ⟨S_, .f32⟩
  | 119 => ⟨S50000x128, .f32⟩
  | 120 => ⟨S50000x128, .f32⟩
  | 121 => ⟨S50000x128, .f32⟩
  | 122 => ⟨S50000x128, .f32⟩
  | 123 => ⟨S1x128, .f32⟩
  | 124 => ⟨S50000x128, .f32⟩
  | 125 => ⟨S50000x128, .f32⟩
  | 126 => ⟨S50000x128, .f32⟩
  | 127 => ⟨S600000x128, .f32⟩
  | _ => ⟨S50000x128, .f32⟩

abbrev hbmTy0_1 (i : Nat) : BufTy := match i % 128 with
  | 0 => ⟨S1x128, .f32⟩
  | 1 => ⟨S600000x128, .f32⟩
  | 2 => ⟨S600000x128, .f32⟩
  | 3 => ⟨S600000x128, .f32⟩
  | 4 => ⟨S600000x128, .f32⟩
  | 5 => ⟨S_, .f32⟩
  | 6 => ⟨S600000x128, .f32⟩
  | 7 => ⟨S600000x128, .f32⟩
  | 8 => ⟨S_, .f32⟩
  | 9 => ⟨S600000x128, .f32⟩
  | 10 => ⟨S600000x128, .f32⟩
  | 11 => ⟨S600000x128, .f32⟩
  | 12 => ⟨S600000x1, .f32⟩
  | 13 => ⟨S1x1, .f32⟩
  | 14 => ⟨S600000x1, .f32⟩
  | 15 => ⟨S600000x1, .f32⟩
  | 16 => ⟨S600000x3, .f32⟩
  | 17 => ⟨S600000x3, .f32⟩
  | 18 => ⟨S_, .f32⟩
  | 19 => ⟨S50000x3, .f32⟩
  | 20 => ⟨S600000x1, .i32⟩
  | 21 => ⟨S50000x3, .f32⟩
  | 22 => ⟨S50000x3, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_c_1 : Ref sig .tc := ⟨.hbm, 30, rfl⟩
abbrev main_v11 : Ref sig .tc := ⟨.hbm, 31, rfl⟩
abbrev main_v12 : Ref sig .tc := ⟨.hbm, 32, rfl⟩
abbrev main_c_2 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_call0_v0 : Ref sig .tc := ⟨.hbm, 40, rfl⟩
abbrev main_call0_cst : Ref sig .tc := ⟨.hbm, 41, rfl⟩
abbrev main_call0_v1 : Ref sig .tc := ⟨.hbm, 42, rfl⟩
abbrev main_call0_v2 : Ref sig .tc := ⟨.hbm, 43, rfl⟩
abbrev main_v19 : Ref sig .tc := ⟨.hbm, 44, rfl⟩
abbrev main_c_3 : Ref sig .tc := ⟨.hbm, 45, rfl⟩
abbrev main_v20 : Ref sig .tc := ⟨.hbm, 46, rfl⟩
abbrev main_v21 : Ref sig .tc := ⟨.hbm, 47, rfl⟩
abbrev main_c_4 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_c_5 : Ref sig .tc := ⟨.hbm, 54, rfl⟩
abbrev main_v27 : Ref sig .tc := ⟨.hbm, 55, rfl⟩
abbrev main_v28 : Ref sig .tc := ⟨.hbm, 56, rfl⟩
abbrev main_c_6 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_call1_v0 : Ref sig .tc := ⟨.hbm, 68, rfl⟩
abbrev main_call1_v1 : Ref sig .tc := ⟨.hbm, 69, rfl⟩
abbrev main_call1_cst : Ref sig .tc := ⟨.hbm, 70, rfl⟩
abbrev main_call1_v2 : Ref sig .tc := ⟨.hbm, 71, rfl⟩
abbrev main_call1_v3 : Ref sig .tc := ⟨.hbm, 72, rfl⟩
abbrev main_call1_cst_0 : Ref sig .tc := ⟨.hbm, 73, rfl⟩
abbrev main_call1_v4 : Ref sig .tc := ⟨.hbm, 74, rfl⟩
abbrev main_call1_v5 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_call2_v0 : Ref sig .tc := ⟨.hbm, 81, rfl⟩
abbrev main_call2_v1 : Ref sig .tc := ⟨.hbm, 82, rfl⟩
abbrev main_call2_cst : Ref sig .tc := ⟨.hbm, 83, rfl⟩
abbrev main_call2_v2 : Ref sig .tc := ⟨.hbm, 84, rfl⟩
abbrev main_call2_v3 : Ref sig .tc := ⟨.hbm, 85, rfl⟩
abbrev main_call2_cst_0 : Ref sig .tc := ⟨.hbm, 86, rfl⟩
abbrev main_call2_v4 : Ref sig .tc := ⟨.hbm, 87, rfl⟩
abbrev main_call2_v5 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_cst : Ref sig .tc := ⟨.hbm, 96, rfl⟩
abbrev main_v51 : Ref sig .tc := ⟨.hbm, 97, rfl⟩
abbrev main_v52 : Ref sig .tc := ⟨.hbm, 98, rfl⟩
abbrev main_cst_7 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_cst_8 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_call3_v0 : Ref sig .tc := ⟨.hbm, 113, rfl⟩
abbrev main_call3_v1 : Ref sig .tc := ⟨.hbm, 114, rfl⟩
abbrev main_call3_cst : Ref sig .tc := ⟨.hbm, 115, rfl⟩
abbrev main_call3_v2 : Ref sig .tc := ⟨.hbm, 116, rfl⟩
abbrev main_call3_v3 : Ref sig .tc := ⟨.hbm, 117, rfl⟩
abbrev main_call3_cst_0 : Ref sig .tc := ⟨.hbm, 118, rfl⟩
abbrev main_call3_v4 : Ref sig .tc := ⟨.hbm, 119, rfl⟩
abbrev main_call3_v5 : Ref sig .tc := ⟨.hbm, 120, rfl⟩
abbrev main_v65 : Ref sig .tc := ⟨.hbm, 121, rfl⟩
abbrev main_v66 : Ref sig .tc := ⟨.hbm, 122, rfl⟩
abbrev main_v67 : Ref sig .tc := ⟨.hbm, 123, rfl⟩
abbrev main_v68 : Ref sig .tc := ⟨.hbm, 124, rfl⟩
abbrev main_v69 : Ref sig .tc := ⟨.hbm, 125, rfl⟩
abbrev main_v70 : Ref sig .tc := ⟨.hbm, 126, rfl⟩
abbrev main_v71 : Ref sig .tc := ⟨.hbm, 127, rfl⟩
abbrev main_v72 : Ref sig .tc := ⟨.hbm, 128, rfl⟩
abbrev main_v73 : Ref sig .tc := ⟨.hbm, 129, rfl⟩
abbrev main_v74 : Ref sig .tc := ⟨.hbm, 130, rfl⟩
abbrev main_call4_v0 : Ref sig .tc := ⟨.hbm, 131, rfl⟩
abbrev main_call4_v1 : Ref sig .tc := ⟨.hbm, 132, rfl⟩
abbrev main_call4_cst : Ref sig .tc := ⟨.hbm, 133, rfl⟩
abbrev main_call4_v2 : Ref sig .tc := ⟨.hbm, 134, rfl⟩
abbrev main_call4_v3 : Ref sig .tc := ⟨.hbm, 135, rfl⟩
abbrev main_call4_cst_0 : Ref sig .tc := ⟨.hbm, 136, rfl⟩
abbrev main_call4_v4 : Ref sig .tc := ⟨.hbm, 137, rfl⟩
abbrev main_call4_v5 : Ref sig .tc := ⟨.hbm, 138, rfl⟩
abbrev main_v75 : Ref sig .tc := ⟨.hbm, 139, rfl⟩
abbrev main_v76 : Ref sig .tc := ⟨.hbm, 140, rfl⟩
abbrev main_v77 : Ref sig .tc := ⟨.hbm, 141, rfl⟩
abbrev main_v78 : Ref sig .tc := ⟨.hbm, 142, rfl⟩
abbrev main_v79 : Ref sig .tc := ⟨.hbm, 143, rfl⟩
abbrev main_v80 : Ref sig .tc := ⟨.hbm, 144, rfl⟩
abbrev main_v81 : Ref sig .tc := ⟨.hbm, 145, rfl⟩
abbrev main_cst_9 : Ref sig .tc := ⟨.hbm, 146, rfl⟩
abbrev main_v82 : Ref sig .tc := ⟨.hbm, 147, rfl⟩
abbrev main_v83 : Ref sig .tc := ⟨.hbm, 148, rfl⟩
abbrev main_v84 : Ref sig .tc := ⟨.hbm, 149, rfl⟩
abbrev main_v85 : Ref sig .tc := ⟨.hbm, 150, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  reducesTo_S600000x3_S600000_d1 : S600000x3.ReducesTo [1] S600000
  h_S_ : 0 < S_.numel
  concatenates_S600000x128_S600000x128_S600000x1_S600000x257_d1 : Shape.Concatenates [S600000x128, S600000x128, S600000x1] S600000x257 1
  bcast_S128_S1x128_1 : S128.BroadcastsInDim S1x128 (![1] : Fin 1 → Fin S1x128.rank)
  bcast_S1x128_S600000x128_0_1 : S1x128.BroadcastsInDim S600000x128 (![0, 1] : Fin 2 → Fin S600000x128.rank)
  bcast_S_S600000x128 : S_.BroadcastsInDim S600000x128 (![] : Fin 0 → Fin S600000x128.rank)
  bcast_S1_S1x1_1 : S1.BroadcastsInDim S1x1 (![1] : Fin 1 → Fin S1x1.rank)
  bcast_S1x1_S600000x1_0_1 : S1x1.BroadcastsInDim S600000x1 (![0, 1] : Fin 2 → Fin S600000x1.rank)
  bcast_S_S600000x1 : S_.BroadcastsInDim S600000x1 (![] : Fin 0 → Fin S600000x1.rank)
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  concatenates_S50000x128_S50000x128_S50000x256_d1 : Shape.Concatenates [S50000x128, S50000x128] S50000x256 1
  bcast_S1x128_S50000x128_0_1 : S1x128.BroadcastsInDim S50000x128 (![0, 1] : Fin 2 → Fin S50000x128.rank)
  bcast_S600000x1_S600000x3_0_1 : S600000x1.BroadcastsInDim S600000x3 (![0, 1] : Fin 2 → Fin S600000x3.rank)
  bcast_S_S50000x3 : S_.BroadcastsInDim S50000x3 (![] : Fin 0 → Fin S50000x3.rank)
  gather_S50000x3_S600000x1_S600000x3_1_0_n_n_0_1_13_wf : GatherDims.WF S50000x3 S600000x1 S600000x3 [1] [0] [] [0] [] 1 ![1, 3]
  gather_S50000x128_S600000x1_S600000x128_1_0_n_n_0_1_1128_wf : GatherDims.WF S50000x128 S600000x1 S600000x128 [1] [0] [] [0] [] 1 ![1, 128]
  dot_S600000x257_S257x128_S600000x128_1_0_0_1_n_n_wf : DotDims.WF S600000x257 S257x128 S600000x128 [1] [0] [0] [1] [] []
  dot_S600000x128_S128x128_S600000x128_1_0_0_1_n_n_wf : DotDims.WF S600000x128 S128x128 S600000x128 [1] [0] [0] [1] [] []
  dot_S600000x128_S128x1_S600000x1_1_0_0_1_n_n_wf : DotDims.WF S600000x128 S128x1 S600000x1 [1] [0] [0] [1] [] []
  scatter_S50000x128_S600000x1_S600000x128_1_0_0_1_wf : ScatterDims.WF S50000x128 S600000x1 S600000x128 [1] [0] [0] 1
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []
  scatter_S50000x3_S600000x1_S600000x3_1_0_0_1_wf : ScatterDims.WF S50000x3 S600000x1 S600000x3 [1] [0] [0] 1

variable [Facts₀]

def gather_S50000x3_S600000x1_S600000x3_1_0_n_n_0_1_13 : GatherDims S50000x3 S600000x1 S600000x3 where
  offsetDims := [1]
  collapsedSliceDims := [0]
  operandBatchingDims := []
  startIndicesBatchingDims := []
  startIndexMap := [0]
  indexVectorDim := 1
  sliceSizes := ![1, 3]
  wf := gather_S50000x3_S600000x1_S600000x3_1_0_n_n_0_1_13_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def dot_S600000x257_S257x128_S600000x128_1_0_0_1_n_n : DotDims S600000x257 S257x128 S600000x128 where
  lhsContracting := [1]
  rhsContracting := [0]
  lhsNonContracting := [0]
  rhsNonContracting := [1]
  lhsBatch := []
  rhsBatch := []
  wf := dot_S600000x257_S257x128_S600000x128_1_0_0_1_n_n_wf
def dot_S600000x128_S128x128_S600000x128_1_0_0_1_n_n : DotDims S600000x128 S128x128 S600000x128 where
  lhsContracting := [1]
  rhsContracting := [0]
  lhsNonContracting := [0]
  rhsNonContracting := [1]
  lhsBatch := []
  rhsBatch := []
  wf := dot_S600000x128_S128x128_S600000x128_1_0_0_1_n_n_wf
def dot_S600000x128_S128x1_S600000x1_1_0_0_1_n_n : DotDims S600000x128 S128x1 S600000x1 where
  lhsContracting := [1]
  rhsContracting := [0]
  lhsNonContracting := [0]
  rhsNonContracting := [1]
  lhsBatch := []
  rhsBatch := []
  wf := dot_S600000x128_S128x1_S600000x1_1_0_0_1_n_n_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000x3_S600000x1_S600000x3_1_0_0_1 : ScatterDims S50000x3 S600000x1 S600000x3 where
  updateWindowDims := [1]
  insertedWindowDims := [0]
  scatterDimsToOperandDims := [0]
  indexVectorDim := 1
  wf := scatter_S50000x3_S600000x1_S600000x3_1_0_0_1_wf

class Facts : Prop extends Facts₀ where

variable [Facts]
-- ==== Proof.LibTypedRef.lean ====
/-
  Typed references and lines of host operations: three general facts.

  An operation of a module-local function is spelt over typed references: its function is stated at the value's type
  `T` and moved to the buffer's own type along the reference's proof that the two types agree (`toBuf`), and an
  operand's contents are moved the other way (`ofBuf`). Both moves are the identity, since the proof they move along
  can only be reflexivity; the lemmas here say so for any typed reference, by taking the reference apart:

  * `ofBuf_toBuf`: there and back is the identity (what stands between two operations of a line that is read back);
  * `toBuf_eq`: a moved value equals contents of the buffer that are the same value (the outermost move);
  * `after_append`: the contents after two lines in a row are those after their concatenation, so a long line can be
    read back stretch by stretch.
-/
import Idealize.ShloMosaic.Lib.StableHlo.Run

noncomputable section

namespace Idealize.ShloMosaic.TypedRef

open Idealize.ShloMosaic Idealize.ShloMosaic.StableHlo

variable {nD : Nat} {τ : Topo} {sig : RefSig} {Val : EltTy → Type}

/-- A value moved to the buffer's type and back is the value. -/
theorem ofBuf_toBuf {T : BufTy} (x : TRef sig T) (v : T.Contents Val) : x.ofBuf (x.toBuf v) = v := by
  obtain ⟨r, rfl, h2, h3⟩ := x
  rfl

/-- A value moved to the buffer's type is any contents of the buffer that are the same value. -/
theorem toBuf_eq {T : BufTy} (x : TRef sig T) (v : T.Contents Val) (w : x.ref.ty.Contents Val) (h : HEq v w) :
    x.toBuf v = w := by
  obtain ⟨r, rfl, h2, h3⟩ := x
  exact eq_of_heq h

/-- The contents after a line and then another are the contents after their concatenation. -/
theorem after_append (l₁ l₂ : List (HloOp τ sig Val)) (V : Valuation τ sig Val) :
    after (l₁ ++ l₂) V = after l₂ (after l₁ V) := by
  induction l₁ generalizing V with
  | nil => rfl
  | cons op l ih => exact ih _

end Idealize.ShloMosaic.TypedRef

end
-- ==== Proof.RefRun.lean ====
/-
  The reference's run, read back stretch by stretch.

  The reference is one line of 134 host operations. Its buffers after a prefix of the line are a fold of the
  operations' results over the launch contents; the fold after `k + n` operations is the fold of the next `n` over the
  fold after `k`. The line is cut into seventeen stretches at the values that are used more than once (the index
  vectors, the coordinate differences, the distances, the gathered features, each layer's pre-activation and
  activation, the gated messages, the aggregated messages, …). For each stretch and each buffer still needed after it:
  if the stretch's live inputs hold the reference's stages (`val_…`) of the arguments, so does the buffer after the
  stretch — for a buffer the stretch writes, by reading the stretch's few operations back and unfolding the stage's
  definition; for a buffer it does not write, because nothing changes it. Chained from the launch contents (where every
  argument buffer holds its argument) this gives both results after the whole line. The outlined calls (the norm, the
  four silu) are spelt over typed references, whose moves between a value's type and its buffer's type are the
  identity: they are removed by the typed-reference lemmas.
-/
import proofs.«105293_j58471684768170_2_alg».proof.Proof.ReadP
import proofs.«105293_j58471684768170_2_alg».proof.Proof.LibTypedRef

set_option maxRecDepth 16384

noncomputable section

namespace Cert.ReferenceIdeal.RefRun

open Cert.ReferenceIdeal Cert.ReferenceIdeal.Gen Cert.ReferenceIdeal.ValueP
open Idealize.ShloMosaic Idealize.ShloMosaic.TcCoe Idealize.SL.Sem Idealize.ShloMosaic.StableHlo

/-- An operand's contents read at the value's type are any value equal to them: the two types are one. -/
theorem ofBuf_eq {T : BufTy} (x : TRef sig T) (w : x.ref.ty.Contents (Elt Ideal)) (v : T.Contents (Elt Ideal)) (h : HEq w v) :
    x.ofBuf w = v := by
  obtain ⟨r, rfl, h2, h3⟩ := x
  exact eq_of_heq h

/-- The fold after `k + n` operations is the fold of the next `n` over the fold after `k`. -/
theorem after_take_add (k n : Nat) (V : Valuation τ sig (Elt Ideal)) :
    after ((ops (F := Ideal)).take (k + n)) V = after (((ops (F := Ideal)).drop k).take n) (after ((ops (F := Ideal)).take k) V) := by
  rw [List.take_add, Idealize.ShloMosaic.TypedRef.after_append]

variable (x0 : (⟨S50000x128, .f32⟩ : BufTy).Contents (Elt Ideal)) (x1 : (⟨S50000x3, .f32⟩ : BufTy).Contents (Elt Ideal)) (x2 : (⟨S2x600000, .i32⟩ : BufTy).Contents (Elt Ideal)) (x3 : (⟨S257x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x1, .f32⟩ : BufTy).Contents (Elt Ideal)) (x8 : (⟨S1, .f32⟩ : BufTy).Contents (Elt Ideal)) (x9 : (⟨S256x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal)) (x15 : (⟨S128x1, .f32⟩ : BufTy).Contents (Elt Ideal)) (x16 : (⟨S1, .f32⟩ : BufTy).Contents (Elt Ideal))

/-! ## Operations 0 … 3 -/

set_option maxHeartbeats 1000000 in
theorem st0_v1 (Wo : Valuation τ sig (Elt Ideal)) (h_arg2 : Wo (Proc.devRef .tc main_arg2) = x2) :
    after (((ops (F := Ideal)).drop 0).take 4) Wo (Proc.devRef .tc main_v1) = (Cert.ReferenceIdeal.ReadP.val_main_v1 (F := Ideal) x2) := by
  generalize hR : (Cert.ReferenceIdeal.ReadP.val_main_v1 (F := Ideal) x2) = rhs
  simp only [ops, List.drop_succ_cons, List.drop_zero, List.take_succ_cons, List.take_zero]
  after_results
  try simp only [Idealize.ShloMosaic.TypedRef.ofBuf_toBuf]
  try refine Idealize.ShloMosaic.TypedRef.toBuf_eq _ _ _ (heq_of_eq ?_)
  try rw [ofBuf_eq _ _ _ (heq_of_eq h_arg2)]
  try rw [h_arg2]
  subst hR
  rfl

set_option maxHeartbeats 1000000 in
theorem st0_v3 (Wo : Valuation τ sig (Elt Ideal)) (h_arg2 : Wo (Proc.devRef .tc main_arg2) = x2) :
    after (((ops (F := Ideal)).drop 0).take 4) Wo (Proc.devRef .tc main_v3) = (Cert.ReferenceIdeal.ReadP.val_main_v3 (F := Ideal) x2) := by
  generalize hR : (Cert.ReferenceIdeal.ReadP.val_main_v3 (F := Ideal) x2) = rhs
  simp only [ops, List.drop_succ_cons, List.drop_zero, List.take_succ_cons, List.take_zero]
  after_results
  try simp only [Idealize.ShloMosaic.TypedRef.ofBuf_toBuf]
  try refine Idealize.ShloMosaic.TypedRef.toBuf_eq _ _ _ (heq_of_eq ?_)
  try rw [ofBuf_eq _ _ _ (heq_of_eq h_arg2)]
  try rw [h_arg2]
  subst hR
  rfl

/-! ## Operations 4 … 22 -/

theorem st1_v1 (Wo : Valuation τ sig (Elt Ideal)) (h_v1 : Wo (Proc.devRef .tc main_v1) = (Cert.ReferenceIdeal.ReadP.val_main_v1 (F := Ideal) x2)) :
    after (((ops (F := Ideal)).drop 4).take 19) Wo (Proc.devRef .tc main_v1) = (Cert.ReferenceIdeal.ReadP.val_main_v1 (F := Ideal) x2) := by
  refine Eq.trans ?_ h_v1
  simp only [ops, List.drop_succ_cons, List.drop_zero, List.take_succ_cons, List.take_zero]
  after_results
  all_goals rfl

theorem st1_v3 (Wo : Valuation τ sig (Elt Ideal)) (h_v3 : Wo (Proc.devRef .tc main_v3) = (Cert.ReferenceIdeal.ReadP.val_main_v3 (F := Ideal) x2)) :
    after (((ops (F := Ideal)).drop 4).take 19) Wo (Proc.devRef .tc main_v3) = (Cert.ReferenceIdeal.ReadP.val_main_v3 (F := Ideal) x2) := by
  refine Eq.trans ?_ h_v3
  simp only [ops, List.drop_succ_cons, List.drop_zero, List.take_succ_cons, List.take_zero]
  after_results
  all_goals rfl

set_option maxHeartbeats 1000000 in
theorem st1_v18 (Wo : Valuation τ sig (Elt Ideal)) (h_arg1 : Wo (Proc.devRef .tc main_arg1) = x1) (h_v3 : Wo (Proc.devRef .tc main_v3) = (Cert.ReferenceIdeal.ReadP.val_main_v3 (F := Ideal) x2)) (h_v1 : Wo (Proc.devRef .tc main_v1) = (Cert.ReferenceIdeal.ReadP.val_main_v1 (F := Ideal) x2)) :
    after (((ops (F := Ideal)).drop 4).take 19) Wo (Proc.devRef .tc main_v18) = (Cert.ReferenceIdeal.ReadP.val_main_v18 (F := Ideal) x1 x2) := by
  generalize hR : (Cert.ReferenceIdeal.ReadP.val_main_v18 (F := Ideal) x1 x2) = rhs
  simp only [ops, List.drop_succ_cons, List.drop_zero, List.take_succ_cons, List.take_zero]
  after_results
  try simp only [Idealize.ShloMosaic.TypedRef.ofBuf_toBuf]
  try refine Idealize.ShloMosaic.TypedRef.toBuf_eq _ _ _ (heq_of_eq ?_)
  try rw [ofBuf_eq _ _ _ (heq_of_eq h_arg1)]
  try rw [h_arg1]
  try rw [ofBuf_eq _ _ _ (heq_of_eq h_v3)]
  try rw [h_v3]
  try rw [ofBuf_eq _ _ _ (heq_of_eq h_v1)]
  try rw [h_v1]
  subst hR
  rfl

/-! ## Operations 23 … 27 -/

theorem st2_v1 (Wo : Valuation τ sig (Elt Ideal)) (h_v1 : Wo (Proc.devRef .tc main_v1) = (Cert.ReferenceIdeal.ReadP.val_main_v1 (F := Ideal) x2)) :
    after (((ops (F := Ideal)).drop 23).take 5) Wo (Proc.devRef .tc main_v1) = (Cert.ReferenceIdeal.ReadP.val_main_v1 (F := Ideal) x2) := by
  refine Eq.trans ?_ h_v1
  simp only [ops, List.drop_succ_cons, List.drop_zero, List.take_succ_cons, List.take_zero]
  after_results
  all_goals rfl

theorem st2_v3 (Wo : Valuation τ sig (Elt Ideal)) (h_v3 : Wo (Proc.devRef .tc main_v3) = (Cert.ReferenceIdeal.ReadP.val_main_v3 (F := Ideal) x2)) :
    after (((ops (F := Ideal)).drop 23).take 5) Wo (Proc.devRef .tc main_v3) = (Cert.ReferenceIdeal.ReadP.val_main_v3 (F := Ideal) x2) := by
  refine Eq.trans ?_ h_v3
  simp only [ops, List.drop_succ_cons, List.drop_zero, List.take_succ_cons, List.take_zero]
  after_results
  all_goals rfl

theorem st2_v18 (Wo : Valuation τ sig (Elt Ideal)) (h_v18 : Wo (Proc.devRef .tc main_v18) = (Cert.ReferenceIdeal.ReadP.val_main_v18 (F := Ideal) x1 x2)) :
    after (((ops (F := Ideal)).drop 23).take 5) Wo (Proc.devRef .tc main_v18) = (Cert.ReferenceIdeal.ReadP.val_main_v18 (F := Ideal) x1 x2) := by
  refine Eq.trans ?_ h_v18
  simp only [ops, List.drop_succ_cons, List.drop_zero, List.take_succ_cons, List.take_zero]
  after_results
  all_goals rfl

set_option maxHeartbeats 1000000 in
theorem st2_v19 (Wo : Valuation τ sig (Elt Ideal)) (h_v18 : Wo (Proc.devRef .tc main_v18) = (Cert.ReferenceIdeal.ReadP.val_main_v18 (F := Ideal) x1 x2)) :
    after (((ops (F := Ideal)).drop 23).take 5) Wo (Proc.devRef .tc main_v19) = (Cert.ReferenceIdeal.ReadP.val_main_v19 (F := Ideal) x1 x2) := by
  generalize hR : (Cert.ReferenceIdeal.ReadP.val_main_v19 (F := Ideal) x1 x2) = rhs
  simp only [ops, List.drop_succ_cons, List.drop_zero, List.take_succ_cons, List.take_zero]
  after_results
  try simp only [Idealize.ShloMosaic.TypedRef.ofBuf_toBuf]
  try refine Idealize.ShloMosaic.TypedRef.toBuf_eq _ _ _ (heq_of_eq ?_)
  try rw [ofBuf_eq _ _ _ (heq_of_eq h_v18)]
  try rw [h_v18]
  subst hR
  rfl

/-! ## Operations 28 … 45 -/

theorem st3_v3 (Wo : Valuation τ sig (Elt Ideal)) (h_v3 : Wo (Proc.devRef .tc main_v3) = (Cert.ReferenceIdeal.ReadP.val_main_v3 (F := Ideal) x2)) :
    after (((ops (F := Ideal)).drop 28).take 18) Wo (Proc.devRef .tc main_v3) = (Cert.ReferenceIdeal.ReadP.val_main_v3 (F := Ideal) x2) := by
  refine Eq.trans ?_ h_v3
  simp only [ops, List.drop_succ_cons, List.drop_zero, List.take_succ_cons, List.take_zero]
  after_results
  all_goals rfl

theorem st3_v18 (Wo : Valuation τ sig (Elt Ideal)) (h_v18 : Wo (Proc.devRef .tc main_v18) = (Cert.ReferenceIdeal.ReadP.val_main_v18 (F := Ideal) x1 x2)) :
    after (((ops (F := Ideal)).drop 28).take 18) Wo (Proc.devRef .tc main_v18) = (Cert.ReferenceIdeal.ReadP.val_main_v18 (F := Ideal) x1 x2) := by
  refine Eq.trans ?_ h_v18
  simp only [ops, List.drop_succ_cons, List.drop_zero, List.take_succ_cons, List.take_zero]
  after_results
  all_goals rfl

theorem st3_v19 (Wo : Valuation τ sig (Elt Ideal)) (h_v19 : Wo (Proc.devRef .tc main_v19) = (Cert.ReferenceIdeal.ReadP.val_main_v19 (F := Ideal) x1 x2)) :
    after (((ops (F := Ideal)).drop 28).take 18) Wo (Proc.devRef .tc main_v19) = (Cert.ReferenceIdeal.ReadP.val_main_v19 (F := Ideal) x1 x2) := by
  refine Eq.trans ?_ h_v19
  simp only [ops, List.drop_succ_cons, List.drop_zero, List.take_succ_cons, List.take_zero]
  after_results
  all_goals rfl

set_option maxHeartbeats 1000000 in
theorem st3_v26 (Wo : Valuation τ sig (Elt Ideal)) (h_arg0 : Wo (Proc.devRef .tc main_arg0) = x0) (h_v1 : Wo (Proc.devRef .tc main_v1) = (Cert.ReferenceIdeal.ReadP.val_main_v1 (F := Ideal) x2)) :
    after (((ops (F := Ideal)).drop 28).take 18) Wo (Proc.devRef .tc main_v26) = (Cert.ReferenceIdeal.ReadP.val_main_v26 (F := Ideal) x0 x2) := by
  generalize hR : (Cert.ReferenceIdeal.ReadP.val_main_v26 (F := Ideal) x0 x2) = rhs
  simp only [ops, List.drop_succ_cons, List.drop_zero, List.take_succ_cons, List.take_zero]
  after_results
  try simp only [Idealize.ShloMosaic.TypedRef.ofBuf_toBuf]
  try refine Idealize.ShloMosaic.TypedRef.toBuf_eq _ _ _ (heq_of_eq ?_)
  try rw [ofBuf_eq _ _ _ (heq_of_eq h_arg0)]
  try rw [h_arg0]
  try rw [ofBuf_eq _ _ _ (heq_of_eq h_v1)]
  try rw [h_v1]
  subst hR
  rfl

set_option maxHeartbeats 1000000 in
theorem st3_v33 (Wo : Valuation τ sig (Elt Ideal)) (h_arg0 : Wo (Proc.devRef .tc main_arg0) = x0) (h_v3 : Wo (Proc.devRef .tc main_v3) = (Cert.ReferenceIdeal.ReadP.val_main_v3 (F := Ideal) x2)) :
    after (((ops (F := Ideal)).drop 28).take 18) Wo (Proc.devRef .tc main_v33) = (Cert.ReferenceIdeal.ReadP.val_main_v33 (F := Ideal) x0 x2) := by
  generalize hR : (Cert.ReferenceIdeal.ReadP.val_main_v33 (F := Ideal) x0 x2) = rhs
  simp only [ops, List.drop_succ_cons, List.drop_zero, List.take_succ_cons, List.take_zero]
  after_results
  try simp only [Idealize.ShloMosaic.TypedRef.ofBuf_toBuf]
  try refine Idealize.ShloMosaic.TypedRef.toBuf_eq _ _ _ (heq_of_eq ?_)
  try rw [ofBuf_eq _ _ _ (heq_of_eq h_arg0)]
  try rw [h_arg0]
  try rw [ofBuf_eq _ _ _ (heq_of_eq h_v3)]
  try rw [h_v3]
  subst hR
  rfl

/-! ## Operations 46 … 50 -/

theorem st4_v3 (Wo : Valuation τ sig (Elt Ideal)) (h_v3 : Wo (Proc.devRef .tc main_v3) = (Cert.ReferenceIdeal.ReadP.val_main_v3 (F := Ideal) x2)) :
    after (((ops (F := Ideal)).drop 46).take 5) Wo (Proc.devRef .tc main_v3) = (Cert.ReferenceIdeal.ReadP.val_main_v3 (F := Ideal) x2) := by
  refine Eq.trans ?_ h_v3
  simp only [ops, List.drop_succ_cons, List.drop_zero, List.take_succ_cons, List.take_zero]
  after_results
  all_goals rfl

theorem st4_v18 (Wo : Valuation τ sig (Elt Ideal)) (h_v18 : Wo (Proc.devRef .tc main_v18) = (Cert.ReferenceIdeal.ReadP.val_main_v18 (F := Ideal) x1 x2)) :
    after (((ops (F := Ideal)).drop 46).take 5) Wo (Proc.devRef .tc main_v18) = (Cert.ReferenceIdeal.ReadP.val_main_v18 (F := Ideal) x1 x2) := by
  refine Eq.trans ?_ h_v18
  simp only [ops, List.drop_succ_cons, List.drop_zero, List.take_succ_cons, List.take_zero]
  after_results
  all_goals rfl

set_option maxHeartbeats 1000000 in
theorem st4_v38 (Wo : Valuation τ sig (Elt Ideal)) (h_v33 : Wo (Proc.devRef .tc main_v33) = (Cert.ReferenceIdeal.ReadP.val_main_v33 (F := Ideal) x0 x2)) (h_v26 : Wo (Proc.devRef .tc main_v26) = (Cert.ReferenceIdeal.ReadP.val_main_v26 (F := Ideal) x0 x2)) (h_v19 : Wo (Proc.devRef .tc main_v19) = (Cert.ReferenceIdeal.ReadP.val_main_v19 (F := Ideal) x1 x2)) (h_arg3 : Wo (Proc.devRef .tc main_arg3) = x3) (h_arg4 : Wo (Proc.devRef .tc main_arg4) = x4) :
    after (((ops (F := Ideal)).drop 46).take 5) Wo (Proc.devRef .tc main_v38) = (Cert.ReferenceIdeal.ReadP.val_main_v38 (F := Ideal) x0 x1 x2 x3 x4) := by
  generalize hR : (Cert.ReferenceIdeal.ReadP.val_main_v38 (F := Ideal) x0 x1 x2 x3 x4) = rhs
  simp only [ops, List.drop_succ_cons, List.drop_zero, List.take_succ_cons, List.take_zero]
  after_results
  try simp only [Idealize.ShloMosaic.TypedRef.ofBuf_toBuf]
  try refine Idealize.ShloMosaic.TypedRef.toBuf_eq _ _ _ (heq_of_eq ?_)
  rw [show Wo (Proc.devRef .tc (![main_v33, main_v26, main_v19] (0 : Fin 3))) = _ from h_v33,
    show Wo (Proc.devRef .tc (![main_v33, main_v26, main_v19] (1 : Fin 3))) = _ from h_v26,
    show Wo (Proc.devRef .tc (![main_v33, main_v26, main_v19] (2 : Fin 3))) = _ from h_v19]
  try rw [ofBuf_eq _ _ _ (heq_of_eq h_v33)]
  try rw [h_v33]
  try rw [ofBuf_eq _ _ _ (heq_of_eq h_v26)]
  try rw [h_v26]
  try rw [ofBuf_eq _ _ _ (heq_of_eq h_v19)]
  try rw [h_v19]
  try rw [ofBuf_eq _ _ _ (heq_of_eq h_arg3)]
  try rw [h_arg3]
  try rw [ofBuf_eq _ _ _ (heq_of_eq h_arg4)]
  try rw [h_arg4]
  subst hR
  rfl

/-! ## Operations 51 … 59 -/

theorem st5_v3 (Wo : Valuation τ sig (Elt Ideal)) (h_v3 : Wo (Proc.devRef .tc main_v3) = (Cert.ReferenceIdeal.ReadP.val_main_v3 (F := Ideal) x2)) :
    after (((ops (F := Ideal)).drop 51).take 9) Wo (Proc.devRef .tc main_v3) = (Cert.ReferenceIdeal.ReadP.val_main_v3 (F := Ideal) x2) := by
  refine Eq.trans ?_ h_v3
  simp only [ops, List.drop_succ_cons, List.drop_zero, List.take_succ_cons, List.take_zero]
  after_results
  all_goals rfl

theorem st5_v18 (Wo : Valuation τ sig (Elt Ideal)) (h_v18 : Wo (Proc.devRef .tc main_v18) = (Cert.ReferenceIdeal.ReadP.val_main_v18 (F := Ideal) x1 x2)) :
    after (((ops (F := Ideal)).drop 51).take 9) Wo (Proc.devRef .tc main_v18) = (Cert.ReferenceIdeal.ReadP.val_main_v18 (F := Ideal) x1 x2) := by
  refine Eq.trans ?_ h_v18
  simp only [ops, List.drop_succ_cons, List.drop_zero, List.take_succ_cons, List.take_zero]
  after_results
  all_goals rfl

set_option maxHeartbeats 1000000 in
theorem st5_v39 (Wo : Valuation τ sig (Elt Ideal)) (h_v38 : Wo (Proc.devRef .tc main_v38) = (Cert.ReferenceIdeal.ReadP.val_main_v38 (F := Ideal) x0 x1 x2 x3 x4)) :
    after (((ops (F := Ideal)).drop 51).take 9) Wo (Proc.devRef .tc main_v39) = (Cert.ReferenceIdeal.ReadP.val_main_v39 (F := Ideal) x0 x1 x2 x3 x4) := by
  generalize hR : (Cert.ReferenceIdeal.ReadP.val_main_v39 (F := Ideal) x0 x1 x2 x3 x4) = rhs
  simp only [ops, List.drop_succ_cons, List.drop_zero, List.take_succ_cons, List.take_zero]
  after_results
  try simp only [Idealize.ShloMosaic.TypedRef.ofBuf_toBuf]
  try refine Idealize.ShloMosaic.TypedRef.toBuf_eq _ _ _ (heq_of_eq ?_)
  try rw [ofBuf_eq _ _ _ (heq_of_eq h_v38)]
  try rw [h_v38]
  subst hR
  rfl

/-! ## Operations 60 … 63 -/

theorem st6_v3 (Wo : Valuation τ sig (Elt Ideal)) (h_v3 : Wo (Proc.devRef .tc main_v3) = (Cert.ReferenceIdeal.ReadP.val_main_v3 (F := Ideal) x2)) :
    after (((ops (F := Ideal)).drop 60).take 4) Wo (Proc.devRef .tc main_v3) = (Cert.ReferenceIdeal.ReadP.val_main_v3 (F := Ideal) x2) := by
  refine Eq.trans ?_ h_v3
  simp only [ops, List.drop_succ_cons, List.drop_zero, List.take_succ_cons, List.take_zero]
  after_results
  all_goals rfl

theorem st6_v18 (Wo : Valuation τ sig (Elt Ideal)) (h_v18 : Wo (Proc.devRef .tc main_v18) = (Cert.ReferenceIdeal.ReadP.val_main_v18 (F := Ideal) x1 x2)) :
    after (((ops (F := Ideal)).drop 60).take 4) Wo (Proc.devRef .tc main_v18) = (Cert.ReferenceIdeal.ReadP.val_main_v18 (F := Ideal) x1 x2) := by
  refine Eq.trans ?_ h_v18
  simp only [ops, List.drop_succ_cons, List.drop_zero, List.take_succ_cons, List.take_zero]
  after_results
  all_goals rfl

set_option maxHeartbeats 1000000 in
theorem st6_v43 (Wo : Valuation τ sig (Elt Ideal)) (h_v39 : Wo (Proc.devRef .tc main_v39) = (Cert.ReferenceIdeal.ReadP.val_main_v39 (F := Ideal) x0 x1 x2 x3 x4)) (h_arg5 : Wo (Proc.devRef .tc main_arg5) = x5) (h_arg6 : Wo (Proc.devRef .tc main_arg6) = x6) :
    after (((ops (F := Ideal)).drop 60).take 4) Wo (Proc.devRef .tc main_v43) = (Cert.ReferenceIdeal.ReadP.val_main_v43 (F := Ideal) x0 x1 x2 x3 x4 x5 x6) := by
  generalize hR : (Cert.ReferenceIdeal.ReadP.val_main_v43 (F := Ideal) x0 x1 x2 x3 x4 x5 x6) = rhs
  simp only [ops, List.drop_succ_cons, List.drop_zero, List.take_succ_cons, List.take_zero]
  after_results
  try simp only [Idealize.ShloMosaic.TypedRef.ofBuf_toBuf]
  try refine Idealize.ShloMosaic.TypedRef.toBuf_eq _ _ _ (heq_of_eq ?_)
  try rw [ofBuf_eq _ _ _ (heq_of_eq h_v39)]
  try rw [h_v39]
  try rw [ofBuf_eq _ _ _ (heq_of_eq h_arg5)]
  try rw [h_arg5]
  try rw [ofBuf_eq _ _ _ (heq_of_eq h_arg6)]
  try rw [h_arg6]
  subst hR
  rfl

/-! ## Operations 64 … 72 -/

theorem st7_v3 (Wo : Valuation τ sig (Elt Ideal)) (h_v3 : Wo (Proc.devRef .tc main_v3) = (Cert.ReferenceIdeal.ReadP.val_main_v3 (F := Ideal) x2)) :
    after (((ops (F := Ideal)).drop 64).take 9) Wo (Proc.devRef .tc main_v3) = (Cert.ReferenceIdeal.ReadP.val_main_v3 (F := Ideal) x2) := by
  refine Eq.trans ?_ h_v3
  simp only [ops, List.drop_succ_cons, List.drop_zero, List.take_succ_cons, List.take_zero]
  after_results
  all_goals rfl

theorem st7_v18 (Wo : Valuation τ sig (Elt Ideal)) (h_v18 : Wo (Proc.devRef .tc main_v18) = (Cert.ReferenceIdeal.ReadP.val_main_v18 (F := Ideal) x1 x2)) :
    after (((ops (F := Ideal)).drop 64).take 9) Wo (Proc.devRef .tc main_v18) = (Cert.ReferenceIdeal.ReadP.val_main_v18 (F := Ideal) x1 x2) := by
  refine Eq.trans ?_ h_v18
  simp only [ops, List.drop_succ_cons, List.drop_zero, List.take_succ_cons, List.take_zero]
  after_results
  all_goals rfl

set_option maxHeartbeats 1000000 in
theorem st7_v44 (Wo : Valuation τ sig (Elt Ideal)) (h_v43 : Wo (Proc.devRef .tc main_v43) = (Cert.ReferenceIdeal.ReadP.val_main_v43 (F := Ideal) x0 x1 x2 x3 x4 x5 x6)) :
    after (((ops (F := Ideal)).drop 64).take 9) Wo (Proc.devRef .tc main_v44) = (Cert.ReferenceIdeal.ReadP.val_main_v44 (F := Ideal) x0 x1 x2 x3 x4 x5 x6) := by
  generalize hR : (Cert.ReferenceIdeal.ReadP.val_main_v44 (F := Ideal) x0 x1 x2 x3 x4 x5 x6) = rhs
  simp only [ops, List.drop_succ_cons, List.drop_zero, List.take_succ_cons, List.take_zero]
  after_results
  try simp only [Idealize.ShloMosaic.TypedRef.ofBuf_toBuf]
  try refine Idealize.ShloMosaic.TypedRef.toBuf_eq _ _ _ (heq_of_eq ?_)
  try rw [ofBuf_eq _ _ _ (heq_of_eq h_v43)]
  try rw [h_v43]
  subst hR
  rfl

/-! ## Operations 73 … 86 -/

theorem st8_v3 (Wo : Valuation τ sig (Elt Ideal)) (h_v3 : Wo (Proc.devRef .tc main_v3) = (Cert.ReferenceIdeal.ReadP.val_main_v3 (F := Ideal) x2)) :
    after (((ops (F := Ideal)).drop 73).take 14) Wo (Proc.devRef .tc main_v3) = (Cert.ReferenceIdeal.ReadP.val_main_v3 (F := Ideal) x2) := by
  refine Eq.trans ?_ h_v3
  simp only [ops, List.drop_succ_cons, List.drop_zero, List.take_succ_cons, List.take_zero]
  after_results
  all_goals rfl

theorem st8_v18 (Wo : Valuation τ sig (Elt Ideal)) (h_v18 : Wo (Proc.devRef .tc main_v18) = (Cert.ReferenceIdeal.ReadP.val_main_v18 (F := Ideal) x1 x2)) :
    after (((ops (F := Ideal)).drop 73).take 14) Wo (Proc.devRef .tc main_v18) = (Cert.ReferenceIdeal.ReadP.val_main_v18 (F := Ideal) x1 x2) := by
  refine Eq.trans ?_ h_v18
  simp only [ops, List.drop_succ_cons, List.drop_zero, List.take_succ_cons, List.take_zero]
  after_results
  all_goals rfl

set_option maxHeartbeats 1000000 in
theorem st8_v56 (Wo : Valuation τ sig (Elt Ideal)) (h_v44 : Wo (Proc.devRef .tc main_v44) = (Cert.ReferenceIdeal.ReadP.val_main_v44 (F := Ideal) x0 x1 x2 x3 x4 x5 x6)) (h_arg7 : Wo (Proc.devRef .tc main_arg7) = x7) (h_arg8 : Wo (Proc.devRef .tc main_arg8) = x8) :
    after (((ops (F := Ideal)).drop 73).take 14) Wo (Proc.devRef .tc main_v56) = (Cert.ReferenceIdeal.ReadP.val_main_v56 (F := Ideal) x0 x1 x2 x3 x4 x5 x6 x7 x8) := by
  generalize hR : (Cert.ReferenceIdeal.ReadP.val_main_v56 (F := Ideal) x0 x1 x2 x3 x4 x5 x6 x7 x8) = rhs
  simp only [ops, List.drop_succ_cons, List.drop_zero, List.take_succ_cons, List.take_zero]
  after_results
  try simp only [Idealize.ShloMosaic.TypedRef.ofBuf_toBuf]
  try refine Idealize.ShloMosaic.TypedRef.toBuf_eq _ _ _ (heq_of_eq ?_)
  try rw [ofBuf_eq _ _ _ (heq_of_eq h_v44)]
  try rw [h_v44]
  try rw [ofBuf_eq _ _ _ (heq_of_eq h_arg7)]
  try rw [h_arg7]
  try rw [ofBuf_eq _ _ _ (heq_of_eq h_arg8)]
  try rw [h_arg8]
  subst hR
  rfl

/-! ## Operations 87 … 90 -/

theorem st9_v3 (Wo : Valuation τ sig (Elt Ideal)) (h_v3 : Wo (Proc.devRef .tc main_v3) = (Cert.ReferenceIdeal.ReadP.val_main_v3 (F := Ideal) x2)) :
    after (((ops (F := Ideal)).drop 87).take 4) Wo (Proc.devRef .tc main_v3) = (Cert.ReferenceIdeal.ReadP.val_main_v3 (F := Ideal) x2) := by
  refine Eq.trans ?_ h_v3
  simp only [ops, List.drop_succ_cons, List.drop_zero, List.take_succ_cons, List.take_zero]
  after_results
  all_goals rfl

theorem st9_v18 (Wo : Valuation τ sig (Elt Ideal)) (h_v18 : Wo (Proc.devRef .tc main_v18) = (Cert.ReferenceIdeal.ReadP.val_main_v18 (F := Ideal) x1 x2)) :
    after (((ops (F := Ideal)).drop 87).take 4) Wo (Proc.devRef .tc main_v18) = (Cert.ReferenceIdeal.ReadP.val_main_v18 (F := Ideal) x1 x2) := by
  refine Eq.trans ?_ h_v18
  simp only [ops, List.drop_succ_cons, List.drop_zero, List.take_succ_cons, List.take_zero]
  after_results
  all_goals rfl

theorem st9_v56 (Wo : Valuation τ sig (Elt Ideal)) (h_v56 : Wo (Proc.devRef .tc main_v56) = (Cert.ReferenceIdeal.ReadP.val_main_v56 (F := Ideal) x0 x1 x2 x3 x4 x5 x6 x7 x8)) :
    after (((ops (F := Ideal)).drop 87).take 4) Wo (Proc.devRef .tc main_v56) = (Cert.ReferenceIdeal.ReadP.val_main_v56 (F := Ideal) x0 x1 x2 x3 x4 x5 x6 x7 x8) := by
  refine Eq.trans ?_ h_v56
  simp only [ops, List.drop_succ_cons, List.drop_zero, List.take_succ_cons, List.take_zero]
  after_results
  all_goals rfl

set_option maxHeartbeats 1000000 in
theorem st9_v59 (Wo : Valuation τ sig (Elt Ideal)) (h_v3 : Wo (Proc.devRef .tc main_v3) = (Cert.ReferenceIdeal.ReadP.val_main_v3 (F := Ideal) x2)) (h_v56 : Wo (Proc.devRef .tc main_v56) = (Cert.ReferenceIdeal.ReadP.val_main_v56 (F := Ideal) x0 x1 x2 x3 x4 x5 x6 x7 x8)) :
    after (((ops (F := Ideal)).drop 87).take 4) Wo (Proc.devRef .tc main_v59) = (Cert.ReferenceIdeal.ReadP.val_main_v59 (F := Ideal) x0 x1 x2 x3 x4 x5 x6 x7 x8) := by
  generalize hR : (Cert.ReferenceIdeal.ReadP.val_main_v59 (F := Ideal) x0 x1 x2 x3 x4 x5 x6 x7 x8) = rhs
  simp only [ops, List.drop_succ_cons, List.drop_zero, List.take_succ_cons, List.take_zero]
  after_results
  try simp only [Idealize.ShloMosaic.TypedRef.ofBuf_toBuf]
  try refine Idealize.ShloMosaic.TypedRef.toBuf_eq _ _ _ (heq_of_eq ?_)
  try rw [ofBuf_eq _ _ _ (heq_of_eq h_v3)]
  try rw [h_v3]
  try rw [ofBuf_eq _ _ _ (heq_of_eq h_v56)]
  try rw [h_v56]
  subst hR
  rfl

/-! ## Operations 91 … 95 -/

theorem st10_v3 (Wo : Valuation τ sig (Elt Ideal)) (h_v3 : Wo (Proc.devRef .tc main_v3) = (Cert.ReferenceIdeal.ReadP.val_main_v3 (F := Ideal) x2)) :
    after (((ops (F := Ideal)).drop 91).take 5) Wo (Proc.devRef .tc main_v3) = (Cert.ReferenceIdeal.ReadP.val_main_v3 (F := Ideal) x2) := by
  refine Eq.trans ?_ h_v3
  simp only [ops, List.drop_succ_cons, List.drop_zero, List.take_succ_cons, List.take_zero]
  after_results
  all_goals rfl

theorem st10_v18 (Wo : Valuation τ sig (Elt Ideal)) (h_v18 : Wo (Proc.devRef .tc main_v18) = (Cert.ReferenceIdeal.ReadP.val_main_v18 (F := Ideal) x1 x2)) :
    after (((ops (F := Ideal)).drop 91).take 5) Wo (Proc.devRef .tc main_v18) = (Cert.ReferenceIdeal.ReadP.val_main_v18 (F := Ideal) x1 x2) := by
  refine Eq.trans ?_ h_v18
  simp only [ops, List.drop_succ_cons, List.drop_zero, List.take_succ_cons, List.take_zero]
  after_results
  all_goals rfl

theorem st10_v56 (Wo : Valuation τ sig (Elt Ideal)) (h_v56 : Wo (Proc.devRef .tc main_v56) = (Cert.ReferenceIdeal.ReadP.val_main_v56 (F := Ideal) x0 x1 x2 x3 x4 x5 x6 x7 x8)) :
    after (((ops (F := Ideal)).drop 91).take 5) Wo (Proc.devRef .tc main_v56) = (Cert.ReferenceIdeal.ReadP.val_main_v56 (F := Ideal) x0 x1 x2 x3 x4 x5 x6 x7 x8) := by
  refine Eq.trans ?_ h_v56
  simp only [ops, List.drop_succ_cons, List.drop_zero, List.take_succ_cons, List.take_zero]
  after_results
  all_goals rfl

set_option maxHeartbeats 1000000 in
theorem st10_v64 (Wo : Valuation τ sig (Elt Ideal)) (h_arg0 : Wo (Proc.devRef .tc main_arg0) = x0) (h_v59 : Wo (Proc.devRef .tc main_v59) = (Cert.ReferenceIdeal.ReadP.val_main_v59 (F := Ideal) x0 x1 x2 x3 x4 x5 x6 x7 x8)) (h_arg9 : Wo (Proc.devRef .tc main_arg9) = x9) (h_arg10 : Wo (Proc.devRef .tc main_arg10) = x10) :
    after (((ops (F := Ideal)).drop 91).take 5) Wo (Proc.devRef .tc main_v64) = (Cert.ReferenceIdeal.ReadP.val_main_v64 (F := Ideal) x0 x1 x2 x3 x4 x5 x6 x7 x8 x9 x10) := by
  generalize hR : (Cert.ReferenceIdeal.ReadP.val_main_v64 (F := Ideal) x0 x1 x2 x3 x4 x5 x6 x7 x8 x9 x10) = rhs
  simp only [ops, List.drop_succ_cons, List.drop_zero, List.take_succ_cons, List.take_zero]
  after_results
  try simp only [Idealize.ShloMosaic.TypedRef.ofBuf_toBuf]
  try refine Idealize.ShloMosaic.TypedRef.toBuf_eq _ _ _ (heq_of_eq ?_)
  try rw [ofBuf_eq _ _ _ (heq_of_eq h_arg0)]
  try rw [h_arg0]
  try rw [ofBuf_eq _ _ _ (heq_of_eq h_v59)]
  try rw [h_v59]
  try rw [ofBuf_eq _ _ _ (heq_of_eq h_arg9)]
  try rw [h_arg9]
  try rw [ofBuf_eq _ _ _ (heq_of_eq h_arg10)]
  try rw [h_arg10]
  subst hR
  rfl

/-! ## Operations 96 … 104 -/

theorem st11_v3 (Wo : Valuation τ sig (Elt Ideal)) (h_v3 : Wo (Proc.devRef .tc main_v3) = (Cert.ReferenceIdeal.ReadP.val_main_v3 (F := Ideal) x2)) :
    after (((ops (F := Ideal)).drop 96).take 9) Wo (Proc.devRef .tc main_v3) = (Cert.ReferenceIdeal.ReadP.val_main_v3 (F := Ideal) x2) := by
  refine Eq.trans ?_ h_v3
  simp only [ops, List.drop_succ_cons, List.drop_zero, List.take_succ_cons, List.take_zero]
  after_results
  all_goals rfl

theorem st11_v18 (Wo : Valuation τ sig (Elt Ideal)) (h_v18 : Wo (Proc.devRef .tc main_v18) = (Cert.ReferenceIdeal.ReadP.val_main_v18 (F := Ideal) x1 x2)) :
    after (((ops (F := Ideal)).drop 96).take 9) Wo (Proc.devRef .tc main_v18) = (Cert.ReferenceIdeal.ReadP.val_main_v18 (F := Ideal) x1 x2) := by
  refine Eq.trans ?_ h_v18
  simp only [ops, List.drop_succ_cons, List.drop_zero, List.take_succ_cons, List.take_zero]
  after_results
  all_goals rfl

theorem st11_v56 (Wo : Valuation τ sig (Elt Ideal)) (h_v56 : Wo (Proc.devRef .tc main_v56) = (Cert.ReferenceIdeal.ReadP.val_main_v56 (F := Ideal) x0 x1 x2 x3 x4 x5 x6 x7 x8)) :
    after (((ops (F := Ideal)).drop 96).take 9) Wo (Proc.devRef .tc main_v56) = (Cert.ReferenceIdeal.ReadP.val_main_v56 (F := Ideal) x0 x1 x2 x3 x4 x5 x6 x7 x8) := by
  refine Eq.trans ?_ h_v56
  simp only [ops, List.drop_succ_cons, List.drop_zero, List.take_succ_cons, List.take_zero]
  after_results
  all_goals rfl

set_option maxHeartbeats 1000000 in
theorem st11_v65 (Wo : Valuation τ sig (Elt Ideal)) (h_v64 : Wo (Proc.devRef .tc main_v64) = (Cert.ReferenceIdeal.ReadP.val_main_v64 (F := Ideal) x0 x1 x2 x3 x4 x5 x6 x7 x8 x9 x10)) :
    after (((ops (F := Ideal)).drop 96).take 9) Wo (Proc.devRef .tc main_v65) = (Cert.ReferenceIdeal.ReadP.val_main_v65 (F := Ideal) x0 x1 x2 x3 x4 x5 x6 x7 x8 x9 x10) := by
  generalize hR : (Cert.ReferenceIdeal.ReadP.val_main_v65 (F := Ideal) x0 x1 x2 x3 x4 x5 x6 x7 x8 x9 x10) = rhs
  simp only [ops, List.drop_succ_cons, List.drop_zero, List.take_succ_cons, List.take_zero]
  after_results
  try simp only [Idealize.ShloMosaic.TypedRef.ofBuf_toBuf]
  try refine Idealize.ShloMosaic.TypedRef.toBuf_eq _ _ _ (heq_of_eq ?_)
  try rw [ofBuf_eq _ _ _ (heq_of_eq h_v64)]
  try rw [h_v64]
  subst hR
  rfl

/-! ## Operations 105 … 109 -/

theorem st12_v3 (Wo : Valuation τ sig (Elt Ideal)) (h_v3 : Wo (Proc.devRef .tc main_v3) = (Cert.ReferenceIdeal.ReadP.val_main_v3 (F := Ideal) x2)) :
    after (((ops (F := Ideal)).drop 105).take 5) Wo (Proc.devRef .tc main_v3) = (Cert.ReferenceIdeal.ReadP.val_main_v3 (F := Ideal) x2) := by
  refine Eq.trans ?_ h_v3
  simp only [ops, List.drop_succ_cons, List.drop_zero, List.take_succ_cons, List.take_zero]
  after_results
  all_goals rfl

theorem st12_v18 (Wo : Valuation τ sig (Elt Ideal)) (h_v18 : Wo (Proc.devRef .tc main_v18) = (Cert.ReferenceIdeal.ReadP.val_main_v18 (F := Ideal) x1 x2)) :
    after (((ops (F := Ideal)).drop 105).take 5) Wo (Proc.devRef .tc main_v18) = (Cert.ReferenceIdeal.ReadP.val_main_v18 (F := Ideal) x1 x2) := by
  refine Eq.trans ?_ h_v18
  simp only [ops, List.drop_succ_cons, List.drop_zero, List.take_succ_cons, List.take_zero]
  after_results
  all_goals rfl

theorem st12_v56 (Wo : Valuation τ sig (Elt Ideal)) (h_v56 : Wo (Proc.devRef .tc main_v56) = (Cert.ReferenceIdeal.ReadP.val_main_v56 (F := Ideal) x0 x1 x2 x3 x4 x5 x6 x7 x8)) :
    after (((ops (F := Ideal)).drop 105).take 5) Wo (Proc.devRef .tc main_v56) = (Cert.ReferenceIdeal.ReadP.val_main_v56 (F := Ideal) x0 x1 x2 x3 x4 x5 x6 x7 x8) := by
  refine Eq.trans ?_ h_v56
  simp only [ops, List.drop_succ_cons, List.drop_zero, List.take_succ_cons, List.take_zero]
  after_results
  all_goals rfl

set_option maxHeartbeats 1000000 in
theorem st12_v70 (Wo : Valuation τ sig (Elt Ideal)) (h_arg0 : Wo (Proc.devRef .tc main_arg0) = x0) (h_v65 : Wo (Proc.devRef .tc main_v65) = (Cert.ReferenceIdeal.ReadP.val_main_v65 (F := Ideal) x0 x1 x2 x3 x4 x5 x6 x7 x8 x9 x10)) (h_arg11 : Wo (Proc.devRef .tc main_arg11) = x11) (h_arg12 : Wo (Proc.devRef .tc main_arg12) = x12) :
    after (((ops (F := Ideal)).drop 105).take 5) Wo (Proc.devRef .tc main_v70) = (Cert.ReferenceIdeal.ReadP.val_main_v70 (F := Ideal) x0 x1 x2 x3 x4 x5 x6 x7 x8 x9 x10 x11 x12) := by
  generalize hR : (Cert.ReferenceIdeal.ReadP.val_main_v70 (F := Ideal) x0 x1 x2 x3 x4 x5 x6 x7 x8 x9 x10 x11 x12) = rhs
  simp only [ops, List.drop_succ_cons, List.drop_zero, List.take_succ_cons, List.take_zero]
  after_results
  try simp only [Idealize.ShloMosaic.TypedRef.ofBuf_toBuf]
  try refine Idealize.ShloMosaic.TypedRef.toBuf_eq _ _ _ (heq_of_eq ?_)
  try rw [ofBuf_eq _ _ _ (heq_of_eq h_arg0)]
  try rw [h_arg0]
  try rw [ofBuf_eq _ _ _ (heq_of_eq h_v65)]
  try rw [h_v65]
  try rw [ofBuf_eq _ _ _ (heq_of_eq h_arg11)]
  try rw [h_arg11]
  try rw [ofBuf_eq _ _ _ (heq_of_eq h_arg12)]
  try rw [h_arg12]
  subst hR
  rfl

/-! ## Operations 110 … 113 -/

theorem st13_v3 (Wo : Valuation τ sig (Elt Ideal)) (h_v3 : Wo (Proc.devRef .tc main_v3) = (Cert.ReferenceIdeal.ReadP.val_main_v3 (F := Ideal) x2)) :
    after (((ops (F := Ideal)).drop 110).take 4) Wo (Proc.devRef .tc main_v3) = (Cert.ReferenceIdeal.ReadP.val_main_v3 (F := Ideal) x2) := by
  refine Eq.trans ?_ h_v3
  simp only [ops, List.drop_succ_cons, List.drop_zero, List.take_succ_cons, List.take_zero]
  after_results
  all_goals rfl

theorem st13_v18 (Wo : Valuation τ sig (Elt Ideal)) (h_v18 : Wo (Proc.devRef .tc main_v18) = (Cert.ReferenceIdeal.ReadP.val_main_v18 (F := Ideal) x1 x2)) :
    after (((ops (F := Ideal)).drop 110).take 4) Wo (Proc.devRef .tc main_v18) = (Cert.ReferenceIdeal.ReadP.val_main_v18 (F := Ideal) x1 x2) := by
  refine Eq.trans ?_ h_v18
  simp only [ops, List.drop_succ_cons, List.drop_zero, List.take_succ_cons, List.take_zero]
  after_results
  all_goals rfl

theorem st13_v70 (Wo : Valuation τ sig (Elt Ideal)) (h_v70 : Wo (Proc.devRef .tc main_v70) = (Cert.ReferenceIdeal.ReadP.val_main_v70 (F := Ideal) x0 x1 x2 x3 x4 x5 x6 x7 x8 x9 x10 x11 x12)) :
    after (((ops (F := Ideal)).drop 110).take 4) Wo (Proc.devRef .tc main_v70) = (Cert.ReferenceIdeal.ReadP.val_main_v70 (F := Ideal) x0 x1 x2 x3 x4 x5 x6 x7 x8 x9 x10 x11 x12) := by
  refine Eq.trans ?_ h_v70
  simp only [ops, List.drop_succ_cons, List.drop_zero, List.take_succ_cons, List.take_zero]
  after_results
  all_goals rfl

set_option maxHeartbeats 1000000 in
theorem st13_v74 (Wo : Valuation τ sig (Elt Ideal)) (h_v56 : Wo (Proc.devRef .tc main_v56) = (Cert.ReferenceIdeal.ReadP.val_main_v56 (F := Ideal) x0 x1 x2 x3 x4 x5 x6 x7 x8)) (h_arg13 : Wo (Proc.devRef .tc main_arg13) = x13) (h_arg14 : Wo (Proc.devRef .tc main_arg14) = x14) :
    after (((ops (F := Ideal)).drop 110).take 4) Wo (Proc.devRef .tc main_v74) = (Cert.ReferenceIdeal.ReadP.val_main_v74 (F := Ideal) x0 x1 x2 x3 x4 x5 x6 x7 x8 x13 x14) := by
  generalize hR : (Cert.ReferenceIdeal.ReadP.val_main_v74 (F := Ideal) x0 x1 x2 x3 x4 x5 x6 x7 x8 x13 x14) = rhs
  simp only [ops, List.drop_succ_cons, List.drop_zero, List.take_succ_cons, List.take_zero]
  after_results
  try simp only [Idealize.ShloMosaic.TypedRef.ofBuf_toBuf]
  try refine Idealize.ShloMosaic.TypedRef.toBuf_eq _ _ _ (heq_of_eq ?_)
  try rw [ofBuf_eq _ _ _ (heq_of_eq h_v56)]
  try rw [h_v56]
  try rw [ofBuf_eq _ _ _ (heq_of_eq h_arg13)]
  try rw [h_arg13]
  try rw [ofBuf_eq _ _ _ (heq_of_eq h_arg14)]
  try rw [h_arg14]
  subst hR
  rfl

/-! ## Operations 114 … 122 -/

theorem st14_v3 (Wo : Valuation τ sig (Elt Ideal)) (h_v3 : Wo (Proc.devRef .tc main_v3) = (Cert.ReferenceIdeal.ReadP.val_main_v3 (F := Ideal) x2)) :
    after (((ops (F := Ideal)).drop 114).take 9) Wo (Proc.devRef .tc main_v3) = (Cert.ReferenceIdeal.ReadP.val_main_v3 (F := Ideal) x2) := by
  refine Eq.trans ?_ h_v3
  simp only [ops, List.drop_succ_cons, List.drop_zero, List.take_succ_cons, List.take_zero]
  after_results
  all_goals rfl

theorem st14_v18 (Wo : Valuation τ sig (Elt Ideal)) (h_v18 : Wo (Proc.devRef .tc main_v18) = (Cert.ReferenceIdeal.ReadP.val_main_v18 (F := Ideal) x1 x2)) :
    after (((ops (F := Ideal)).drop 114).take 9) Wo (Proc.devRef .tc main_v18) = (Cert.ReferenceIdeal.ReadP.val_main_v18 (F := Ideal) x1 x2) := by
  refine Eq.trans ?_ h_v18
  simp only [ops, List.drop_succ_cons, List.drop_zero, List.take_succ_cons, List.take_zero]
  after_results
  all_goals rfl

theorem st14_v70 (Wo : Valuation τ sig (Elt Ideal)) (h_v70 : Wo (Proc.devRef .tc main_v70) = (Cert.ReferenceIdeal.ReadP.val_main_v70 (F := Ideal) x0 x1 x2 x3 x4 x5 x6 x7 x8 x9 x10 x11 x12)) :
    after (((ops (F := Ideal)).drop 114).take 9) Wo (Proc.devRef .tc main_v70) = (Cert.ReferenceIdeal.ReadP.val_main_v70 (F := Ideal) x0 x1 x2 x3 x4 x5 x6 x7 x8 x9 x10 x11 x12) := by
  refine Eq.trans ?_ h_v70
  simp only [ops, List.drop_succ_cons, List.drop_zero, List.take_succ_cons, List.take_zero]
  after_results
  all_goals rfl

set_option maxHeartbeats 1000000 in
theorem st14_v75 (Wo : Valuation τ sig (Elt Ideal)) (h_v74 : Wo (Proc.devRef .tc main_v74) = (Cert.ReferenceIdeal.ReadP.val_main_v74 (F := Ideal) x0 x1 x2 x3 x4 x5 x6 x7 x8 x13 x14)) :
    after (((ops (F := Ideal)).drop 114).take 9) Wo (Proc.devRef .tc main_v75) = (Cert.ReferenceIdeal.ReadP.val_main_v75 (F := Ideal) x0 x1 x2 x3 x4 x5 x6 x7 x8 x13 x14) := by
  generalize hR : (Cert.ReferenceIdeal.ReadP.val_main_v75 (F := Ideal) x0 x1 x2 x3 x4 x5 x6 x7 x8 x13 x14) = rhs
  simp only [ops, List.drop_succ_cons, List.drop_zero, List.take_succ_cons, List.take_zero]
  after_results
  try simp only [Idealize.ShloMosaic.TypedRef.ofBuf_toBuf]
  try refine Idealize.ShloMosaic.TypedRef.toBuf_eq _ _ _ (heq_of_eq ?_)
  try rw [ofBuf_eq _ _ _ (heq_of_eq h_v74)]
  try rw [h_v74]
  subst hR
  rfl

/-! ## Operations 123 … 128 -/

theorem st15_v3 (Wo : Valuation τ sig (Elt Ideal)) (h_v3 : Wo (Proc.devRef .tc main_v3) = (Cert.ReferenceIdeal.ReadP.val_main_v3 (F := Ideal) x2)) :
    after (((ops (F := Ideal)).drop 123).take 6) Wo (Proc.devRef .tc main_v3) = (Cert.ReferenceIdeal.ReadP.val_main_v3 (F := Ideal) x2) := by
  refine Eq.trans ?_ h_v3
  simp only [ops, List.drop_succ_cons, List.drop_zero, List.take_succ_cons, List.take_zero]
  after_results
  all_goals rfl

theorem st15_v70 (Wo : Valuation τ sig (Elt Ideal)) (h_v70 : Wo (Proc.devRef .tc main_v70) = (Cert.ReferenceIdeal.ReadP.val_main_v70 (F := Ideal) x0 x1 x2 x3 x4 x5 x6 x7 x8 x9 x10 x11 x12)) :
    after (((ops (F := Ideal)).drop 123).take 6) Wo (Proc.devRef .tc main_v70) = (Cert.ReferenceIdeal.ReadP.val_main_v70 (F := Ideal) x0 x1 x2 x3 x4 x5 x6 x7 x8 x9 x10 x11 x12) := by
  refine Eq.trans ?_ h_v70
  simp only [ops, List.drop_succ_cons, List.drop_zero, List.take_succ_cons, List.take_zero]
  after_results
  all_goals rfl

set_option maxHeartbeats 1000000 in
theorem st15_v81 (Wo : Valuation τ sig (Elt Ideal)) (h_v18 : Wo (Proc.devRef .tc main_v18) = (Cert.ReferenceIdeal.ReadP.val_main_v18 (F := Ideal) x1 x2)) (h_v75 : Wo (Proc.devRef .tc main_v75) = (Cert.ReferenceIdeal.ReadP.val_main_v75 (F := Ideal) x0 x1 x2 x3 x4 x5 x6 x7 x8 x13 x14)) (h_arg15 : Wo (Proc.devRef .tc main_arg15) = x15) (h_arg16 : Wo (Proc.devRef .tc main_arg16) = x16) :
    after (((ops (F := Ideal)).drop 123).take 6) Wo (Proc.devRef .tc main_v81) = (Cert.ReferenceIdeal.ReadP.val_main_v81 (F := Ideal) x0 x1 x2 x3 x4 x5 x6 x7 x8 x13 x14 x15 x16) := by
  generalize hR : (Cert.ReferenceIdeal.ReadP.val_main_v81 (F := Ideal) x0 x1 x2 x3 x4 x5 x6 x7 x8 x13 x14 x15 x16) = rhs
  simp only [ops, List.drop_succ_cons, List.drop_zero, List.take_succ_cons, List.take_zero]
  after_results
  try simp only [Idealize.ShloMosaic.TypedRef.ofBuf_toBuf]
  try refine Idealize.ShloMosaic.TypedRef.toBuf_eq _ _ _ (heq_of_eq ?_)
  try rw [ofBuf_eq _ _ _ (heq_of_eq h_v18)]
  try rw [h_v18]
  try rw [ofBuf_eq _ _ _ (heq_of_eq h_v75)]
  try rw [h_v75]
  try rw [ofBuf_eq _ _ _ (heq_of_eq h_arg15)]
  try rw [h_arg15]
  try rw [ofBuf_eq _ _ _ (heq_of_eq h_arg16)]
  try rw [h_arg16]
  subst hR
  rfl

/-! ## Operations 129 … 133 -/

theorem st16_v70 (Wo : Valuation τ sig (Elt Ideal)) (h_v70 : Wo (Proc.devRef .tc main_v70) = (Cert.ReferenceIdeal.ReadP.val_main_v70 (F := Ideal) x0 x1 x2 x3 x4 x5 x6 x7 x8 x9 x10 x11 x12)) :
    after (((ops (F := Ideal)).drop 129).take 5) Wo (Proc.devRef .tc main_v70) = (Cert.ReferenceIdeal.ReadP.val_main_v70 (F := Ideal) x0 x1 x2 x3 x4 x5 x6 x7 x8 x9 x10 x11 x12) := by
  refine Eq.trans ?_ h_v70
  simp only [ops, List.drop_succ_cons, List.drop_zero, List.take_succ_cons, List.take_zero]
  after_results
  all_goals rfl

set_option maxHeartbeats 1000000 in
theorem st16_v85 (Wo : Valuation τ sig (Elt Ideal)) (h_arg1 : Wo (Proc.devRef .tc main_arg1) = x1) (h_v3 : Wo (Proc.devRef .tc main_v3) = (Cert.ReferenceIdeal.ReadP.val_main_v3 (F := Ideal) x2)) (h_v81 : Wo (Proc.devRef .tc main_v81) = (Cert.ReferenceIdeal.ReadP.val_main_v81 (F := Ideal) x0 x1 x2 x3 x4 x5 x6 x7 x8 x13 x14 x15 x16)) :
    after (((ops (F := Ideal)).drop 129).take 5) Wo (Proc.devRef .tc main_v85) = (Cert.ReferenceIdeal.ReadP.val_main_v85 (F := Ideal) x0 x1 x2 x3 x4 x5 x6 x7 x8 x13 x14 x15 x16) := by
  generalize hR : (Cert.ReferenceIdeal.ReadP.val_main_v85 (F := Ideal) x0 x1 x2 x3 x4 x5 x6 x7 x8 x13 x14 x15 x16) = rhs
  simp only [ops, List.drop_succ_cons, List.drop_zero, List.take_succ_cons, List.take_zero]
  after_results
  try simp only [Idealize.ShloMosaic.TypedRef.ofBuf_toBuf]
  try refine Idealize.ShloMosaic.TypedRef.toBuf_eq _ _ _ (heq_of_eq ?_)
  try rw [ofBuf_eq _ _ _ (heq_of_eq h_arg1)]
  try rw [h_arg1]
  try rw [ofBuf_eq _ _ _ (heq_of_eq h_v3)]
  try rw [h_v3]
  try rw [ofBuf_eq _ _ _ (heq_of_eq h_v81)]
  try rw [h_v81]
  subst hR
  rfl

/-! ## An argument is written by nothing -/

theorem argAt4_arg1 (V : Valuation τ sig (Elt Ideal)) :
    after ((ops (F := Ideal)).take 4) V (Proc.devRef .tc main_arg1) = V (Proc.devRef .tc main_arg1) := by
  simp only [ops, List.take_succ_cons, List.take_zero]
  after_results
  all_goals rfl

theorem argAt28_arg0 (V : Valuation τ sig (Elt Ideal)) :
    after ((ops (F := Ideal)).take 28) V (Proc.devRef .tc main_arg0) = V (Proc.devRef .tc main_arg0) := by
  simp only [ops, List.take_succ_cons, List.take_zero]
  after_results
  all_goals rfl

theorem argAt46_arg3 (V : Valuation τ sig (Elt Ideal)) :
    after ((ops (F := Ideal)).take 46) V (Proc.devRef .tc main_arg3) = V (Proc.devRef .tc main_arg3) := by
  simp only [ops, List.take_succ_cons, List.take_zero]
  after_results
  all_goals rfl

theorem argAt46_arg4 (V : Valuation τ sig (Elt Ideal)) :
    after ((ops (F := Ideal)).take 46) V (Proc.devRef .tc main_arg4) = V (Proc.devRef .tc main_arg4) := by
  simp only [ops, List.take_succ_cons, List.take_zero]
  after_results
  all_goals rfl

theorem argAt60_arg5 (V : Valuation τ sig (Elt Ideal)) :
    after ((ops (F := Ideal)).take 60) V (Proc.devRef .tc main_arg5) = V (Proc.devRef .tc main_arg5) := by
  simp only [ops, List.take_succ_cons, List.take_zero]
  after_results
  all_goals rfl

theorem argAt60_arg6 (V : Valuation τ sig (Elt Ideal)) :
    after ((ops (F := Ideal)).take 60) V (Proc.devRef .tc main_arg6) = V (Proc.devRef .tc main_arg6) := by
  simp only [ops, List.take_succ_cons, List.take_zero]
  after_results
  all_goals rfl

theorem argAt73_arg7 (V : Valuation τ sig (Elt Ideal)) :
    after ((ops (F := Ideal)).take 73) V (Proc.devRef .tc main_arg7) = V (Proc.devRef .tc main_arg7) := by
  simp only [ops, List.take_succ_cons, List.take_zero]
  after_results
  all_goals rfl

theorem argAt73_arg8 (V : Valuation τ sig (Elt Ideal)) :
    after ((ops (F := Ideal)).take 73) V (Proc.devRef .tc main_arg8) = V (Proc.devRef .tc main_arg8) := by
  simp only [ops, List.take_succ_cons, List.take_zero]
  after_results
  all_goals rfl

theorem argAt91_arg0 (V : Valuation τ sig (Elt Ideal)) :
    after ((ops (F := Ideal)).take 91) V (Proc.devRef .tc main_arg0) = V (Proc.devRef .tc main_arg0) := by
  simp only [ops, List.take_succ_cons, List.take_zero]
  after_results
  all_goals rfl

theorem argAt91_arg9 (V : Valuation τ sig (Elt Ideal)) :
    after ((ops (F := Ideal)).take 91) V (Proc.devRef .tc main_arg9) = V (Proc.devRef .tc main_arg9) := by
  simp only [ops, List.take_succ_cons, List.take_zero]
  after_results
  all_goals rfl

theorem argAt91_arg10 (V : Valuation τ sig (Elt Ideal)) :
    after ((ops (F := Ideal)).take 91) V (Proc.devRef .tc main_arg10) = V (Proc.devRef .tc main_arg10) := by
  simp only [ops, List.take_succ_cons, List.take_zero]
  after_results
  all_goals rfl

theorem argAt105_arg0 (V : Valuation τ sig (Elt Ideal)) :
    after ((ops (F := Ideal)).take 105) V (Proc.devRef .tc main_arg0) = V (Proc.devRef .tc main_arg0) := by
  simp only [ops, List.take_succ_cons, List.take_zero]
  after_results
  all_goals rfl

theorem argAt105_arg11 (V : Valuation τ sig (Elt Ideal)) :
    after ((ops (F := Ideal)).take 105) V (Proc.devRef .tc main_arg11) = V (Proc.devRef .tc main_arg11) := by
  simp only [ops, List.take_succ_cons, List.take_zero]
  after_results
  all_goals rfl

theorem argAt105_arg12 (V : Valuation τ sig (Elt Ideal)) :
    after ((ops (F := Ideal)).take 105) V (Proc.devRef .tc main_arg12) = V (Proc.devRef .tc main_arg12) := by
  simp only [ops, List.take_succ_cons, List.take_zero]
  after_results
  all_goals rfl

theorem argAt110_arg13 (V : Valuation τ sig (Elt Ideal)) :
    after ((ops (F := Ideal)).take 110) V (Proc.devRef .tc main_arg13) = V (Proc.devRef .tc main_arg13) := by
  simp only [ops, List.take_succ_cons, List.take_zero]
  after_results
  all_goals rfl

theorem argAt110_arg14 (V : Valuation τ sig (Elt Ideal)) :
    after ((ops (F := Ideal)).take 110) V (Proc.devRef .tc main_arg14) = V (Proc.devRef .tc main_arg14) := by
  simp only [ops, List.take_succ_cons, List.take_zero]
  after_results
  all_goals rfl

theorem argAt123_arg15 (V : Valuation τ sig (Elt Ideal)) :
    after ((ops (F := Ideal)).take 123) V (Proc.devRef .tc main_arg15) = V (Proc.devRef .tc main_arg15) := by
  simp only [ops, List.take_succ_cons, List.take_zero]
  after_results
  all_goals rfl

theorem argAt123_arg16 (V : Valuation τ sig (Elt Ideal)) :
    after ((ops (F := Ideal)).take 123) V (Proc.devRef .tc main_arg16) = V (Proc.devRef .tc main_arg16) := by
  simp only [ops, List.take_succ_cons, List.take_zero]
  after_results
  all_goals rfl

theorem argAt129_arg1 (V : Valuation τ sig (Elt Ideal)) :
    after ((ops (F := Ideal)).take 129) V (Proc.devRef .tc main_arg1) = V (Proc.devRef .tc main_arg1) := by
  simp only [ops, List.take_succ_cons, List.take_zero]
  after_results
  all_goals rfl

/-! ## The chain from the launch contents -/

end Cert.ReferenceIdeal.RefRun

namespace Cert.ReferenceIdeal.RefRun

open Cert.ReferenceIdeal Cert.ReferenceIdeal.Gen Cert.ReferenceIdeal.ValueP
open Idealize.ShloMosaic Idealize.ShloMosaic.TcCoe Idealize.SL.Sem Idealize.ShloMosaic.StableHlo

variable (m : (ℓ : Loc nD τ sig) → Buf (Elt Ideal) ℓ)

/-- The buffers after the first `k` operations. -/
abbrev pre (c : Dev nD) (k : Nat) : Valuation τ sig (Elt Ideal) := after ((ops (F := Ideal)).take k) (launchContents m c)

theorem at4_v1 (c : Dev nD) : pre m c (0 + 4) (Proc.devRef .tc main_v1) = (Cert.ReferenceIdeal.ReadP.val_main_v1 (F := Ideal) (m ((c.tc : Thread nD τ).loc main_arg2))) := by
  show after ((ops (F := Ideal)).take (0 + 4)) (launchContents m c) (Proc.devRef .tc main_v1) = _
  rw [after_take_add]
  exact st0_v1 (x2 := (m ((c.tc : Thread nD τ).loc main_arg2))) (pre m c 0) (rfl : pre m c 0 (Proc.devRef .tc main_arg2) = (m ((c.tc : Thread nD τ).loc main_arg2)))

theorem at4_v3 (c : Dev nD) : pre m c (0 + 4) (Proc.devRef .tc main_v3) = (Cert.ReferenceIdeal.ReadP.val_main_v3 (F := Ideal) (m ((c.tc : Thread nD τ).loc main_arg2))) := by
  show after ((ops (F := Ideal)).take (0 + 4)) (launchContents m c) (Proc.devRef .tc main_v3) = _
  rw [after_take_add]
  exact st0_v3 (x2 := (m ((c.tc : Thread nD τ).loc main_arg2))) (pre m c 0) (rfl : pre m c 0 (Proc.devRef .tc main_arg2) = (m ((c.tc : Thread nD τ).loc main_arg2)))

theorem at23_v1 (c : Dev nD) : pre m c (4 + 19) (Proc.devRef .tc main_v1) = (Cert.ReferenceIdeal.ReadP.val_main_v1 (F := Ideal) (m ((c.tc : Thread nD τ).loc main_arg2))) := by
  show after ((ops (F := Ideal)).take (4 + 19)) (launchContents m c) (Proc.devRef .tc main_v1) = _
  rw [after_take_add]
  exact st1_v1 (x2 := (m ((c.tc : Thread nD τ).loc main_arg2))) (pre m c 4) (at4_v1 m c)

theorem at23_v3 (c : Dev nD) : pre m c (4 + 19) (Proc.devRef .tc main_v3) = (Cert.ReferenceIdeal.ReadP.val_main_v3 (F := Ideal) (m ((c.tc : Thread nD τ).loc main_arg2))) := by
  show after ((ops (F := Ideal)).take (4 + 19)) (launchContents m c) (Proc.devRef .tc main_v3) = _
  rw [after_take_add]
  exact st1_v3 (x2 := (m ((c.tc : Thread nD τ).loc main_arg2))) (pre m c 4) (at4_v3 m c)

theorem at23_v18 (c : Dev nD) : pre m c (4 + 19) (Proc.devRef .tc main_v18) = (Cert.ReferenceIdeal.ReadP.val_main_v18 (F := Ideal) (m ((c.tc : Thread nD τ).loc main_arg1)) (m ((c.tc : Thread nD τ).loc main_arg2))) := by
  show after ((ops (F := Ideal)).take (4 + 19)) (launchContents m c) (Proc.devRef .tc main_v18) = _
  rw [after_take_add]
  exact st1_v18 (x1 := (m ((c.tc : Thread nD τ).loc main_arg1))) (x2 := (m ((c.tc : Thread nD τ).loc main_arg2))) (pre m c 4) ((argAt4_arg1 (launchContents m c)).trans rfl) (at4_v3 m c) (at4_v1 m c)

theorem at28_v1 (c : Dev nD) : pre m c (23 + 5) (Proc.devRef .tc main_v1) = (Cert.ReferenceIdeal.ReadP.val_main_v1 (F := Ideal) (m ((c.tc : Thread nD τ).loc main_arg2))) := by
  show after ((ops (F := Ideal)).take (23 + 5)) (launchContents m c) (Proc.devRef .tc main_v1) = _
  rw [after_take_add]
  exact st2_v1 (x2 := (m ((c.tc : Thread nD τ).loc main_arg2))) (pre m c 23) (at23_v1 m c)

theorem at28_v3 (c : Dev nD) : pre m c (23 + 5) (Proc.devRef .tc main_v3) = (Cert.ReferenceIdeal.ReadP.val_main_v3 (F := Ideal) (m ((c.tc : Thread nD τ).loc main_arg2))) := by
  show after ((ops (F := Ideal)).take (23 + 5)) (launchContents m c) (Proc.devRef .tc main_v3) = _
  rw [after_take_add]
  exact st2_v3 (x2 := (m ((c.tc : Thread nD τ).loc main_arg2))) (pre m c 23) (at23_v3 m c)

theorem at28_v18 (c : Dev nD) : pre m c (23 + 5) (Proc.devRef .tc main_v18) = (Cert.ReferenceIdeal.ReadP.val_main_v18 (F := Ideal) (m ((c.tc : Thread nD τ).loc main_arg1)) (m ((c.tc : Thread nD τ).loc main_arg2))) := by
  show after ((ops (F := Ideal)).take (23 + 5)) (launchContents m c) (Proc.devRef .tc main_v18) = _
  rw [after_take_add]
  exact st2_v18 (x1 := (m ((c.tc : Thread nD τ).loc main_arg1))) (x2 := (m ((c.tc : Thread nD τ).loc main_arg2))) (pre m c 23) (at23_v18 m c)

theorem at28_v19 (c : Dev nD) : pre m c (23 + 5) (Proc.devRef .tc main_v19) = (Cert.ReferenceIdeal.ReadP.val_main_v19 (F := Ideal) (m ((c.tc : Thread nD τ).loc main_arg1)) (m ((c.tc : Thread nD τ).loc main_arg2))) := by
  show after ((ops (F := Ideal)).take (23 + 5)) (launchContents m c) (Proc.devRef .tc main_v19) = _
  rw [after_take_add]
  exact st2_v19 (x1 := (m ((c.tc : Thread nD τ).loc main_arg1))) (x2 := (m ((c.tc : Thread nD τ).loc main_arg2))) (pre m c 23) (at23_v18 m c)

theorem at46_v3 (c : Dev nD) : pre m c (28 + 18) (Proc.devRef .tc main_v3) = (Cert.ReferenceIdeal.ReadP.val_main_v3 (F := Ideal) (m ((c.tc : Thread nD τ).loc main_arg2))) := by
  show after ((ops (F := Ideal)).take (28 + 18)) (launchContents m c) (Proc.devRef .tc main_v3) = _
  rw [after_take_add]
  exact st3_v3 (x2 := (m ((c.tc : Thread nD τ).loc main_arg2))) (pre m c 28) (at28_v3 m c)

theorem at46_v18 (c : Dev nD) : pre m c (28 + 18) (Proc.devRef .tc main_v18) = (Cert.ReferenceIdeal.ReadP.val_main_v18 (F := Ideal) (m ((c.tc : Thread nD τ).loc main_arg1)) (m ((c.tc : Thread nD τ).loc main_arg2))) := by
  show after ((ops (F := Ideal)).take (28 + 18)) (launchContents m c) (Proc.devRef .tc main_v18) = _
  rw [after_take_add]
  exact st3_v18 (x1 := (m ((c.tc : Thread nD τ).loc main_arg1))) (x2 := (m ((c.tc : Thread nD τ).loc main_arg2))) (pre m c 28) (at28_v18 m c)

theorem at46_v19 (c : Dev nD) : pre m c (28 + 18) (Proc.devRef .tc main_v19) = (Cert.ReferenceIdeal.ReadP.val_main_v19 (F := Ideal) (m ((c.tc : Thread nD τ).loc main_arg1)) (m ((c.tc : Thread nD τ).loc main_arg2))) := by
  show after ((ops (F := Ideal)).take (28 + 18)) (launchContents m c) (Proc.devRef .tc main_v19) = _
  rw [after_take_add]
  exact st3_v19 (x1 := (m ((c.tc : Thread nD τ).loc main_arg1))) (x2 := (m ((c.tc : Thread nD τ).loc main_arg2))) (pre m c 28) (at28_v19 m c)

theorem at46_v26 (c : Dev nD) : pre m c (28 + 18) (Proc.devRef .tc main_v26) = (Cert.ReferenceIdeal.ReadP.val_main_v26 (F := Ideal) (m ((c.tc : Thread nD τ).loc main_arg0)) (m ((c.tc : Thread nD τ).loc main_arg2))) := by
  show after ((ops (F := Ideal)).take (28 + 18)) (launchContents m c) (Proc.devRef .tc main_v26) = _
  rw [after_take_add]
  exact st3_v26 (x0 := (m ((c.tc : Thread nD τ).loc main_arg0))) (x2 := (m ((c.tc : Thread nD τ).loc main_arg2))) (pre m c 28) ((argAt28_arg0 (launchContents m c)).trans rfl) (at28_v1 m c)

theorem at46_v33 (c : Dev nD) : pre m c (28 + 18) (Proc.devRef .tc main_v33) = (Cert.ReferenceIdeal.ReadP.val_main_v33 (F := Ideal) (m ((c.tc : Thread nD τ).loc main_arg0)) (m ((c.tc : Thread nD τ).loc main_arg2))) := by
  show after ((ops (F := Ideal)).take (28 + 18)) (launchContents m c) (Proc.devRef .tc main_v33) = _
  rw [after_take_add]
  exact st3_v33 (x0 := (m ((c.tc : Thread nD τ).loc main_arg0))) (x2 := (m ((c.tc : Thread nD τ).loc main_arg2))) (pre m c 28) ((argAt28_arg0 (launchContents m c)).trans rfl) (at28_v3 m c)

theorem at51_v3 (c : Dev nD) : pre m c (46 + 5) (Proc.devRef .tc main_v3) = (Cert.ReferenceIdeal.ReadP.val_main_v3 (F := Ideal) (m ((c.tc : Thread nD τ).loc main_arg2))) := by
  show after ((ops (F := Ideal)).take (46 + 5)) (launchContents m c) (Proc.devRef .tc main_v3) = _
  rw [after_take_add]
  exact st4_v3 (x2 := (m ((c.tc : Thread nD τ).loc main_arg2))) (pre m c 46) (at46_v3 m c)

theorem at51_v18 (c : Dev nD) : pre m c (46 + 5) (Proc.devRef .tc main_v18) = (Cert.ReferenceIdeal.ReadP.val_main_v18 (F := Ideal) (m ((c.tc : Thread nD τ).loc main_arg1)) (m ((c.tc : Thread nD τ).loc main_arg2))) := by
  show after ((ops (F := Ideal)).take (46 + 5)) (launchContents m c) (Proc.devRef .tc main_v18) = _
  rw [after_take_add]
  exact st4_v18 (x1 := (m ((c.tc : Thread nD τ).loc main_arg1))) (x2 := (m ((c.tc : Thread nD τ).loc main_arg2))) (pre m c 46) (at46_v18 m c)

theorem at51_v38 (c : Dev nD) : pre m c (46 + 5) (Proc.devRef .tc main_v38) = (Cert.ReferenceIdeal.ReadP.val_main_v38 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) := by
  show after ((ops (F := Ideal)).take (46 + 5)) (launchContents m c) (Proc.devRef .tc main_v38) = _
  rw [after_take_add]
  exact st4_v38 (x0 := (m ((c.tc : Thread nD τ).loc main_arg0))) (x1 := (m ((c.tc : Thread nD τ).loc main_arg1))) (x2 := (m ((c.tc : Thread nD τ).loc main_arg2))) (x3 := (m ((c.tc : Thread nD τ).loc main_arg3))) (x4 := (m ((c.tc : Thread nD τ).loc main_arg4))) (pre m c 46) (at46_v33 m c) (at46_v26 m c) (at46_v19 m c) ((argAt46_arg3 (launchContents m c)).trans rfl) ((argAt46_arg4 (launchContents m c)).trans rfl)

theorem at60_v3 (c : Dev nD) : pre m c (51 + 9) (Proc.devRef .tc main_v3) = (Cert.ReferenceIdeal.ReadP.val_main_v3 (F := Ideal) (m ((c.tc : Thread nD τ).loc main_arg2))) := by
  show after ((ops (F := Ideal)).take (51 + 9)) (launchContents m c) (Proc.devRef .tc main_v3) = _
  rw [after_take_add]
  exact st5_v3 (x2 := (m ((c.tc : Thread nD τ).loc main_arg2))) (pre m c 51) (at51_v3 m c)

theorem at60_v18 (c : Dev nD) : pre m c (51 + 9) (Proc.devRef .tc main_v18) = (Cert.ReferenceIdeal.ReadP.val_main_v18 (F := Ideal) (m ((c.tc : Thread nD τ).loc main_arg1)) (m ((c.tc : Thread nD τ).loc main_arg2))) := by
  show after ((ops (F := Ideal)).take (51 + 9)) (launchContents m c) (Proc.devRef .tc main_v18) = _
  rw [after_take_add]
  exact st5_v18 (x1 := (m ((c.tc : Thread nD τ).loc main_arg1))) (x2 := (m ((c.tc : Thread nD τ).loc main_arg2))) (pre m c 51) (at51_v18 m c)

theorem at60_v39 (c : Dev nD) : pre m c (51 + 9) (Proc.devRef .tc main_v39) = (Cert.ReferenceIdeal.ReadP.val_main_v39 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) := by
  show after ((ops (F := Ideal)).take (51 + 9)) (launchContents m c) (Proc.devRef .tc main_v39) = _
  rw [after_take_add]
  exact st5_v39 (x0 := (m ((c.tc : Thread nD τ).loc main_arg0))) (x1 := (m ((c.tc : Thread nD τ).loc main_arg1))) (x2 := (m ((c.tc : Thread nD τ).loc main_arg2))) (x3 := (m ((c.tc : Thread nD τ).loc main_arg3))) (x4 := (m ((c.tc : Thread nD τ).loc main_arg4))) (pre m c 51) (at51_v38 m c)

theorem at64_v3 (c : Dev nD) : pre m c (60 + 4) (Proc.devRef .tc main_v3) = (Cert.ReferenceIdeal.ReadP.val_main_v3 (F := Ideal) (m ((c.tc : Thread nD τ).loc main_arg2))) := by
  show after ((ops (F := Ideal)).take (60 + 4)) (launchContents m c) (Proc.devRef .tc main_v3) = _
  rw [after_take_add]
  exact st6_v3 (x2 := (m ((c.tc : Thread nD τ).loc main_arg2))) (pre m c 60) (at60_v3 m c)

theorem at64_v18 (c : Dev nD) : pre m c (60 + 4) (Proc.devRef .tc main_v18) = (Cert.ReferenceIdeal.ReadP.val_main_v18 (F := Ideal) (m ((c.tc : Thread nD τ).loc main_arg1)) (m ((c.tc : Thread nD τ).loc main_arg2))) := by
  show after ((ops (F := Ideal)).take (60 + 4)) (launchContents m c) (Proc.devRef .tc main_v18) = _
  rw [after_take_add]
  exact st6_v18 (x1 := (m ((c.tc : Thread nD τ).loc main_arg1))) (x2 := (m ((c.tc : Thread nD τ).loc main_arg2))) (pre m c 60) (at60_v18 m c)

theorem at64_v43 (c : Dev nD) : pre m c (60 + 4) (Proc.devRef .tc main_v43) = (Cert.ReferenceIdeal.ReadP.val_main_v43 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) := by
  show after ((ops (F := Ideal)).take (60 + 4)) (launchContents m c) (Proc.devRef .tc main_v43) = _
  rw [after_take_add]
  exact st6_v43 (x0 := (m ((c.tc : Thread nD τ).loc main_arg0))) (x1 := (m ((c.tc : Thread nD τ).loc main_arg1))) (x2 := (m ((c.tc : Thread nD τ).loc main_arg2))) (x3 := (m ((c.tc : Thread nD τ).loc main_arg3))) (x4 := (m ((c.tc : Thread nD τ).loc main_arg4))) (x5 := (m ((c.tc : Thread nD τ).loc main_arg5))) (x6 := (m ((c.tc : Thread nD τ).loc main_arg6))) (pre m c 60) (at60_v39 m c) ((argAt60_arg5 (launchContents m c)).trans rfl) ((argAt60_arg6 (launchContents m c)).trans rfl)

theorem at73_v3 (c : Dev nD) : pre m c (64 + 9) (Proc.devRef .tc main_v3) = (Cert.ReferenceIdeal.ReadP.val_main_v3 (F := Ideal) (m ((c.tc : Thread nD τ).loc main_arg2))) := by
  show after ((ops (F := Ideal)).take (64 + 9)) (launchContents m c) (Proc.devRef .tc main_v3) = _
  rw [after_take_add]
  exact st7_v3 (x2 := (m ((c.tc : Thread nD τ).loc main_arg2))) (pre m c 64) (at64_v3 m c)

theorem at73_v18 (c : Dev nD) : pre m c (64 + 9) (Proc.devRef .tc main_v18) = (Cert.ReferenceIdeal.ReadP.val_main_v18 (F := Ideal) (m ((c.tc : Thread nD τ).loc main_arg1)) (m ((c.tc : Thread nD τ).loc main_arg2))) := by
  show after ((ops (F := Ideal)).take (64 + 9)) (launchContents m c) (Proc.devRef .tc main_v18) = _
  rw [after_take_add]
  exact st7_v18 (x1 := (m ((c.tc : Thread nD τ).loc main_arg1))) (x2 := (m ((c.tc : Thread nD τ).loc main_arg2))) (pre m c 64) (at64_v18 m c)

theorem at73_v44 (c : Dev nD) : pre m c (64 + 9) (Proc.devRef .tc main_v44) = (Cert.ReferenceIdeal.ReadP.val_main_v44 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) := by
  show after ((ops (F := Ideal)).take (64 + 9)) (launchContents m c) (Proc.devRef .tc main_v44) = _
  rw [after_take_add]
  exact st7_v44 (x0 := (m ((c.tc : Thread nD τ).loc main_arg0))) (x1 := (m ((c.tc : Thread nD τ).loc main_arg1))) (x2 := (m ((c.tc : Thread nD τ).loc main_arg2))) (x3 := (m ((c.tc : Thread nD τ).loc main_arg3))) (x4 := (m ((c.tc : Thread nD τ).loc main_arg4))) (x5 := (m ((c.tc : Thread nD τ).loc main_arg5))) (x6 := (m ((c.tc : Thread nD τ).loc main_arg6))) (pre m c 64) (at64_v43 m c)

theorem at87_v3 (c : Dev nD) : pre m c (73 + 14) (Proc.devRef .tc main_v3) = (Cert.ReferenceIdeal.ReadP.val_main_v3 (F := Ideal) (m ((c.tc : Thread nD τ).loc main_arg2))) := by
  show after ((ops (F := Ideal)).take (73 + 14)) (launchContents m c) (Proc.devRef .tc main_v3) = _
  rw [after_take_add]
  exact st8_v3 (x2 := (m ((c.tc : Thread nD τ).loc main_arg2))) (pre m c 73) (at73_v3 m c)

theorem at87_v18 (c : Dev nD) : pre m c (73 + 14) (Proc.devRef .tc main_v18) = (Cert.ReferenceIdeal.ReadP.val_main_v18 (F := Ideal) (m ((c.tc : Thread nD τ).loc main_arg1)) (m ((c.tc : Thread nD τ).loc main_arg2))) := by
  show after ((ops (F := Ideal)).take (73 + 14)) (launchContents m c) (Proc.devRef .tc main_v18) = _
  rw [after_take_add]
  exact st8_v18 (x1 := (m ((c.tc : Thread nD τ).loc main_arg1))) (x2 := (m ((c.tc : Thread nD τ).loc main_arg2))) (pre m c 73) (at73_v18 m c)

theorem at87_v56 (c : Dev nD) : pre m c (73 + 14) (Proc.devRef .tc main_v56) = (Cert.ReferenceIdeal.ReadP.val_main_v56 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) := by
  show after ((ops (F := Ideal)).take (73 + 14)) (launchContents m c) (Proc.devRef .tc main_v56) = _
  rw [after_take_add]
  exact st8_v56 (x0 := (m ((c.tc : Thread nD τ).loc main_arg0))) (x1 := (m ((c.tc : Thread nD τ).loc main_arg1))) (x2 := (m ((c.tc : Thread nD τ).loc main_arg2))) (x3 := (m ((c.tc : Thread nD τ).loc main_arg3))) (x4 := (m ((c.tc : Thread nD τ).loc main_arg4))) (x5 := (m ((c.tc : Thread nD τ).loc main_arg5))) (x6 := (m ((c.tc : Thread nD τ).loc main_arg6))) (x7 := (m ((c.tc : Thread nD τ).loc main_arg7))) (x8 := (m ((c.tc : Thread nD τ).loc main_arg8))) (pre m c 73) (at73_v44 m c) ((argAt73_arg7 (launchContents m c)).trans rfl) ((argAt73_arg8 (launchContents m c)).trans rfl)

theorem at91_v3 (c : Dev nD) : pre m c (87 + 4) (Proc.devRef .tc main_v3) = (Cert.ReferenceIdeal.ReadP.val_main_v3 (F := Ideal) (m ((c.tc : Thread nD τ).loc main_arg2))) := by
  show after ((ops (F := Ideal)).take (87 + 4)) (launchContents m c) (Proc.devRef .tc main_v3) = _
  rw [after_take_add]
  exact st9_v3 (x2 := (m ((c.tc : Thread nD τ).loc main_arg2))) (pre m c 87) (at87_v3 m c)

theorem at91_v18 (c : Dev nD) : pre m c (87 + 4) (Proc.devRef .tc main_v18) = (Cert.ReferenceIdeal.ReadP.val_main_v18 (F := Ideal) (m ((c.tc : Thread nD τ).loc main_arg1)) (m ((c.tc : Thread nD τ).loc main_arg2))) := by
  show after ((ops (F := Ideal)).take (87 + 4)) (launchContents m c) (Proc.devRef .tc main_v18) = _
  rw [after_take_add]
  exact st9_v18 (x1 := (m ((c.tc : Thread nD τ).loc main_arg1))) (x2 := (m ((c.tc : Thread nD τ).loc main_arg2))) (pre m c 87) (at87_v18 m c)

theorem at91_v56 (c : Dev nD) : pre m c (87 + 4) (Proc.devRef .tc main_v56) = (Cert.ReferenceIdeal.ReadP.val_main_v56 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) := by
  show after ((ops (F := Ideal)).take (87 + 4)) (launchContents m c) (Proc.devRef .tc main_v56) = _
  rw [after_take_add]
  exact st9_v56 (x0 := (m ((c.tc : Thread nD τ).loc main_arg0))) (x1 := (m ((c.tc : Thread nD τ).loc main_arg1))) (x2 := (m ((c.tc : Thread nD τ).loc main_arg2))) (x3 := (m ((c.tc : Thread nD τ).loc main_arg3))) (x4 := (m ((c.tc : Thread nD τ).loc main_arg4))) (x5 := (m ((c.tc : Thread nD τ).loc main_arg5))) (x6 := (m ((c.tc : Thread nD τ).loc main_arg6))) (x7 := (m ((c.tc : Thread nD τ).loc main_arg7))) (x8 := (m ((c.tc : Thread nD τ).loc main_arg8))) (pre m c 87) (at87_v56 m c)

theorem at91_v59 (c : Dev nD) : pre m c (87 + 4) (Proc.devRef .tc main_v59) = (Cert.ReferenceIdeal.ReadP.val_main_v59 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) := by
  show after ((ops (F := Ideal)).take (87 + 4)) (launchContents m c) (Proc.devRef .tc main_v59) = _
  rw [after_take_add]
  exact st9_v59 (x0 := (m ((c.tc : Thread nD τ).loc main_arg0))) (x1 := (m ((c.tc : Thread nD τ).loc main_arg1))) (x2 := (m ((c.tc : Thread nD τ).loc main_arg2))) (x3 := (m ((c.tc : Thread nD τ).loc main_arg3))) (x4 := (m ((c.tc : Thread nD τ).loc main_arg4))) (x5 := (m ((c.tc : Thread nD τ).loc main_arg5))) (x6 := (m ((c.tc : Thread nD τ).loc main_arg6))) (x7 := (m ((c.tc : Thread nD τ).loc main_arg7))) (x8 := (m ((c.tc : Thread nD τ).loc main_arg8))) (pre m c 87) (at87_v3 m c) (at87_v56 m c)

theorem at96_v3 (c : Dev nD) : pre m c (91 + 5) (Proc.devRef .tc main_v3) = (Cert.ReferenceIdeal.ReadP.val_main_v3 (F := Ideal) (m ((c.tc : Thread nD τ).loc main_arg2))) := by
  show after ((ops (F := Ideal)).take (91 + 5)) (launchContents m c) (Proc.devRef .tc main_v3) = _
  rw [after_take_add]
  exact st10_v3 (x2 := (m ((c.tc : Thread nD τ).loc main_arg2))) (pre m c 91) (at91_v3 m c)

theorem at96_v18 (c : Dev nD) : pre m c (91 + 5) (Proc.devRef .tc main_v18) = (Cert.ReferenceIdeal.ReadP.val_main_v18 (F := Ideal) (m ((c.tc : Thread nD τ).loc main_arg1)) (m ((c.tc : Thread nD τ).loc main_arg2))) := by
  show after ((ops (F := Ideal)).take (91 + 5)) (launchContents m c) (Proc.devRef .tc main_v18) = _
  rw [after_take_add]
  exact st10_v18 (x1 := (m ((c.tc : Thread nD τ).loc main_arg1))) (x2 := (m ((c.tc : Thread nD τ).loc main_arg2))) (pre m c 91) (at91_v18 m c)

theorem at96_v56 (c : Dev nD) : pre m c (91 + 5) (Proc.devRef .tc main_v56) = (Cert.ReferenceIdeal.ReadP.val_main_v56 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) := by
  show after ((ops (F := Ideal)).take (91 + 5)) (launchContents m c) (Proc.devRef .tc main_v56) = _
  rw [after_take_add]
  exact st10_v56 (x0 := (m ((c.tc : Thread nD τ).loc main_arg0))) (x1 := (m ((c.tc : Thread nD τ).loc main_arg1))) (x2 := (m ((c.tc : Thread nD τ).loc main_arg2))) (x3 := (m ((c.tc : Thread nD τ).loc main_arg3))) (x4 := (m ((c.tc : Thread nD τ).loc main_arg4))) (x5 := (m ((c.tc : Thread nD τ).loc main_arg5))) (x6 := (m ((c.tc : Thread nD τ).loc main_arg6))) (x7 := (m ((c.tc : Thread nD τ).loc main_arg7))) (x8 := (m ((c.tc : Thread nD τ).loc main_arg8))) (pre m c 91) (at91_v56 m c)

theorem at96_v64 (c : Dev nD) : pre m c (91 + 5) (Proc.devRef .tc main_v64) = (Cert.ReferenceIdeal.ReadP.val_main_v64 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) := by
  show after ((ops (F := Ideal)).take (91 + 5)) (launchContents m c) (Proc.devRef .tc main_v64) = _
  rw [after_take_add]
  exact st10_v64 (x0 := (m ((c.tc : Thread nD τ).loc main_arg0))) (x1 := (m ((c.tc : Thread nD τ).loc main_arg1))) (x2 := (m ((c.tc : Thread nD τ).loc main_arg2))) (x3 := (m ((c.tc : Thread nD τ).loc main_arg3))) (x4 := (m ((c.tc : Thread nD τ).loc main_arg4))) (x5 := (m ((c.tc : Thread nD τ).loc main_arg5))) (x6 := (m ((c.tc : Thread nD τ).loc main_arg6))) (x7 := (m ((c.tc : Thread nD τ).loc main_arg7))) (x8 := (m ((c.tc : Thread nD τ).loc main_arg8))) (x9 := (m ((c.tc : Thread nD τ).loc main_arg9))) (x10 := (m ((c.tc : Thread nD τ).loc main_arg10))) (pre m c 91) ((argAt91_arg0 (launchContents m c)).trans rfl) (at91_v59 m c) ((argAt91_arg9 (launchContents m c)).trans rfl) ((argAt91_arg10 (launchContents m c)).trans rfl)

theorem at105_v3 (c : Dev nD) : pre m c (96 + 9) (Proc.devRef .tc main_v3) = (Cert.ReferenceIdeal.ReadP.val_main_v3 (F := Ideal) (m ((c.tc : Thread nD τ).loc main_arg2))) := by
  show after ((ops (F := Ideal)).take (96 + 9)) (launchContents m c) (Proc.devRef .tc main_v3) = _
  rw [after_take_add]
  exact st11_v3 (x2 := (m ((c.tc : Thread nD τ).loc main_arg2))) (pre m c 96) (at96_v3 m c)

theorem at105_v18 (c : Dev nD) : pre m c (96 + 9) (Proc.devRef .tc main_v18) = (Cert.ReferenceIdeal.ReadP.val_main_v18 (F := Ideal) (m ((c.tc : Thread nD τ).loc main_arg1)) (m ((c.tc : Thread nD τ).loc main_arg2))) := by
  show after ((ops (F := Ideal)).take (96 + 9)) (launchContents m c) (Proc.devRef .tc main_v18) = _
  rw [after_take_add]
  exact st11_v18 (x1 := (m ((c.tc : Thread nD τ).loc main_arg1))) (x2 := (m ((c.tc : Thread nD τ).loc main_arg2))) (pre m c 96) (at96_v18 m c)

theorem at105_v56 (c : Dev nD) : pre m c (96 + 9) (Proc.devRef .tc main_v56) = (Cert.ReferenceIdeal.ReadP.val_main_v56 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) := by
  show after ((ops (F := Ideal)).take (96 + 9)) (launchContents m c) (Proc.devRef .tc main_v56) = _
  rw [after_take_add]
  exact st11_v56 (x0 := (m ((c.tc : Thread nD τ).loc main_arg0))) (x1 := (m ((c.tc : Thread nD τ).loc main_arg1))) (x2 := (m ((c.tc : Thread nD τ).loc main_arg2))) (x3 := (m ((c.tc : Thread nD τ).loc main_arg3))) (x4 := (m ((c.tc : Thread nD τ).loc main_arg4))) (x5 := (m ((c.tc : Thread nD τ).loc main_arg5))) (x6 := (m ((c.tc : Thread nD τ).loc main_arg6))) (x7 := (m ((c.tc : Thread nD τ).loc main_arg7))) (x8 := (m ((c.tc : Thread nD τ).loc main_arg8))) (pre m c 96) (at96_v56 m c)

theorem at105_v65 (c : Dev nD) : pre m c (96 + 9) (Proc.devRef .tc main_v65) = (Cert.ReferenceIdeal.ReadP.val_main_v65 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) := by
  show after ((ops (F := Ideal)).take (96 + 9)) (launchContents m c) (Proc.devRef .tc main_v65) = _
  rw [after_take_add]
  exact st11_v65 (x0 := (m ((c.tc : Thread nD τ).loc main_arg0))) (x1 := (m ((c.tc : Thread nD τ).loc main_arg1))) (x2 := (m ((c.tc : Thread nD τ).loc main_arg2))) (x3 := (m ((c.tc : Thread nD τ).loc main_arg3))) (x4 := (m ((c.tc : Thread nD τ).loc main_arg4))) (x5 := (m ((c.tc : Thread nD τ).loc main_arg5))) (x6 := (m ((c.tc : Thread nD τ).loc main_arg6))) (x7 := (m ((c.tc : Thread nD τ).loc main_arg7))) (x8 := (m ((c.tc : Thread nD τ).loc main_arg8))) (x9 := (m ((c.tc : Thread nD τ).loc main_arg9))) (x10 := (m ((c.tc : Thread nD τ).loc main_arg10))) (pre m c 96) (at96_v64 m c)

theorem at110_v3 (c : Dev nD) : pre m c (105 + 5) (Proc.devRef .tc main_v3) = (Cert.ReferenceIdeal.ReadP.val_main_v3 (F := Ideal) (m ((c.tc : Thread nD τ).loc main_arg2))) := by
  show after ((ops (F := Ideal)).take (105 + 5)) (launchContents m c) (Proc.devRef .tc main_v3) = _
  rw [after_take_add]
  exact st12_v3 (x2 := (m ((c.tc : Thread nD τ).loc main_arg2))) (pre m c 105) (at105_v3 m c)

theorem at110_v18 (c : Dev nD) : pre m c (105 + 5) (Proc.devRef .tc main_v18) = (Cert.ReferenceIdeal.ReadP.val_main_v18 (F := Ideal) (m ((c.tc : Thread nD τ).loc main_arg1)) (m ((c.tc : Thread nD τ).loc main_arg2))) := by
  show after ((ops (F := Ideal)).take (105 + 5)) (launchContents m c) (Proc.devRef .tc main_v18) = _
  rw [after_take_add]
  exact st12_v18 (x1 := (m ((c.tc : Thread nD τ).loc main_arg1))) (x2 := (m ((c.tc : Thread nD τ).loc main_arg2))) (pre m c 105) (at105_v18 m c)

theorem at110_v56 (c : Dev nD) : pre m c (105 + 5) (Proc.devRef .tc main_v56) = (Cert.ReferenceIdeal.ReadP.val_main_v56 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) := by
  show after ((ops (F := Ideal)).take (105 + 5)) (launchContents m c) (Proc.devRef .tc main_v56) = _
  rw [after_take_add]
  exact st12_v56 (x0 := (m ((c.tc : Thread nD τ).loc main_arg0))) (x1 := (m ((c.tc : Thread nD τ).loc main_arg1))) (x2 := (m ((c.tc : Thread nD τ).loc main_arg2))) (x3 := (m ((c.tc : Thread nD τ).loc main_arg3))) (x4 := (m ((c.tc : Thread nD τ).loc main_arg4))) (x5 := (m ((c.tc : Thread nD τ).loc main_arg5))) (x6 := (m ((c.tc : Thread nD τ).loc main_arg6))) (x7 := (m ((c.tc : Thread nD τ).loc main_arg7))) (x8 := (m ((c.tc : Thread nD τ).loc main_arg8))) (pre m c 105) (at105_v56 m c)

theorem at110_v70 (c : Dev nD) : pre m c (105 + 5) (Proc.devRef .tc main_v70) = (Cert.ReferenceIdeal.ReadP.val_main_v70 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))) := by
  show after ((ops (F := Ideal)).take (105 + 5)) (launchContents m c) (Proc.devRef .tc main_v70) = _
  rw [after_take_add]
  exact st12_v70 (x0 := (m ((c.tc : Thread nD τ).loc main_arg0))) (x1 := (m ((c.tc : Thread nD τ).loc main_arg1))) (x2 := (m ((c.tc : Thread nD τ).loc main_arg2))) (x3 := (m ((c.tc : Thread nD τ).loc main_arg3))) (x4 := (m ((c.tc : Thread nD τ).loc main_arg4))) (x5 := (m ((c.tc : Thread nD τ).loc main_arg5))) (x6 := (m ((c.tc : Thread nD τ).loc main_arg6))) (x7 := (m ((c.tc : Thread nD τ).loc main_arg7))) (x8 := (m ((c.tc : Thread nD τ).loc main_arg8))) (x9 := (m ((c.tc : Thread nD τ).loc main_arg9))) (x10 := (m ((c.tc : Thread nD τ).loc main_arg10))) (x11 := (m ((c.tc : Thread nD τ).loc main_arg11))) (x12 := (m ((c.tc : Thread nD τ).loc main_arg12))) (pre m c 105) ((argAt105_arg0 (launchContents m c)).trans rfl) (at105_v65 m c) ((argAt105_arg11 (launchContents m c)).trans rfl) ((argAt105_arg12 (launchContents m c)).trans rfl)

theorem at114_v3 (c : Dev nD) : pre m c (110 + 4) (Proc.devRef .tc main_v3) = (Cert.ReferenceIdeal.ReadP.val_main_v3 (F := Ideal) (m ((c.tc : Thread nD τ).loc main_arg2))) := by
  show after ((ops (F := Ideal)).take (110 + 4)) (launchContents m c) (Proc.devRef .tc main_v3) = _
  rw [after_take_add]
  exact st13_v3 (x2 := (m ((c.tc : Thread nD τ).loc main_arg2))) (pre m c 110) (at110_v3 m c)

theorem at114_v18 (c : Dev nD) : pre m c (110 + 4) (Proc.devRef .tc main_v18) = (Cert.ReferenceIdeal.ReadP.val_main_v18 (F := Ideal) (m ((c.tc : Thread nD τ).loc main_arg1)) (m ((c.tc : Thread nD τ).loc main_arg2))) := by
  show after ((ops (F := Ideal)).take (110 + 4)) (launchContents m c) (Proc.devRef .tc main_v18) = _
  rw [after_take_add]
  exact st13_v18 (x1 := (m ((c.tc : Thread nD τ).loc main_arg1))) (x2 := (m ((c.tc : Thread nD τ).loc main_arg2))) (pre m c 110) (at110_v18 m c)

theorem at114_v70 (c : Dev nD) : pre m c (110 + 4) (Proc.devRef .tc main_v70) = (Cert.ReferenceIdeal.ReadP.val_main_v70 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))) := by
  show after ((ops (F := Ideal)).take (110 + 4)) (launchContents m c) (Proc.devRef .tc main_v70) = _
  rw [after_take_add]
  exact st13_v70 (x0 := (m ((c.tc : Thread nD τ).loc main_arg0))) (x1 := (m ((c.tc : Thread nD τ).loc main_arg1))) (x2 := (m ((c.tc : Thread nD τ).loc main_arg2))) (x3 := (m ((c.tc : Thread nD τ).loc main_arg3))) (x4 := (m ((c.tc : Thread nD τ).loc main_arg4))) (x5 := (m ((c.tc : Thread nD τ).loc main_arg5))) (x6 := (m ((c.tc : Thread nD τ).loc main_arg6))) (x7 := (m ((c.tc : Thread nD τ).loc main_arg7))) (x8 := (m ((c.tc : Thread nD τ).loc main_arg8))) (x9 := (m ((c.tc : Thread nD τ).loc main_arg9))) (x10 := (m ((c.tc : Thread nD τ).loc main_arg10))) (x11 := (m ((c.tc : Thread nD τ).loc main_arg11))) (x12 := (m ((c.tc : Thread nD τ).loc main_arg12))) (pre m c 110) (at110_v70 m c)

theorem at114_v74 (c : Dev nD) : pre m c (110 + 4) (Proc.devRef .tc main_v74) = (Cert.ReferenceIdeal.ReadP.val_main_v74 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg13)) (m ((c.tc : Thread nD τ).loc main_arg14))) := by
  show after ((ops (F := Ideal)).take (110 + 4)) (launchContents m c) (Proc.devRef .tc main_v74) = _
  rw [after_take_add]
  exact st13_v74 (x0 := (m ((c.tc : Thread nD τ).loc main_arg0))) (x1 := (m ((c.tc : Thread nD τ).loc main_arg1))) (x2 := (m ((c.tc : Thread nD τ).loc main_arg2))) (x3 := (m ((c.tc : Thread nD τ).loc main_arg3))) (x4 := (m ((c.tc : Thread nD τ).loc main_arg4))) (x5 := (m ((c.tc : Thread nD τ).loc main_arg5))) (x6 := (m ((c.tc : Thread nD τ).loc main_arg6))) (x7 := (m ((c.tc : Thread nD τ).loc main_arg7))) (x8 := (m ((c.tc : Thread nD τ).loc main_arg8))) (x13 := (m ((c.tc : Thread nD τ).loc main_arg13))) (x14 := (m ((c.tc : Thread nD τ).loc main_arg14))) (pre m c 110) (at110_v56 m c) ((argAt110_arg13 (launchContents m c)).trans rfl) ((argAt110_arg14 (launchContents m c)).trans rfl)

theorem at123_v3 (c : Dev nD) : pre m c (114 + 9) (Proc.devRef .tc main_v3) = (Cert.ReferenceIdeal.ReadP.val_main_v3 (F := Ideal) (m ((c.tc : Thread nD τ).loc main_arg2))) := by
  show after ((ops (F := Ideal)).take (114 + 9)) (launchContents m c) (Proc.devRef .tc main_v3) = _
  rw [after_take_add]
  exact st14_v3 (x2 := (m ((c.tc : Thread nD τ).loc main_arg2))) (pre m c 114) (at114_v3 m c)

theorem at123_v18 (c : Dev nD) : pre m c (114 + 9) (Proc.devRef .tc main_v18) = (Cert.ReferenceIdeal.ReadP.val_main_v18 (F := Ideal) (m ((c.tc : Thread nD τ).loc main_arg1)) (m ((c.tc : Thread nD τ).loc main_arg2))) := by
  show after ((ops (F := Ideal)).take (114 + 9)) (launchContents m c) (Proc.devRef .tc main_v18) = _
  rw [after_take_add]
  exact st14_v18 (x1 := (m ((c.tc : Thread nD τ).loc main_arg1))) (x2 := (m ((c.tc : Thread nD τ).loc main_arg2))) (pre m c 114) (at114_v18 m c)

theorem at123_v70 (c : Dev nD) : pre m c (114 + 9) (Proc.devRef .tc main_v70) = (Cert.ReferenceIdeal.ReadP.val_main_v70 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))) := by
  show after ((ops (F := Ideal)).take (114 + 9)) (launchContents m c) (Proc.devRef .tc main_v70) = _
  rw [after_take_add]
  exact st14_v70 (x0 := (m ((c.tc : Thread nD τ).loc main_arg0))) (x1 := (m ((c.tc : Thread nD τ).loc main_arg1))) (x2 := (m ((c.tc : Thread nD τ).loc main_arg2))) (x3 := (m ((c.tc : Thread nD τ).loc main_arg3))) (x4 := (m ((c.tc : Thread nD τ).loc main_arg4))) (x5 := (m ((c.tc : Thread nD τ).loc main_arg5))) (x6 := (m ((c.tc : Thread nD τ).loc main_arg6))) (x7 := (m ((c.tc : Thread nD τ).loc main_arg7))) (x8 := (m ((c.tc : Thread nD τ).loc main_arg8))) (x9 := (m ((c.tc : Thread nD τ).loc main_arg9))) (x10 := (m ((c.tc : Thread nD τ).loc main_arg10))) (x11 := (m ((c.tc : Thread nD τ).loc main_arg11))) (x12 := (m ((c.tc : Thread nD τ).loc main_arg12))) (pre m c 114) (at114_v70 m c)

theorem at123_v75 (c : Dev nD) : pre m c (114 + 9) (Proc.devRef .tc main_v75) = (Cert.ReferenceIdeal.ReadP.val_main_v75 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg13)) (m ((c.tc : Thread nD τ).loc main_arg14))) := by
  show after ((ops (F := Ideal)).take (114 + 9)) (launchContents m c) (Proc.devRef .tc main_v75) = _
  rw [after_take_add]
  exact st14_v75 (x0 := (m ((c.tc : Thread nD τ).loc main_arg0))) (x1 := (m ((c.tc : Thread nD τ).loc main_arg1))) (x2 := (m ((c.tc : Thread nD τ).loc main_arg2))) (x3 := (m ((c.tc : Thread nD τ).loc main_arg3))) (x4 := (m ((c.tc : Thread nD τ).loc main_arg4))) (x5 := (m ((c.tc : Thread nD τ).loc main_arg5))) (x6 := (m ((c.tc : Thread nD τ).loc main_arg6))) (x7 := (m ((c.tc : Thread nD τ).loc main_arg7))) (x8 := (m ((c.tc : Thread nD τ).loc main_arg8))) (x13 := (m ((c.tc : Thread nD τ).loc main_arg13))) (x14 := (m ((c.tc : Thread nD τ).loc main_arg14))) (pre m c 114) (at114_v74 m c)

theorem at129_v3 (c : Dev nD) : pre m c (123 + 6) (Proc.devRef .tc main_v3) = (Cert.ReferenceIdeal.ReadP.val_main_v3 (F := Ideal) (m ((c.tc : Thread nD τ).loc main_arg2))) := by
  show after ((ops (F := Ideal)).take (123 + 6)) (launchContents m c) (Proc.devRef .tc main_v3) = _
  rw [after_take_add]
  exact st15_v3 (x2 := (m ((c.tc : Thread nD τ).loc main_arg2))) (pre m c 123) (at123_v3 m c)

theorem at129_v70 (c : Dev nD) : pre m c (123 + 6) (Proc.devRef .tc main_v70) = (Cert.ReferenceIdeal.ReadP.val_main_v70 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))) := by
  show after ((ops (F := Ideal)).take (123 + 6)) (launchContents m c) (Proc.devRef .tc main_v70) = _
  rw [after_take_add]
  exact st15_v70 (x0 := (m ((c.tc : Thread nD τ).loc main_arg0))) (x1 := (m ((c.tc : Thread nD τ).loc main_arg1))) (x2 := (m ((c.tc : Thread nD τ).loc main_arg2))) (x3 := (m ((c.tc : Thread nD τ).loc main_arg3))) (x4 := (m ((c.tc : Thread nD τ).loc main_arg4))) (x5 := (m ((c.tc : Thread nD τ).loc main_arg5))) (x6 := (m ((c.tc : Thread nD τ).loc main_arg6))) (x7 := (m ((c.tc : Thread nD τ).loc main_arg7))) (x8 := (m ((c.tc : Thread nD τ).loc main_arg8))) (x9 := (m ((c.tc : Thread nD τ).loc main_arg9))) (x10 := (m ((c.tc : Thread nD τ).loc main_arg10))) (x11 := (m ((c.tc : Thread nD τ).loc main_arg11))) (x12 := (m ((c.tc : Thread nD τ).loc main_arg12))) (pre m c 123) (at123_v70 m c)

theorem at129_v81 (c : Dev nD) : pre m c (123 + 6) (Proc.devRef .tc main_v81) = (Cert.ReferenceIdeal.ReadP.val_main_v81 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg13)) (m ((c.tc : Thread nD τ).loc main_arg14)) (m ((c.tc : Thread nD τ).loc main_arg15)) (m ((c.tc : Thread nD τ).loc main_arg16))) := by
  show after ((ops (F := Ideal)).take (123 + 6)) (launchContents m c) (Proc.devRef .tc main_v81) = _
  rw [after_take_add]
  exact st15_v81 (x0 := (m ((c.tc : Thread nD τ).loc main_arg0))) (x1 := (m ((c.tc : Thread nD τ).loc main_arg1))) (x2 := (m ((c.tc : Thread nD τ).loc main_arg2))) (x3 := (m ((c.tc : Thread nD τ).loc main_arg3))) (x4 := (m ((c.tc : Thread nD τ).loc main_arg4))) (x5 := (m ((c.tc : Thread nD τ).loc main_arg5))) (x6 := (m ((c.tc : Thread nD τ).loc main_arg6))) (x7 := (m ((c.tc : Thread nD τ).loc main_arg7))) (x8 := (m ((c.tc : Thread nD τ).loc main_arg8))) (x13 := (m ((c.tc : Thread nD τ).loc main_arg13))) (x14 := (m ((c.tc : Thread nD τ).loc main_arg14))) (x15 := (m ((c.tc : Thread nD τ).loc main_arg15))) (x16 := (m ((c.tc : Thread nD τ).loc main_arg16))) (pre m c 123) (at123_v18 m c) (at123_v75 m c) ((argAt123_arg15 (launchContents m c)).trans rfl) ((argAt123_arg16 (launchContents m c)).trans rfl)

theorem at134_v70 (c : Dev nD) : pre m c (129 + 5) (Proc.devRef .tc main_v70) = (Cert.ReferenceIdeal.ReadP.val_main_v70 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))) := by
  show after ((ops (F := Ideal)).take (129 + 5)) (launchContents m c) (Proc.devRef .tc main_v70) = _
  rw [after_take_add]
  exact st16_v70 (x0 := (m ((c.tc : Thread nD τ).loc main_arg0))) (x1 := (m ((c.tc : Thread nD τ).loc main_arg1))) (x2 := (m ((c.tc : Thread nD τ).loc main_arg2))) (x3 := (m ((c.tc : Thread nD τ).loc main_arg3))) (x4 := (m ((c.tc : Thread nD τ).loc main_arg4))) (x5 := (m ((c.tc : Thread nD τ).loc main_arg5))) (x6 := (m ((c.tc : Thread nD τ).loc main_arg6))) (x7 := (m ((c.tc : Thread nD τ).loc main_arg7))) (x8 := (m ((c.tc : Thread nD τ).loc main_arg8))) (x9 := (m ((c.tc : Thread nD τ).loc main_arg9))) (x10 := (m ((c.tc : Thread nD τ).loc main_arg10))) (x11 := (m ((c.tc : Thread nD τ).loc main_arg11))) (x12 := (m ((c.tc : Thread nD τ).loc main_arg12))) (pre m c 129) (at129_v70 m c)

theorem at134_v85 (c : Dev nD) : pre m c (129 + 5) (Proc.devRef .tc main_v85) = (Cert.ReferenceIdeal.ReadP.val_main_v85 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg13)) (m ((c.tc : Thread nD τ).loc main_arg14)) (m ((c.tc : Thread nD τ).loc main_arg15)) (m ((c.tc : Thread nD τ).loc main_arg16))) := by
  show after ((ops (F := Ideal)).take (129 + 5)) (launchContents m c) (Proc.devRef .tc main_v85) = _
  rw [after_take_add]
  exact st16_v85 (x0 := (m ((c.tc : Thread nD τ).loc main_arg0))) (x1 := (m ((c.tc : Thread nD τ).loc main_arg1))) (x2 := (m ((c.tc : Thread nD τ).loc main_arg2))) (x3 := (m ((c.tc : Thread nD τ).loc main_arg3))) (x4 := (m ((c.tc : Thread nD τ).loc main_arg4))) (x5 := (m ((c.tc : Thread nD τ).loc main_arg5))) (x6 := (m ((c.tc : Thread nD τ).loc main_arg6))) (x7 := (m ((c.tc : Thread nD τ).loc main_arg7))) (x8 := (m ((c.tc : Thread nD τ).loc main_arg8))) (x13 := (m ((c.tc : Thread nD τ).loc main_arg13))) (x14 := (m ((c.tc : Thread nD τ).loc main_arg14))) (x15 := (m ((c.tc : Thread nD τ).loc main_arg15))) (x16 := (m ((c.tc : Thread nD τ).loc main_arg16))) (pre m c 129) ((argAt129_arg1 (launchContents m c)).trans rfl) (at129_v3 m c) (at129_v81 m c)

/-- After the whole line the first result holds the reference's last stage of the arguments. -/
theorem out0 (c : Dev nD) : after (ops (F := Ideal)) (launchContents m c) (Proc.devRef .tc main_v70) = (Cert.ReferenceIdeal.ReadP.val_main_v70 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))) :=
  at134_v70 m c

/-- And the second result. -/
theorem out1 (c : Dev nD) : after (ops (F := Ideal)) (launchContents m c) (Proc.devRef .tc main_v85) = (Cert.ReferenceIdeal.ReadP.val_main_v85 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg13)) (m ((c.tc : Thread nD τ).loc main_arg14)) (m ((c.tc : Thread nD τ).loc main_arg15)) (m ((c.tc : Thread nD τ).loc main_arg16))) :=
  at134_v85 m c

end Cert.ReferenceIdeal.RefRun

end
-- ==== Proof.RefArgs.lean ====
/-
  The reference's line writes none of its seventeen arguments: after the whole line each argument buffer holds what
  it held at the launch.
-/
import proofs.«105293_j58471684768170_2_alg».proof.Proof.RunP
import Idealize.ShloMosaic.PureOps.Ideal

set_option maxRecDepth 16384

noncomputable section

namespace Cert.ReferenceIdeal.RefRun

open Cert.ReferenceIdeal Cert.ReferenceIdeal.Gen Cert.ReferenceIdeal.ValueP
open Idealize.ShloMosaic Idealize.ShloMosaic.TcCoe Idealize.SL.Sem Idealize.ShloMosaic.StableHlo

variable (m : (ℓ : Loc nD τ sig) → Buf (Elt Ideal) ℓ)

set_option maxHeartbeats 2000000 in
theorem kept_arg0 (c : Dev nD) : after (ops (F := Ideal)) (launchContents m c) (Proc.devRef .tc main_arg0) = (m ((c.tc : Thread nD τ).loc main_arg0)) := by
  after_results_simp <;> rfl

set_option maxHeartbeats 2000000 in
theorem kept_arg1 (c : Dev nD) : after (ops (F := Ideal)) (launchContents m c) (Proc.devRef .tc main_arg1) = (m ((c.tc : Thread nD τ).loc main_arg1)) := by
  after_results_simp <;> rfl

set_option maxHeartbeats 2000000 in
theorem kept_arg2 (c : Dev nD) : after (ops (F := Ideal)) (launchContents m c) (Proc.devRef .tc main_arg2) = (m ((c.tc : Thread nD τ).loc main_arg2)) := by
  after_results_simp <;> rfl

set_option maxHeartbeats 2000000 in
theorem kept_arg3 (c : Dev nD) : after (ops (F := Ideal)) (launchContents m c) (Proc.devRef .tc main_arg3) = (m ((c.tc : Thread nD τ).loc main_arg3)) := by
  after_results_simp <;> rfl

set_option maxHeartbeats 2000000 in
theorem kept_arg4 (c : Dev nD) : after (ops (F := Ideal)) (launchContents m c) (Proc.devRef .tc main_arg4) = (m ((c.tc : Thread nD τ).loc main_arg4)) := by
  after_results_simp <;> rfl

set_option maxHeartbeats 2000000 in
theorem kept_arg5 (c : Dev nD) : after (ops (F := Ideal)) (launchContents m c) (Proc.devRef .tc main_arg5) = (m ((c.tc : Thread nD τ).loc main_arg5)) := by
  after_results_simp <;> rfl

set_option maxHeartbeats 2000000 in
theorem kept_arg6 (c : Dev nD) : after (ops (F := Ideal)) (launchContents m c) (Proc.devRef .tc main_arg6) = (m ((c.tc : Thread nD τ).loc main_arg6)) := by
  after_results_simp <;> rfl

set_option maxHeartbeats 2000000 in
theorem kept_arg7 (c : Dev nD) : after (ops (F := Ideal)) (launchContents m c) (Proc.devRef .tc main_arg7) = (m ((c.tc : Thread nD τ).loc main_arg7)) := by
  after_results_simp <;> rfl

set_option maxHeartbeats 2000000 in
theorem kept_arg8 (c : Dev nD) : after (ops (F := Ideal)) (launchContents m c) (Proc.devRef .tc main_arg8) = (m ((c.tc : Thread nD τ).loc main_arg8)) := by
  after_results_simp <;> rfl

set_option maxHeartbeats 2000000 in
theorem kept_arg9 (c : Dev nD) : after (ops (F := Ideal)) (launchContents m c) (Proc.devRef .tc main_arg9) = (m ((c.tc : Thread nD τ).loc main_arg9)) := by
  after_results_simp <;> rfl

set_option maxHeartbeats 2000000 in
theorem kept_arg10 (c : Dev nD) : after (ops (F := Ideal)) (launchContents m c) (Proc.devRef .tc main_arg10) = (m ((c.tc : Thread nD τ).loc main_arg10)) := by
  after_results_simp <;> rfl

set_option maxHeartbeats 2000000 in
theorem kept_arg11 (c : Dev nD) : after (ops (F := Ideal)) (launchContents m c) (Proc.devRef .tc main_arg11) = (m ((c.tc : Thread nD τ).loc main_arg11)) := by
  after_results_simp <;> rfl

set_option maxHeartbeats 2000000 in
theorem kept_arg12 (c : Dev nD) : after (ops (F := Ideal)) (launchContents m c) (Proc.devRef .tc main_arg12) = (m ((c.tc : Thread nD τ).loc main_arg12)) := by
  after_results_simp <;> rfl

set_option maxHeartbeats 2000000 in
theorem kept_arg13 (c : Dev nD) : after (ops (F := Ideal)) (launchContents m c) (Proc.devRef .tc main_arg13) = (m ((c.tc : Thread nD τ).loc main_arg13)) := by
  after_results_simp <;> rfl

set_option maxHeartbeats 2000000 in
theorem kept_arg14 (c : Dev nD) : after (ops (F := Ideal)) (launchContents m c) (Proc.devRef .tc main_arg14) = (m ((c.tc : Thread nD τ).loc main_arg14)) := by
  after_results_simp <;> rfl

set_option maxHeartbeats 2000000 in
theorem kept_arg15 (c : Dev nD) : after (ops (F := Ideal)) (launchContents m c) (Proc.devRef .tc main_arg15) = (m ((c.tc : Thread nD τ).loc main_arg15)) := by
  after_results_simp <;> rfl

set_option maxHeartbeats 2000000 in
theorem kept_arg16 (c : Dev nD) : after (ops (F := Ideal)) (launchContents m c) (Proc.devRef .tc main_arg16) = (m ((c.tc : Thread nD τ).loc main_arg16)) := by
  after_results_simp <;> rfl

end Cert.ReferenceIdeal.RefRun

end
-- ==== Proof.RefRunTop.lean ====
/-
  The reference runs: every weakly fair execution of its one line of host operations terminates, with the two results at
  the reference's last stages of the arguments and the arguments unchanged.
-/
import proofs.«105293_j58471684768170_2_alg».proof.Proof.RefRun
import proofs.«105293_j58471684768170_2_alg».proof.Proof.RefArgs

set_option maxRecDepth 16384

noncomputable section

namespace Cert.ReferenceIdeal.RefRun

open Cert.ReferenceIdeal Cert.ReferenceIdeal.Gen Cert.ReferenceIdeal.ValueP
open Idealize.ShloMosaic Idealize.ShloMosaic.TcCoe Idealize.SL.Sem Idealize.ShloMosaic.StableHlo

/-- From any memory with zero counters the reference's @main terminates, nothing faulting, each result buffer at its
    stage of the launch contents of the arguments, the arguments as launched. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v70) = (Cert.ReferenceIdeal.ReadP.val_main_v70 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)))
      ∧ r.2.mem ((c.tc : Thread nD τ).loc main_v85) = (Cert.ReferenceIdeal.ReadP.val_main_v85 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg13)) (m ((c.tc : Thread nD τ).loc main_arg14)) (m ((c.tc : Thread nD τ).loc main_arg15)) (m ((c.tc : Thread nD τ).loc main_arg16)))
      ∧ r.2.mem ((c.tc : Thread nD τ).loc main_arg0) = (m ((c.tc : Thread nD τ).loc main_arg0))
      ∧ r.2.mem ((c.tc : Thread nD τ).loc main_arg1) = (m ((c.tc : Thread nD τ).loc main_arg1))
      ∧ r.2.mem ((c.tc : Thread nD τ).loc main_arg2) = (m ((c.tc : Thread nD τ).loc main_arg2))
      ∧ r.2.mem ((c.tc : Thread nD τ).loc main_arg3) = (m ((c.tc : Thread nD τ).loc main_arg3))
      ∧ r.2.mem ((c.tc : Thread nD τ).loc main_arg4) = (m ((c.tc : Thread nD τ).loc main_arg4))
      ∧ r.2.mem ((c.tc : Thread nD τ).loc main_arg5) = (m ((c.tc : Thread nD τ).loc main_arg5))
      ∧ r.2.mem ((c.tc : Thread nD τ).loc main_arg6) = (m ((c.tc : Thread nD τ).loc main_arg6))
      ∧ r.2.mem ((c.tc : Thread nD τ).loc main_arg7) = (m ((c.tc : Thread nD τ).loc main_arg7))
      ∧ r.2.mem ((c.tc : Thread nD τ).loc main_arg8) = (m ((c.tc : Thread nD τ).loc main_arg8))
      ∧ r.2.mem ((c.tc : Thread nD τ).loc main_arg9) = (m ((c.tc : Thread nD τ).loc main_arg9))
      ∧ r.2.mem ((c.tc : Thread nD τ).loc main_arg10) = (m ((c.tc : Thread nD τ).loc main_arg10))
      ∧ r.2.mem ((c.tc : Thread nD τ).loc main_arg11) = (m ((c.tc : Thread nD τ).loc main_arg11))
      ∧ r.2.mem ((c.tc : Thread nD τ).loc main_arg12) = (m ((c.tc : Thread nD τ).loc main_arg12))
      ∧ r.2.mem ((c.tc : Thread nD τ).loc main_arg13) = (m ((c.tc : Thread nD τ).loc main_arg13))
      ∧ r.2.mem ((c.tc : Thread nD τ).loc main_arg14) = (m ((c.tc : Thread nD τ).loc main_arg14))
      ∧ r.2.mem ((c.tc : Thread nD τ).loc main_arg15) = (m ((c.tc : Thread nD τ).loc main_arg15))
      ∧ r.2.mem ((c.tc : Thread nD τ).loc main_arg16) = (m ((c.tc : Thread nD τ).loc main_arg16)) :=
  (θ_run defs _ _).mono (fun _ h c => ⟨(h c main_v70).trans (out0 m c), (h c main_v85).trans (out1 m c),
      (h c main_arg0).trans (kept_arg0 m c),
      (h c main_arg1).trans (kept_arg1 m c),
      (h c main_arg2).trans (kept_arg2 m c),
      (h c main_arg3).trans (kept_arg3 m c),
      (h c main_arg4).trans (kept_arg4 m c),
      (h c main_arg5).trans (kept_arg5 m c),
      (h c main_arg6).trans (kept_arg6 m c),
      (h c main_arg7).trans (kept_arg7 m c),
      (h c main_arg8).trans (kept_arg8 m c),
      (h c main_arg9).trans (kept_arg9 m c),
      (h c main_arg10).trans (kept_arg10 m c),
      (h c main_arg11).trans (kept_arg11 m c),
      (h c main_arg12).trans (kept_arg12 m c),
      (h c main_arg13).trans (kept_arg13 m c),
      (h c main_arg14).trans (kept_arg14 m c),
      (h c main_arg15).trans (kept_arg15 m c),
      (h c main_arg16).trans (kept_arg16 m c)⟩)
    (run_seq scopedRefs_eq scopedSems_eq defs main (fun _ => ops) main_eq (fun _ => ops_sub) m ρ)

end Cert.ReferenceIdeal.RefRun

end
-- ==== Proof.KernelRun.lean ====
/-
  The idealized kernel's run with every buffer named.

  The program is a chain of seven segments: three stretches of host operations, the per-edge region, one stretch
  (the two scatter-adds and the slices of the node weights), the per-node region, and the final addition. The
  contents of every buffer at each boundary are a fold through that chain (the generated `W0 … W7`): a host
  stretch applies its operations, a region replaces its arrays by what its write-backs leave. Here the launch over
  that chain is stated with the post "every unscoped buffer ends at the last fold", from which both results and all
  seventeen arguments are read.
-/
import proofs.«105293_j58471684768170_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with every unscoped buffer of every core
    at the contents the fold through the seven segments gives it. -/
theorem run_fold : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

end Cert.KernelIdeal.RunValue

end
-- ==== Proof.Fold.lean ====
import proofs.«105293_j58471684768170_2_alg».proof.Proof.Gen.KernelIdeal.Frame
import Idealize.ShloMosaic.Lib.StableHlo.Run
import Idealize.ShloMosaic.Lib.ValueIdx

set_option maxRecDepth 16384

noncomputable section

/-! # The buffers at the two regions' entries and at the return, in terms of the arguments

The host operations before the per-edge region cut the first weight matrix into its three blocks of rows (0–127,
128–255, 256) and turn each bias vector into a one-row matrix; between the regions they widen the messages, add them
and the coordinate updates up per receiving node (two scatter-adds at the receiver indices into zero arrays), cut the
node weight into its two blocks and reshape two biases; after the per-node region one addition makes the new
coordinates. An argument is written by nothing. -/

namespace Cert.KernelIdeal.Fold

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-! ## At the per-edge region's entry -/

theorem at3_arg0 (c : Dev nD) : W3 m ρ c (Proc.devRef .tc main_arg0) = (m ((c : Thread nD τ).loc main_arg0)) := by
  show StableHlo.after hostOps0_2 (StableHlo.after hostOps0_1 (StableHlo.after hostOps0 (W0 m ρ c))) (Proc.devRef .tc main_arg0) = _
  simp only [hostOps0, hostOps0_1, hostOps0_2]
  after_results
  all_goals rfl

theorem at3_arg1 (c : Dev nD) : W3 m ρ c (Proc.devRef .tc main_arg1) = (m ((c : Thread nD τ).loc main_arg1)) := by
  show StableHlo.after hostOps0_2 (StableHlo.after hostOps0_1 (StableHlo.after hostOps0 (W0 m ρ c))) (Proc.devRef .tc main_arg1) = _
  simp only [hostOps0, hostOps0_1, hostOps0_2]
  after_results
  all_goals rfl

theorem at3_arg2 (c : Dev nD) : W3 m ρ c (Proc.devRef .tc main_arg2) = (m ((c : Thread nD τ).loc main_arg2)) := by
  show StableHlo.after hostOps0_2 (StableHlo.after hostOps0_1 (StableHlo.after hostOps0 (W0 m ρ c))) (Proc.devRef .tc main_arg2) = _
  simp only [hostOps0, hostOps0_1, hostOps0_2]
  after_results
  all_goals rfl

theorem at3_arg5 (c : Dev nD) : W3 m ρ c (Proc.devRef .tc main_arg5) = (m ((c : Thread nD τ).loc main_arg5)) := by
  show StableHlo.after hostOps0_2 (StableHlo.after hostOps0_1 (StableHlo.after hostOps0 (W0 m ρ c))) (Proc.devRef .tc main_arg5) = _
  simp only [hostOps0, hostOps0_1, hostOps0_2]
  after_results
  all_goals rfl

theorem at3_arg7 (c : Dev nD) : W3 m ρ c (Proc.devRef .tc main_arg7) = (m ((c : Thread nD τ).loc main_arg7)) := by
  show StableHlo.after hostOps0_2 (StableHlo.after hostOps0_1 (StableHlo.after hostOps0 (W0 m ρ c))) (Proc.devRef .tc main_arg7) = _
  simp only [hostOps0, hostOps0_1, hostOps0_2]
  after_results
  all_goals rfl

theorem at3_arg9 (c : Dev nD) : W3 m ρ c (Proc.devRef .tc main_arg9) = (m ((c : Thread nD τ).loc main_arg9)) := by
  show StableHlo.after hostOps0_2 (StableHlo.after hostOps0_1 (StableHlo.after hostOps0 (W0 m ρ c))) (Proc.devRef .tc main_arg9) = _
  simp only [hostOps0, hostOps0_1, hostOps0_2]
  after_results
  all_goals rfl

theorem at3_arg10 (c : Dev nD) : W3 m ρ c (Proc.devRef .tc main_arg10) = (m ((c : Thread nD τ).loc main_arg10)) := by
  show StableHlo.after hostOps0_2 (StableHlo.after hostOps0_1 (StableHlo.after hostOps0 (W0 m ρ c))) (Proc.devRef .tc main_arg10) = _
  simp only [hostOps0, hostOps0_1, hostOps0_2]
  after_results
  all_goals rfl

theorem at3_arg11 (c : Dev nD) : W3 m ρ c (Proc.devRef .tc main_arg11) = (m ((c : Thread nD τ).loc main_arg11)) := by
  show StableHlo.after hostOps0_2 (StableHlo.after hostOps0_1 (StableHlo.after hostOps0 (W0 m ρ c))) (Proc.devRef .tc main_arg11) = _
  simp only [hostOps0, hostOps0_1, hostOps0_2]
  after_results
  all_goals rfl

theorem at3_arg12 (c : Dev nD) : W3 m ρ c (Proc.devRef .tc main_arg12) = (m ((c : Thread nD τ).loc main_arg12)) := by
  show StableHlo.after hostOps0_2 (StableHlo.after hostOps0_1 (StableHlo.after hostOps0 (W0 m ρ c))) (Proc.devRef .tc main_arg12) = _
  simp only [hostOps0, hostOps0_1, hostOps0_2]
  after_results
  all_goals rfl

theorem at3_arg13 (c : Dev nD) : W3 m ρ c (Proc.devRef .tc main_arg13) = (m ((c : Thread nD τ).loc main_arg13)) := by
  show StableHlo.after hostOps0_2 (StableHlo.after hostOps0_1 (StableHlo.after hostOps0 (W0 m ρ c))) (Proc.devRef .tc main_arg13) = _
  simp only [hostOps0, hostOps0_1, hostOps0_2]
  after_results
  all_goals rfl

theorem at3_arg15 (c : Dev nD) : W3 m ρ c (Proc.devRef .tc main_arg15) = (m ((c : Thread nD τ).loc main_arg15)) := by
  show StableHlo.after hostOps0_2 (StableHlo.after hostOps0_1 (StableHlo.after hostOps0 (W0 m ρ c))) (Proc.devRef .tc main_arg15) = _
  simp only [hostOps0, hostOps0_1, hostOps0_2]
  after_results
  all_goals rfl

theorem at3_v35 (c : Dev nD) : W3 m ρ c (Proc.devRef .tc main_v35) = extractStridedSlice S128x128 ![0, 0] (m ((c : Thread nD τ).loc main_arg3)) slices_S257x128_S128x128_0_0 := by
  show StableHlo.after hostOps0_2 (StableHlo.after hostOps0_1 (StableHlo.after hostOps0 (W0 m ρ c))) (Proc.devRef .tc main_v35) = _
  simp only [hostOps0, hostOps0_1, hostOps0_2]
  after_results
  all_goals rfl

theorem at3_v36 (c : Dev nD) : W3 m ρ c (Proc.devRef .tc main_v36) = extractStridedSlice S128x128 ![128, 0] (m ((c : Thread nD τ).loc main_arg3)) slices_S257x128_S128x128_128_0 := by
  show StableHlo.after hostOps0_2 (StableHlo.after hostOps0_1 (StableHlo.after hostOps0 (W0 m ρ c))) (Proc.devRef .tc main_v36) = _
  simp only [hostOps0, hostOps0_1, hostOps0_2]
  after_results
  all_goals rfl

theorem at3_v37 (c : Dev nD) : W3 m ρ c (Proc.devRef .tc main_v37) = extractStridedSlice S1x128 ![256, 0] (m ((c : Thread nD τ).loc main_arg3)) slices_S257x128_S1x128_256_0 := by
  show StableHlo.after hostOps0_2 (StableHlo.after hostOps0_1 (StableHlo.after hostOps0 (W0 m ρ c))) (Proc.devRef .tc main_v37) = _
  simp only [hostOps0, hostOps0_1, hostOps0_2]
  after_results
  all_goals rfl

theorem at3_v38 (c : Dev nD) : W3 m ρ c (Proc.devRef .tc main_v38) = shapeCast S1x128 (m ((c : Thread nD τ).loc main_arg4)) shapeCasts_S128_S1x128 := by
  show StableHlo.after hostOps0_2 (StableHlo.after hostOps0_1 (StableHlo.after hostOps0 (W0 m ρ c))) (Proc.devRef .tc main_v38) = _
  simp only [hostOps0, hostOps0_1, hostOps0_2]
  after_results
  all_goals rfl

theorem at3_v39 (c : Dev nD) : W3 m ρ c (Proc.devRef .tc main_v39) = shapeCast S1x128 (m ((c : Thread nD τ).loc main_arg6)) shapeCasts_S128_S1x128 := by
  show StableHlo.after hostOps0_2 (StableHlo.after hostOps0_1 (StableHlo.after hostOps0 (W0 m ρ c))) (Proc.devRef .tc main_v39) = _
  simp only [hostOps0, hostOps0_1, hostOps0_2]
  after_results
  all_goals rfl

theorem at3_v40 (c : Dev nD) : W3 m ρ c (Proc.devRef .tc main_v40) = shapeCast S1x1 (m ((c : Thread nD τ).loc main_arg8)) shapeCasts_S1_S1x1 := by
  show StableHlo.after hostOps0_2 (StableHlo.after hostOps0_1 (StableHlo.after hostOps0 (W0 m ρ c))) (Proc.devRef .tc main_v40) = _
  simp only [hostOps0, hostOps0_1, hostOps0_2]
  after_results
  all_goals rfl

theorem at3_v41 (c : Dev nD) : W3 m ρ c (Proc.devRef .tc main_v41) = shapeCast S1x128 (m ((c : Thread nD τ).loc main_arg14)) shapeCasts_S128_S1x128 := by
  show StableHlo.after hostOps0_2 (StableHlo.after hostOps0_1 (StableHlo.after hostOps0 (W0 m ρ c))) (Proc.devRef .tc main_v41) = _
  simp only [hostOps0, hostOps0_1, hostOps0_2]
  after_results
  all_goals rfl

theorem at3_v42 (c : Dev nD) : W3 m ρ c (Proc.devRef .tc main_v42) = shapeCast S1x1 (m ((c : Thread nD τ).loc main_arg16)) shapeCasts_S1_S1x1 := by
  show StableHlo.after hostOps0_2 (StableHlo.after hostOps0_1 (StableHlo.after hostOps0 (W0 m ρ c))) (Proc.devRef .tc main_v42) = _
  simp only [hostOps0, hostOps0_1, hostOps0_2]
  after_results
  all_goals rfl

/-! ## Between the regions, and the return -/

/-- The per-edge region leaves every buffer that is not one of its arrays as it found it. -/
theorem at4_of_ne (c : Dev nD) (b : Ref sig .tc) (hb : ∀ w, Pipeline.arrRef spec0 w ≠ b) :
    W4 m ρ c (Proc.devRef .tc b) = W3 m ρ c (Proc.devRef .tc b) := W4_of_ne m ρ c b hb

theorem at4_v3 (c : Dev nD) : W4 m ρ c (Proc.devRef .tc main_v3) = W3 m ρ c (Proc.devRef .tc main_v3) :=
  W4_of_ne m ρ c main_v3 (by decide)

/-- The per-edge region's first output array holds what its write-backs leave. -/
theorem at4_msg (c : Dev nD) : W4 m ρ c (Proc.devRef .tc main_v43_0) = (dat0 (V3 m ρ) c).arrAt 16 cfg0.N :=
  W4_arr m ρ c 16

/-- So does its second. -/
theorem at4_coord (c : Dev nD) : W4 m ρ c (Proc.devRef .tc main_v43_1) = (dat0 (V3 m ρ) c).arrAt 17 cfg0.N :=
  W4_arr m ρ c 17

/-- The aggregated messages: the widened gated messages added up per receiver. -/
theorem at5_v47_raw (c : Dev nD) : (W5 m ρ c (Proc.devRef .tc main_v47) : FVec Ideal S50000x128 .f32)
    = Host.scatterAdd (F := Ideal) scatter_S50000x128_S600000x1_S600000x128_1_0_0_1
        (broadcastInDim S50000x128 ![] bcast_S_S50000x128 (constant (F := Ideal) S_ .f32 0x00000000#32))
        (broadcastInDim S600000x1 ![0] bcast_S600000_S600000x1_0 (W4 m ρ c (Proc.devRef .tc main_v3)))
        (extf (F := Ideal) .f32 ((W4 m ρ c (Proc.devRef .tc main_v43_0)) : FVec Ideal S600000x128 .bf16) bitsLt_bf16_f32) := by
  show StableHlo.after hostOps1 (W4 m ρ c) (Proc.devRef .tc main_v47) = _
  simp only [hostOps1]
  after_results
  all_goals rfl

theorem at5_v47 (c : Dev nD) : (W5 m ρ c (Proc.devRef .tc main_v47) : FVec Ideal S50000x128 .f32)
    = Host.scatterAdd (F := Ideal) scatter_S50000x128_S600000x1_S600000x128_1_0_0_1
        (broadcastInDim S50000x128 ![] bcast_S_S50000x128 (constant (F := Ideal) S_ .f32 0x00000000#32))
        (broadcastInDim S600000x1 ![0] bcast_S600000_S600000x1_0 (W3 m ρ c (Proc.devRef .tc main_v3)))
        (extf (F := Ideal) .f32 ((dat0 (V3 m ρ) c).arrAt 16 cfg0.N : FVec Ideal S600000x128 .bf16) bitsLt_bf16_f32) :=
  (at5_v47_raw m ρ c).trans (by rw [at4_v3, at4_msg])

/-- The aggregated coordinate updates. -/
theorem at5_v50_raw (c : Dev nD) : (W5 m ρ c (Proc.devRef .tc main_v50) : FVec Ideal S50000x3 .f32)
    = Host.scatterAdd (F := Ideal) scatter_S50000x3_S600000x1_S600000x3_1_0_0_1
        (broadcastInDim S50000x3 ![] bcast_S_S50000x3 (constant (F := Ideal) S_ .f32 0x00000000#32))
        (broadcastInDim S600000x1 ![0] bcast_S600000_S600000x1_0 (W4 m ρ c (Proc.devRef .tc main_v3)))
        ((W4 m ρ c (Proc.devRef .tc main_v43_1)) : FVec Ideal S600000x3 .f32) := by
  show StableHlo.after hostOps1 (W4 m ρ c) (Proc.devRef .tc main_v50) = _
  simp only [hostOps1]
  after_results
  all_goals rfl

theorem at5_v50 (c : Dev nD) : (W5 m ρ c (Proc.devRef .tc main_v50) : FVec Ideal S50000x3 .f32)
    = Host.scatterAdd (F := Ideal) scatter_S50000x3_S600000x1_S600000x3_1_0_0_1
        (broadcastInDim S50000x3 ![] bcast_S_S50000x3 (constant (F := Ideal) S_ .f32 0x00000000#32))
        (broadcastInDim S600000x1 ![0] bcast_S600000_S600000x1_0 (W3 m ρ c (Proc.devRef .tc main_v3)))
        ((dat0 (V3 m ρ) c).arrAt 17 cfg0.N : FVec Ideal S600000x3 .f32) :=
  (at5_v50_raw m ρ c).trans (by rw [at4_v3, at4_coord])

theorem at5_arg0 (c : Dev nD) : W5 m ρ c (Proc.devRef .tc main_arg0) = (m ((c : Thread nD τ).loc main_arg0)) := by
  show StableHlo.after hostOps1 (W4 m ρ c) (Proc.devRef .tc main_arg0) = _
  simp only [hostOps1]
  after_results
  rw [at4_of_ne m ρ c main_arg0 (by decide), at3_arg0]
  all_goals rfl

theorem at5_arg1 (c : Dev nD) : W5 m ρ c (Proc.devRef .tc main_arg1) = (m ((c : Thread nD τ).loc main_arg1)) := by
  show StableHlo.after hostOps1 (W4 m ρ c) (Proc.devRef .tc main_arg1) = _
  simp only [hostOps1]
  after_results
  rw [at4_of_ne m ρ c main_arg1 (by decide), at3_arg1]
  all_goals rfl

theorem at5_arg11 (c : Dev nD) : W5 m ρ c (Proc.devRef .tc main_arg11) = (m ((c : Thread nD τ).loc main_arg11)) := by
  show StableHlo.after hostOps1 (W4 m ρ c) (Proc.devRef .tc main_arg11) = _
  simp only [hostOps1]
  after_results
  rw [at4_of_ne m ρ c main_arg11 (by decide), at3_arg11]
  all_goals rfl

theorem at5_v51 (c : Dev nD) : W5 m ρ c (Proc.devRef .tc main_v51) = extractStridedSlice S128x128 ![0, 0] (m ((c : Thread nD τ).loc main_arg9)) slices_S256x128_S128x128_0_0 := by
  show StableHlo.after hostOps1 (W4 m ρ c) (Proc.devRef .tc main_v51) = _
  simp only [hostOps1]
  after_results
  rw [at4_of_ne m ρ c main_arg9 (by decide), at3_arg9]
  all_goals rfl

theorem at5_v52 (c : Dev nD) : W5 m ρ c (Proc.devRef .tc main_v52) = extractStridedSlice S128x128 ![128, 0] (m ((c : Thread nD τ).loc main_arg9)) slices_S256x128_S128x128_128_0 := by
  show StableHlo.after hostOps1 (W4 m ρ c) (Proc.devRef .tc main_v52) = _
  simp only [hostOps1]
  after_results
  rw [at4_of_ne m ρ c main_arg9 (by decide), at3_arg9]
  all_goals rfl

theorem at5_v53 (c : Dev nD) : W5 m ρ c (Proc.devRef .tc main_v53) = shapeCast S1x128 (m ((c : Thread nD τ).loc main_arg10)) shapeCasts_S128_S1x128 := by
  show StableHlo.after hostOps1 (W4 m ρ c) (Proc.devRef .tc main_v53) = _
  simp only [hostOps1]
  after_results
  rw [at4_of_ne m ρ c main_arg10 (by decide), at3_arg10]
  all_goals rfl

theorem at5_v54 (c : Dev nD) : W5 m ρ c (Proc.devRef .tc main_v54) = shapeCast S1x128 (m ((c : Thread nD τ).loc main_arg12)) shapeCasts_S128_S1x128 := by
  show StableHlo.after hostOps1 (W4 m ρ c) (Proc.devRef .tc main_v54) = _
  simp only [hostOps1]
  after_results
  rw [at4_of_ne m ρ c main_arg12 (by decide), at3_arg12]
  all_goals rfl

/-- The first result is what the per-node region's write-backs leave. -/
theorem result0_raw (c : Dev nD) : W7 m ρ c (Proc.devRef .tc main_v55) = W6 m ρ c (Proc.devRef .tc main_v55) := by
  show StableHlo.after hostOps2 (W6 m ρ c) (Proc.devRef .tc main_v55) = _
  simp only [hostOps2]
  after_results
  all_goals rfl

theorem result0 (c : Dev nD) : W7 m ρ c (Proc.devRef .tc main_v55) = (dat1 (V5 m ρ) c).arrAt 7 cfg1.N :=
  (result0_raw m ρ c).trans (W6_arr m ρ c 7)

theorem at6_arg1 (c : Dev nD) : W6 m ρ c (Proc.devRef .tc main_arg1) = (m ((c : Thread nD τ).loc main_arg1)) :=
  (W6_of_ne m ρ c main_arg1 (by decide)).trans (at5_arg1 m ρ c)

theorem at6_v50 (c : Dev nD) : (W6 m ρ c (Proc.devRef .tc main_v50) : FVec Ideal S50000x3 .f32)
    = Host.scatterAdd (F := Ideal) scatter_S50000x3_S600000x1_S600000x3_1_0_0_1
        (broadcastInDim S50000x3 ![] bcast_S_S50000x3 (constant (F := Ideal) S_ .f32 0x00000000#32))
        (broadcastInDim S600000x1 ![0] bcast_S600000_S600000x1_0 (W3 m ρ c (Proc.devRef .tc main_v3)))
        ((dat0 (V3 m ρ) c).arrAt 17 cfg0.N : FVec Ideal S600000x3 .f32) :=
  (W6_of_ne m ρ c main_v50 (by decide)).trans (at5_v50 m ρ c)

/-- The second result: the coordinates plus the aggregated coordinate updates. -/
theorem result1_raw (c : Dev nD) : (W7 m ρ c (Proc.devRef .tc main_v56) : FVec Ideal S50000x3 .f32)
    = addf (F := Ideal) (s := S50000x3) (φ := .f32) (W6 m ρ c (Proc.devRef .tc main_arg1)) (W6 m ρ c (Proc.devRef .tc main_v50)) := by
  show StableHlo.after hostOps2 (W6 m ρ c) (Proc.devRef .tc main_v56) = _
  simp only [hostOps2]
  after_results
  all_goals rfl

theorem result1 (c : Dev nD) : (W7 m ρ c (Proc.devRef .tc main_v56) : FVec Ideal S50000x3 .f32)
    = addf (F := Ideal) (s := S50000x3) (φ := .f32) (m ((c : Thread nD τ).loc main_arg1)) (Host.scatterAdd (F := Ideal) scatter_S50000x3_S600000x1_S600000x3_1_0_0_1
        (broadcastInDim S50000x3 ![] bcast_S_S50000x3 (constant (F := Ideal) S_ .f32 0x00000000#32))
        (broadcastInDim S600000x1 ![0] bcast_S600000_S600000x1_0 (W3 m ρ c (Proc.devRef .tc main_v3)))
        ((dat0 (V3 m ρ) c).arrAt 17 cfg0.N : FVec Ideal S600000x3 .f32)) :=
  (result1_raw m ρ c).trans (by rw [at6_arg1, at6_v50])

end Cert.KernelIdeal.Fold

end
-- ==== Proof.Fold2.lean ====
/-
  The gathered arrays at the per-edge region's entry are the reference's own stages.

  Both programs compute the receiver indices, the two gathers of the node features, the coordinate differences and
  their norms by the same host operations of the same arguments; the kernel's program narrows the features before
  gathering them, which changes nothing on the extended reals. So these five buffers hold, operation for operation,
  the values the reference's stages name. The host operations before the region come in three stretches (up to the
  coordinate differences; the norm; the feature gathers and the weights): each buffer is read through the stretch
  that writes it, over the contents the stretch starts from.
-/
import proofs.«105293_j58471684768170_2_alg».proof.Proof.Fold
import proofs.«105293_j58471684768170_2_alg».proof.Proof.ReadP
import proofs.«105293_j58471684768170_2_alg».proof.Proof.LibTypedRef

set_option maxRecDepth 16384

noncomputable section

namespace Cert.KernelIdeal.Fold

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- An operand's contents read at the value's type are any value equal to them: the two types are one. -/
theorem ofBuf_eq {T : BufTy} (x : TRef sig T) (w : x.ref.ty.Contents (Elt Ideal)) (v : T.Contents (Elt Ideal)) (h : HEq w v) :
    x.ofBuf w = v := by
  obtain ⟨r, rfl, h2, h3⟩ := x
  exact eq_of_heq h

/-! ## After the first stretch -/

theorem at1_arg0 (c : Dev nD) : W1 m ρ c (Proc.devRef .tc main_arg0) = (m ((c : Thread nD τ).loc main_arg0)) := by
  show StableHlo.after hostOps0 (W0 m ρ c) (Proc.devRef .tc main_arg0) = _
  simp only [hostOps0]
  after_results
  all_goals rfl

/-- The receiver indices. -/
theorem at1_col (c : Dev nD) : W1 m ρ c (Proc.devRef .tc main_v3) = Cert.ReferenceIdeal.ReadP.val_main_v3 (F := Ideal) (m ((c : Thread nD τ).loc main_arg2)) := by
  show StableHlo.after hostOps0 (W0 m ρ c) (Proc.devRef .tc main_v3) = _
  simp only [hostOps0]
  after_results
  all_goals rfl

/-- The sender indices. -/
theorem at1_row (c : Dev nD) : W1 m ρ c (Proc.devRef .tc main_v1) = Cert.ReferenceIdeal.ReadP.val_main_v1 (F := Ideal) (m ((c : Thread nD τ).loc main_arg2)) := by
  show StableHlo.after hostOps0 (W0 m ρ c) (Proc.devRef .tc main_v1) = _
  simp only [hostOps0]
  after_results
  all_goals rfl

set_option maxHeartbeats 1000000 in
/-- The coordinate differences. -/
theorem at1_cdiff (c : Dev nD) : W1 m ρ c (Proc.devRef .tc main_v18) = Cert.ReferenceIdeal.ReadP.val_main_v18 (F := Ideal) (m ((c : Thread nD τ).loc main_arg1)) (m ((c : Thread nD τ).loc main_arg2)) := by
  show StableHlo.after hostOps0 (W0 m ρ c) (Proc.devRef .tc main_v18) = _
  simp only [hostOps0]
  generalize hR : Cert.ReferenceIdeal.ReadP.val_main_v18 (F := Ideal) (m ((c : Thread nD τ).loc main_arg1)) (m ((c : Thread nD τ).loc main_arg2)) = rhs
  after_results
  subst hR
  rfl

/-! ## After the norm -/

theorem lift21_cdiff (c : Dev nD) : W2 m ρ c (Proc.devRef .tc main_v18) = W1 m ρ c (Proc.devRef .tc main_v18) := by
  show StableHlo.after hostOps0_1 (W1 m ρ c) (Proc.devRef .tc main_v18) = _
  generalize W1 m ρ c = Wo
  simp only [hostOps0_1]
  after_results
  all_goals rfl

theorem lift21_col (c : Dev nD) : W2 m ρ c (Proc.devRef .tc main_v3) = W1 m ρ c (Proc.devRef .tc main_v3) := by
  show StableHlo.after hostOps0_1 (W1 m ρ c) (Proc.devRef .tc main_v3) = _
  generalize W1 m ρ c = Wo
  simp only [hostOps0_1]
  after_results
  all_goals rfl

theorem lift21_row (c : Dev nD) : W2 m ρ c (Proc.devRef .tc main_v1) = W1 m ρ c (Proc.devRef .tc main_v1) := by
  show StableHlo.after hostOps0_1 (W1 m ρ c) (Proc.devRef .tc main_v1) = _
  generalize W1 m ρ c = Wo
  simp only [hostOps0_1]
  after_results
  all_goals rfl

theorem lift21_arg0 (c : Dev nD) : W2 m ρ c (Proc.devRef .tc main_arg0) = W1 m ρ c (Proc.devRef .tc main_arg0) := by
  show StableHlo.after hostOps0_1 (W1 m ρ c) (Proc.devRef .tc main_arg0) = _
  generalize W1 m ρ c = Wo
  simp only [hostOps0_1]
  after_results
  all_goals rfl

/-- The distances: the norm of the coordinate differences. The norm is an outlined function, its operations spelt
    over typed references: the moves between a value's type and its buffer's are the identity. -/
theorem at2_dist (c : Dev nD) : W2 m ρ c (Proc.devRef .tc main_v19) = Cert.ReferenceIdeal.ReadP.val_main_v19 (F := Ideal) (m ((c : Thread nD τ).loc main_arg1)) (m ((c : Thread nD τ).loc main_arg2)) := by
  have h := at1_cdiff m ρ c
  show StableHlo.after hostOps0_1 (W1 m ρ c) (Proc.devRef .tc main_v19) = _
  generalize hR : Cert.ReferenceIdeal.ReadP.val_main_v19 (F := Ideal) (m ((c : Thread nD τ).loc main_arg1)) (m ((c : Thread nD τ).loc main_arg2)) = rhs
  generalize W1 m ρ c = Wo at h ⊢
  simp only [hostOps0_1]
  after_results
  simp only [Idealize.ShloMosaic.TypedRef.ofBuf_toBuf]
  refine Idealize.ShloMosaic.TypedRef.toBuf_eq _ _ _ (heq_of_eq ?_)
  rw [ofBuf_eq _ _ _ (heq_of_eq h)]
  subst hR
  rfl

/-! ## At the region's entry -/

theorem lift32_dist (c : Dev nD) : W3 m ρ c (Proc.devRef .tc main_v19) = W2 m ρ c (Proc.devRef .tc main_v19) := by
  show StableHlo.after hostOps0_2 (W2 m ρ c) (Proc.devRef .tc main_v19) = _
  generalize W2 m ρ c = Wo
  simp only [hostOps0_2]
  after_results
  all_goals rfl

theorem lift32_cdiff (c : Dev nD) : W3 m ρ c (Proc.devRef .tc main_v18) = W2 m ρ c (Proc.devRef .tc main_v18) := by
  show StableHlo.after hostOps0_2 (W2 m ρ c) (Proc.devRef .tc main_v18) = _
  generalize W2 m ρ c = Wo
  simp only [hostOps0_2]
  after_results
  all_goals rfl

theorem lift32_col (c : Dev nD) : W3 m ρ c (Proc.devRef .tc main_v3) = W2 m ρ c (Proc.devRef .tc main_v3) := by
  show StableHlo.after hostOps0_2 (W2 m ρ c) (Proc.devRef .tc main_v3) = _
  generalize W2 m ρ c = Wo
  simp only [hostOps0_2]
  after_results
  all_goals rfl

theorem at3_col (c : Dev nD) : W3 m ρ c (Proc.devRef .tc main_v3) = Cert.ReferenceIdeal.ReadP.val_main_v3 (F := Ideal) (m ((c : Thread nD τ).loc main_arg2)) :=
  (lift32_col m ρ c).trans ((lift21_col m ρ c).trans (at1_col m ρ c))

theorem at3_dist (c : Dev nD) : W3 m ρ c (Proc.devRef .tc main_v19) = Cert.ReferenceIdeal.ReadP.val_main_v19 (F := Ideal) (m ((c : Thread nD τ).loc main_arg1)) (m ((c : Thread nD τ).loc main_arg2)) :=
  (lift32_dist m ρ c).trans (at2_dist m ρ c)

theorem at3_cdiff (c : Dev nD) : W3 m ρ c (Proc.devRef .tc main_v18) = Cert.ReferenceIdeal.ReadP.val_main_v18 (F := Ideal) (m ((c : Thread nD τ).loc main_arg1)) (m ((c : Thread nD τ).loc main_arg2)) :=
  (lift32_cdiff m ρ c).trans ((lift21_cdiff m ρ c).trans (at1_cdiff m ρ c))

set_option maxHeartbeats 1000000 in
/-- The receivers' features, gathered narrow. -/
theorem at3_hi (c : Dev nD) : W3 m ρ c (Proc.devRef .tc main_v34) = Cert.ReferenceIdeal.ReadP.val_main_v33 (F := Ideal) (m ((c : Thread nD τ).loc main_arg0)) (m ((c : Thread nD τ).loc main_arg2)) := by
  have h0 := (lift21_arg0 m ρ c).trans (at1_arg0 m ρ c)
  have h3 := (lift21_col m ρ c).trans (at1_col m ρ c)
  show StableHlo.after hostOps0_2 (W2 m ρ c) (Proc.devRef .tc main_v34) = _
  generalize hR : Cert.ReferenceIdeal.ReadP.val_main_v33 (F := Ideal) (m ((c : Thread nD τ).loc main_arg0)) (m ((c : Thread nD τ).loc main_arg2)) = rhs
  generalize W2 m ρ c = Wo at h0 h3 ⊢
  simp only [hostOps0_2]
  after_results
  rw [h0, h3]
  subst hR
  rfl

set_option maxHeartbeats 1000000 in
/-- The senders' features, gathered narrow. -/
theorem at3_hj (c : Dev nD) : W3 m ρ c (Proc.devRef .tc main_v27) = Cert.ReferenceIdeal.ReadP.val_main_v26 (F := Ideal) (m ((c : Thread nD τ).loc main_arg0)) (m ((c : Thread nD τ).loc main_arg2)) := by
  have h0 := (lift21_arg0 m ρ c).trans (at1_arg0 m ρ c)
  have h1 := (lift21_row m ρ c).trans (at1_row m ρ c)
  show StableHlo.after hostOps0_2 (W2 m ρ c) (Proc.devRef .tc main_v27) = _
  generalize hR : Cert.ReferenceIdeal.ReadP.val_main_v26 (F := Ideal) (m ((c : Thread nD τ).loc main_arg0)) (m ((c : Thread nD τ).loc main_arg2)) = rhs
  generalize W2 m ρ c = Wo at h0 h1 ⊢
  simp only [hostOps0_2]
  after_results
  rw [h0, h1]
  subst hR
  rfl

end Cert.KernelIdeal.Fold

end
-- ==== Proof.Blocks.lean ====
/-
  Where a block sits in its array.

  The per-edge region walks its 600000 edges in 150 blocks of 4000 rows: at grid point t the blocks of the six
  edge-indexed windows (the two gathered feature arrays, the distances, the coordinate differences, and the two
  outputs) are rows 4000·t … 4000·t + 3999 of their arrays, all columns; the twelve weight windows are their whole
  arrays at every point. The per-node region walks its 50000 nodes in 10 blocks of 5000 rows in the same way.
  So entry (p, k) of a moving block is entry (R·t + p, k) of its array, and a resident block is its array.
-/
import proofs.«105293_j58471684768170_2_alg».proof.Proof.Gen.KernelIdeal.Frame
import Idealize.ShloMosaic.Lib.ValueIdx

set_option maxRecDepth 16384

noncomputable section

namespace Cert.KernelIdeal.Blocks

open Cert.KernelIdeal Cert.KernelIdeal.Gen
open Idealize.ShloMosaic Idealize.ShloMosaic.TcCoe Idealize.ShloMosaic.ValueIdx Idealize.SL.Sem

variable (V : (c : Dev nD) → (b : Ref sig .tc) → Buf (Elt Ideal) ((c : Thread nD τ).loc b))

/-! ## The per-edge region -/

theorem lt0 (t : Fin cfg0.N) : t.val < 150 := by
  have hN : cfg0.N = 150 := N_0
  have := t.isLt
  omega

/-- The printed index maps over the grid: an edge-indexed window is at block row `t`, block column 0. -/
theorem idx_mov0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_16.index t (0 : Fin 2) = t.val ∧ win0_16.index t (1 : Fin 2) = 0
    ∧ win0_17.index t (0 : Fin 2) = t.val ∧ win0_17.index t (1 : Fin 2) = 0 :=
  (by decide +kernel : ∀ t : Fin grid0.N, _)

/-- A weight window is at block (0, 0) at every point. -/
theorem idx_res0 : ∀ t : Fin cfg0.N, win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 2) = 0 ∧ win0_12.index t (1 : Fin 2) = 0
    ∧ win0_13.index t (0 : Fin 2) = 0 ∧ win0_13.index t (1 : Fin 2) = 0
    ∧ win0_14.index t (0 : Fin 2) = 0 ∧ win0_14.index t (1 : Fin 2) = 0
    ∧ win0_15.index t (0 : Fin 2) = 0 ∧ win0_15.index t (1 : Fin 2) = 0 :=
  (by decide +kernel : ∀ t : Fin grid0.N, _)

/-- Entry (p, k) of window 0's block at point `t` is entry (4000·t + p, k) of its array. -/
theorem emb0_0 (t : Fin cfg0.N) (p : Fin 4000) (k : Fin 128) :
    ((cfg0.win 0).blk t).view.emb (ix2 p k) = ix2 (⟨t.val * 4000 + p.val, by have := lt0 t; have := p.isLt; omega⟩ : Fin 600000) k := by
  obtain ⟨a0, b0, a1, b1, a2, b2, a3, b3, a16, b16, a17, b17⟩ := idx_mov0 t
  funext a; apply Fin.ext
  match a with
  | ⟨0, _⟩ => show win0_0.index t (0 : Fin 2) * 4000 + 1 * p.val = t.val * 4000 + p.val; omega
  | ⟨1, _⟩ => show win0_0.index t (1 : Fin 2) * 128 + 1 * k.val = k.val; omega

/-- Entry (p, k) of window 1's block at point `t` is entry (4000·t + p, k) of its array. -/
theorem emb0_1 (t : Fin cfg0.N) (p : Fin 4000) (k : Fin 128) :
    ((cfg0.win 1).blk t).view.emb (ix2 p k) = ix2 (⟨t.val * 4000 + p.val, by have := lt0 t; have := p.isLt; omega⟩ : Fin 600000) k := by
  obtain ⟨a0, b0, a1, b1, a2, b2, a3, b3, a16, b16, a17, b17⟩ := idx_mov0 t
  funext a; apply Fin.ext
  match a with
  | ⟨0, _⟩ => show win0_1.index t (0 : Fin 2) * 4000 + 1 * p.val = t.val * 4000 + p.val; omega
  | ⟨1, _⟩ => show win0_1.index t (1 : Fin 2) * 128 + 1 * k.val = k.val; omega

/-- Entry (p, k) of window 2's block at point `t` is entry (4000·t + p, k) of its array. -/
theorem emb0_2 (t : Fin cfg0.N) (p : Fin 4000) (k : Fin 1) :
    ((cfg0.win 2).blk t).view.emb (ix2 p k) = ix2 (⟨t.val * 4000 + p.val, by have := lt0 t; have := p.isLt; omega⟩ : Fin 600000) k := by
  obtain ⟨a0, b0, a1, b1, a2, b2, a3, b3, a16, b16, a17, b17⟩ := idx_mov0 t
  funext a; apply Fin.ext
  match a with
  | ⟨0, _⟩ => show win0_2.index t (0 : Fin 2) * 4000 + 1 * p.val = t.val * 4000 + p.val; omega
  | ⟨1, _⟩ => show win0_2.index t (1 : Fin 2) * 1 + 1 * k.val = k.val; omega

/-- Entry (p, k) of window 3's block at point `t` is entry (4000·t + p, k) of its array. -/
theorem emb0_3 (t : Fin cfg0.N) (p : Fin 4000) (k : Fin 3) :
    ((cfg0.win 3).blk t).view.emb (ix2 p k) = ix2 (⟨t.val * 4000 + p.val, by have := lt0 t; have := p.isLt; omega⟩ : Fin 600000) k := by
  obtain ⟨a0, b0, a1, b1, a2, b2, a3, b3, a16, b16, a17, b17⟩ := idx_mov0 t
  funext a; apply Fin.ext
  match a with
  | ⟨0, _⟩ => show win0_3.index t (0 : Fin 2) * 4000 + 1 * p.val = t.val * 4000 + p.val; omega
  | ⟨1, _⟩ => show win0_3.index t (1 : Fin 2) * 3 + 1 * k.val = k.val; omega

/-- Entry (p, k) of window 16's block at point `t` is entry (4000·t + p, k) of its array. -/
theorem emb0_16 (t : Fin cfg0.N) (p : Fin 4000) (k : Fin 128) :
    ((cfg0.win 16).blk t).view.emb (ix2 p k) = ix2 (⟨t.val * 4000 + p.val, by have := lt0 t; have := p.isLt; omega⟩ : Fin 600000) k := by
  obtain ⟨a0, b0, a1, b1, a2, b2, a3, b3, a16, b16, a17, b17⟩ := idx_mov0 t
  funext a; apply Fin.ext
  match a with
  | ⟨0, _⟩ => show win0_16.index t (0 : Fin 2) * 4000 + 1 * p.val = t.val * 4000 + p.val; omega
  | ⟨1, _⟩ => show win0_16.index t (1 : Fin 2) * 128 + 1 * k.val = k.val; omega

/-- Entry (p, k) of window 17's block at point `t` is entry (4000·t + p, k) of its array. -/
theorem emb0_17 (t : Fin cfg0.N) (p : Fin 4000) (k : Fin 3) :
    ((cfg0.win 17).blk t).view.emb (ix2 p k) = ix2 (⟨t.val * 4000 + p.val, by have := lt0 t; have := p.isLt; omega⟩ : Fin 600000) k := by
  obtain ⟨a0, b0, a1, b1, a2, b2, a3, b3, a16, b16, a17, b17⟩ := idx_mov0 t
  funext a; apply Fin.ext
  match a with
  | ⟨0, _⟩ => show win0_17.index t (0 : Fin 2) * 4000 + 1 * p.val = t.val * 4000 + p.val; omega
  | ⟨1, _⟩ => show win0_17.index t (1 : Fin 2) * 3 + 1 * k.val = k.val; omega

/-- Window 4's block is its whole array at every point. -/
theorem res0_4 (c : Dev nD) (t : Fin cfg0.N) : iblk0 V c 4 t = V c (Pipeline.arrRef spec0 4) := by
  obtain ⟨a4, b4, a5, b5, a6, b6, a7, b7, a8, b8, a9, b9, a10, b10, a11, b11, a12, b12, a13, b13, a14, b14, a15, b15⟩ := idx_res0 t
  funext y
  show V c (Pipeline.arrRef spec0 4) (((cfg0.win 4).blk t).view.emb y) = V c (Pipeline.arrRef spec0 4) y
  refine congrArg _ (funext fun a => Fin.ext ?_)
  match a with
  | ⟨0, _⟩ => show win0_4.index t (0 : Fin 2) * 128 + 1 * (y 0).val = (y 0).val; omega
  | ⟨1, _⟩ => show win0_4.index t (1 : Fin 2) * 128 + 1 * (y 1).val = (y 1).val; omega

/-- Window 5's block is its whole array at every point. -/
theorem res0_5 (c : Dev nD) (t : Fin cfg0.N) : iblk0 V c 5 t = V c (Pipeline.arrRef spec0 5) := by
  obtain ⟨a4, b4, a5, b5, a6, b6, a7, b7, a8, b8, a9, b9, a10, b10, a11, b11, a12, b12, a13, b13, a14, b14, a15, b15⟩ := idx_res0 t
  funext y
  show V c (Pipeline.arrRef spec0 5) (((cfg0.win 5).blk t).view.emb y) = V c (Pipeline.arrRef spec0 5) y
  refine congrArg _ (funext fun a => Fin.ext ?_)
  match a with
  | ⟨0, _⟩ => show win0_5.index t (0 : Fin 2) * 128 + 1 * (y 0).val = (y 0).val; omega
  | ⟨1, _⟩ => show win0_5.index t (1 : Fin 2) * 128 + 1 * (y 1).val = (y 1).val; omega

/-- Window 6's block is its whole array at every point. -/
theorem res0_6 (c : Dev nD) (t : Fin cfg0.N) : iblk0 V c 6 t = V c (Pipeline.arrRef spec0 6) := by
  obtain ⟨a4, b4, a5, b5, a6, b6, a7, b7, a8, b8, a9, b9, a10, b10, a11, b11, a12, b12, a13, b13, a14, b14, a15, b15⟩ := idx_res0 t
  funext y
  show V c (Pipeline.arrRef spec0 6) (((cfg0.win 6).blk t).view.emb y) = V c (Pipeline.arrRef spec0 6) y
  refine congrArg _ (funext fun a => Fin.ext ?_)
  match a with
  | ⟨0, _⟩ => show win0_6.index t (0 : Fin 2) * 1 + 1 * (y 0).val = (y 0).val; omega
  | ⟨1, _⟩ => show win0_6.index t (1 : Fin 2) * 128 + 1 * (y 1).val = (y 1).val; omega

/-- Window 7's block is its whole array at every point. -/
theorem res0_7 (c : Dev nD) (t : Fin cfg0.N) : iblk0 V c 7 t = V c (Pipeline.arrRef spec0 7) := by
  obtain ⟨a4, b4, a5, b5, a6, b6, a7, b7, a8, b8, a9, b9, a10, b10, a11, b11, a12, b12, a13, b13, a14, b14, a15, b15⟩ := idx_res0 t
  funext y
  show V c (Pipeline.arrRef spec0 7) (((cfg0.win 7).blk t).view.emb y) = V c (Pipeline.arrRef spec0 7) y
  refine congrArg _ (funext fun a => Fin.ext ?_)
  match a with
  | ⟨0, _⟩ => show win0_7.index t (0 : Fin 2) * 1 + 1 * (y 0).val = (y 0).val; omega
  | ⟨1, _⟩ => show win0_7.index t (1 : Fin 2) * 128 + 1 * (y 1).val = (y 1).val; omega

/-- Window 8's block is its whole array at every point. -/
theorem res0_8 (c : Dev nD) (t : Fin cfg0.N) : iblk0 V c 8 t = V c (Pipeline.arrRef spec0 8) := by
  obtain ⟨a4, b4, a5, b5, a6, b6, a7, b7, a8, b8, a9, b9, a10, b10, a11, b11, a12, b12, a13, b13, a14, b14, a15, b15⟩ := idx_res0 t
  funext y
  show V c (Pipeline.arrRef spec0 8) (((cfg0.win 8).blk t).view.emb y) = V c (Pipeline.arrRef spec0 8) y
  refine congrArg _ (funext fun a => Fin.ext ?_)
  match a with
  | ⟨0, _⟩ => show win0_8.index t (0 : Fin 2) * 128 + 1 * (y 0).val = (y 0).val; omega
  | ⟨1, _⟩ => show win0_8.index t (1 : Fin 2) * 128 + 1 * (y 1).val = (y 1).val; omega

/-- Window 9's block is its whole array at every point. -/
theorem res0_9 (c : Dev nD) (t : Fin cfg0.N) : iblk0 V c 9 t = V c (Pipeline.arrRef spec0 9) := by
  obtain ⟨a4, b4, a5, b5, a6, b6, a7, b7, a8, b8, a9, b9, a10, b10, a11, b11, a12, b12, a13, b13, a14, b14, a15, b15⟩ := idx_res0 t
  funext y
  show V c (Pipeline.arrRef spec0 9) (((cfg0.win 9).blk t).view.emb y) = V c (Pipeline.arrRef spec0 9) y
  refine congrArg _ (funext fun a => Fin.ext ?_)
  match a with
  | ⟨0, _⟩ => show win0_9.index t (0 : Fin 2) * 1 + 1 * (y 0).val = (y 0).val; omega
  | ⟨1, _⟩ => show win0_9.index t (1 : Fin 2) * 128 + 1 * (y 1).val = (y 1).val; omega

/-- Window 10's block is its whole array at every point. -/
theorem res0_10 (c : Dev nD) (t : Fin cfg0.N) : iblk0 V c 10 t = V c (Pipeline.arrRef spec0 10) := by
  obtain ⟨a4, b4, a5, b5, a6, b6, a7, b7, a8, b8, a9, b9, a10, b10, a11, b11, a12, b12, a13, b13, a14, b14, a15, b15⟩ := idx_res0 t
  funext y
  show V c (Pipeline.arrRef spec0 10) (((cfg0.win 10).blk t).view.emb y) = V c (Pipeline.arrRef spec0 10) y
  refine congrArg _ (funext fun a => Fin.ext ?_)
  match a with
  | ⟨0, _⟩ => show win0_10.index t (0 : Fin 2) * 128 + 1 * (y 0).val = (y 0).val; omega
  | ⟨1, _⟩ => show win0_10.index t (1 : Fin 2) * 1 + 1 * (y 1).val = (y 1).val; omega

/-- Window 11's block is its whole array at every point. -/
theorem res0_11 (c : Dev nD) (t : Fin cfg0.N) : iblk0 V c 11 t = V c (Pipeline.arrRef spec0 11) := by
  obtain ⟨a4, b4, a5, b5, a6, b6, a7, b7, a8, b8, a9, b9, a10, b10, a11, b11, a12, b12, a13, b13, a14, b14, a15, b15⟩ := idx_res0 t
  funext y
  show V c (Pipeline.arrRef spec0 11) (((cfg0.win 11).blk t).view.emb y) = V c (Pipeline.arrRef spec0 11) y
  refine congrArg _ (funext fun a => Fin.ext ?_)
  match a with
  | ⟨0, _⟩ => show win0_11.index t (0 : Fin 2) * 1 + 1 * (y 0).val = (y 0).val; omega
  | ⟨1, _⟩ => show win0_11.index t (1 : Fin 2) * 1 + 1 * (y 1).val = (y 1).val; omega

/-- Window 12's block is its whole array at every point. -/
theorem res0_12 (c : Dev nD) (t : Fin cfg0.N) : iblk0 V c 12 t = V c (Pipeline.arrRef spec0 12) := by
  obtain ⟨a4, b4, a5, b5, a6, b6, a7, b7, a8, b8, a9, b9, a10, b10, a11, b11, a12, b12, a13, b13, a14, b14, a15, b15⟩ := idx_res0 t
  funext y
  show V c (Pipeline.arrRef spec0 12) (((cfg0.win 12).blk t).view.emb y) = V c (Pipeline.arrRef spec0 12) y
  refine congrArg _ (funext fun a => Fin.ext ?_)
  match a with
  | ⟨0, _⟩ => show win0_12.index t (0 : Fin 2) * 128 + 1 * (y 0).val = (y 0).val; omega
  | ⟨1, _⟩ => show win0_12.index t (1 : Fin 2) * 128 + 1 * (y 1).val = (y 1).val; omega

/-- Window 13's block is its whole array at every point. -/
theorem res0_13 (c : Dev nD) (t : Fin cfg0.N) : iblk0 V c 13 t = V c (Pipeline.arrRef spec0 13) := by
  obtain ⟨a4, b4, a5, b5, a6, b6, a7, b7, a8, b8, a9, b9, a10, b10, a11, b11, a12, b12, a13, b13, a14, b14, a15, b15⟩ := idx_res0 t
  funext y
  show V c (Pipeline.arrRef spec0 13) (((cfg0.win 13).blk t).view.emb y) = V c (Pipeline.arrRef spec0 13) y
  refine congrArg _ (funext fun a => Fin.ext ?_)
  match a with
  | ⟨0, _⟩ => show win0_13.index t (0 : Fin 2) * 1 + 1 * (y 0).val = (y 0).val; omega
  | ⟨1, _⟩ => show win0_13.index t (1 : Fin 2) * 128 + 1 * (y 1).val = (y 1).val; omega

/-- Window 14's block is its whole array at every point. -/
theorem res0_14 (c : Dev nD) (t : Fin cfg0.N) : iblk0 V c 14 t = V c (Pipeline.arrRef spec0 14) := by
  obtain ⟨a4, b4, a5, b5, a6, b6, a7, b7, a8, b8, a9, b9, a10, b10, a11, b11, a12, b12, a13, b13, a14, b14, a15, b15⟩ := idx_res0 t
  funext y
  show V c (Pipeline.arrRef spec0 14) (((cfg0.win 14).blk t).view.emb y) = V c (Pipeline.arrRef spec0 14) y
  refine congrArg _ (funext fun a => Fin.ext ?_)
  match a with
  | ⟨0, _⟩ => show win0_14.index t (0 : Fin 2) * 128 + 1 * (y 0).val = (y 0).val; omega
  | ⟨1, _⟩ => show win0_14.index t (1 : Fin 2) * 1 + 1 * (y 1).val = (y 1).val; omega

/-- Window 15's block is its whole array at every point. -/
theorem res0_15 (c : Dev nD) (t : Fin cfg0.N) : iblk0 V c 15 t = V c (Pipeline.arrRef spec0 15) := by
  obtain ⟨a4, b4, a5, b5, a6, b6, a7, b7, a8, b8, a9, b9, a10, b10, a11, b11, a12, b12, a13, b13, a14, b14, a15, b15⟩ := idx_res0 t
  funext y
  show V c (Pipeline.arrRef spec0 15) (((cfg0.win 15).blk t).view.emb y) = V c (Pipeline.arrRef spec0 15) y
  refine congrArg _ (funext fun a => Fin.ext ?_)
  match a with
  | ⟨0, _⟩ => show win0_15.index t (0 : Fin 2) * 1 + 1 * (y 0).val = (y 0).val; omega
  | ⟨1, _⟩ => show win0_15.index t (1 : Fin 2) * 1 + 1 * (y 1).val = (y 1).val; omega

/-- Entry (p, k) of input window 0's block, read off its array. -/
theorem read0_0 (c : Dev nD) (t : Fin cfg0.N) (p : Fin 4000) (k : Fin 128) :
    iblk0 V c 0 t (ix2 p k) = V c (Pipeline.arrRef spec0 0) (ix2 (⟨t.val * 4000 + p.val, by have := lt0 t; have := p.isLt; omega⟩ : Fin 600000) k) := by
  show V c (Pipeline.arrRef spec0 0) (((cfg0.win 0).blk t).view.emb (ix2 p k)) = _
  rw [emb0_0]

/-- Entry (p, k) of input window 1's block, read off its array. -/
theorem read0_1 (c : Dev nD) (t : Fin cfg0.N) (p : Fin 4000) (k : Fin 128) :
    iblk0 V c 1 t (ix2 p k) = V c (Pipeline.arrRef spec0 1) (ix2 (⟨t.val * 4000 + p.val, by have := lt0 t; have := p.isLt; omega⟩ : Fin 600000) k) := by
  show V c (Pipeline.arrRef spec0 1) (((cfg0.win 1).blk t).view.emb (ix2 p k)) = _
  rw [emb0_1]

/-- Entry (p, k) of input window 2's block, read off its array. -/
theorem read0_2 (c : Dev nD) (t : Fin cfg0.N) (p : Fin 4000) (k : Fin 1) :
    iblk0 V c 2 t (ix2 p k) = V c (Pipeline.arrRef spec0 2) (ix2 (⟨t.val * 4000 + p.val, by have := lt0 t; have := p.isLt; omega⟩ : Fin 600000) k) := by
  show V c (Pipeline.arrRef spec0 2) (((cfg0.win 2).blk t).view.emb (ix2 p k)) = _
  rw [emb0_2]

/-- Entry (p, k) of input window 3's block, read off its array. -/
theorem read0_3 (c : Dev nD) (t : Fin cfg0.N) (p : Fin 4000) (k : Fin 3) :
    iblk0 V c 3 t (ix2 p k) = V c (Pipeline.arrRef spec0 3) (ix2 (⟨t.val * 4000 + p.val, by have := lt0 t; have := p.isLt; omega⟩ : Fin 600000) k) := by
  show V c (Pipeline.arrRef spec0 3) (((cfg0.win 3).blk t).view.emb (ix2 p k)) = _
  rw [emb0_3]

/-! ## The per-node region -/

theorem lt1 (t : Fin cfg1.N) : t.val < 10 := by
  have hN : cfg1.N = 10 := N_1
  have := t.isLt
  omega

theorem idx_mov1 : ∀ t : Fin cfg1.N, win1_0.index t (0 : Fin 2) = t.val ∧ win1_0.index t (1 : Fin 2) = 0
    ∧ win1_1.index t (0 : Fin 2) = t.val ∧ win1_1.index t (1 : Fin 2) = 0
    ∧ win1_7.index t (0 : Fin 2) = t.val ∧ win1_7.index t (1 : Fin 2) = 0 :=
  (by decide +kernel : ∀ t : Fin grid1.N, _)

theorem idx_res1 : ∀ t : Fin cfg1.N, win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0 :=
  (by decide +kernel : ∀ t : Fin grid1.N, _)

/-- Entry (p, k) of window 0's block at point `t` is entry (5000·t + p, k) of its array. -/
theorem emb1_0 (t : Fin cfg1.N) (p : Fin 5000) (k : Fin 128) :
    ((cfg1.win 0).blk t).view.emb (ix2 p k) = ix2 (⟨t.val * 5000 + p.val, by have := lt1 t; have := p.isLt; omega⟩ : Fin 50000) k := by
  obtain ⟨a0, b0, a1, b1, a7, b7⟩ := idx_mov1 t
  funext a; apply Fin.ext
  match a with
  | ⟨0, _⟩ => show win1_0.index t (0 : Fin 2) * 5000 + 1 * p.val = t.val * 5000 + p.val; omega
  | ⟨1, _⟩ => show win1_0.index t (1 : Fin 2) * 128 + 1 * k.val = k.val; omega

/-- Entry (p, k) of window 1's block at point `t` is entry (5000·t + p, k) of its array. -/
theorem emb1_1 (t : Fin cfg1.N) (p : Fin 5000) (k : Fin 128) :
    ((cfg1.win 1).blk t).view.emb (ix2 p k) = ix2 (⟨t.val * 5000 + p.val, by have := lt1 t; have := p.isLt; omega⟩ : Fin 50000) k := by
  obtain ⟨a0, b0, a1, b1, a7, b7⟩ := idx_mov1 t
  funext a; apply Fin.ext
  match a with
  | ⟨0, _⟩ => show win1_1.index t (0 : Fin 2) * 5000 + 1 * p.val = t.val * 5000 + p.val; omega
  | ⟨1, _⟩ => show win1_1.index t (1 : Fin 2) * 128 + 1 * k.val = k.val; omega

/-- Entry (p, k) of window 7's block at point `t` is entry (5000·t + p, k) of its array. -/
theorem emb1_7 (t : Fin cfg1.N) (p : Fin 5000) (k : Fin 128) :
    ((cfg1.win 7).blk t).view.emb (ix2 p k) = ix2 (⟨t.val * 5000 + p.val, by have := lt1 t; have := p.isLt; omega⟩ : Fin 50000) k := by
  obtain ⟨a0, b0, a1, b1, a7, b7⟩ := idx_mov1 t
  funext a; apply Fin.ext
  match a with
  | ⟨0, _⟩ => show win1_7.index t (0 : Fin 2) * 5000 + 1 * p.val = t.val * 5000 + p.val; omega
  | ⟨1, _⟩ => show win1_7.index t (1 : Fin 2) * 128 + 1 * k.val = k.val; omega

/-- Window 2's block is its whole array at every point. -/
theorem res1_2 (c : Dev nD) (t : Fin cfg1.N) : iblk1 V c 2 t = V c (Pipeline.arrRef spec1 2) := by
  obtain ⟨a2, b2, a3, b3, a4, b4, a5, b5, a6, b6⟩ := idx_res1 t
  funext y
  show V c (Pipeline.arrRef spec1 2) (((cfg1.win 2).blk t).view.emb y) = V c (Pipeline.arrRef spec1 2) y
  refine congrArg _ (funext fun a => Fin.ext ?_)
  match a with
  | ⟨0, _⟩ => show win1_2.index t (0 : Fin 2) * 128 + 1 * (y 0).val = (y 0).val; omega
  | ⟨1, _⟩ => show win1_2.index t (1 : Fin 2) * 128 + 1 * (y 1).val = (y 1).val; omega

/-- Window 3's block is its whole array at every point. -/
theorem res1_3 (c : Dev nD) (t : Fin cfg1.N) : iblk1 V c 3 t = V c (Pipeline.arrRef spec1 3) := by
  obtain ⟨a2, b2, a3, b3, a4, b4, a5, b5, a6, b6⟩ := idx_res1 t
  funext y
  show V c (Pipeline.arrRef spec1 3) (((cfg1.win 3).blk t).view.emb y) = V c (Pipeline.arrRef spec1 3) y
  refine congrArg _ (funext fun a => Fin.ext ?_)
  match a with
  | ⟨0, _⟩ => show win1_3.index t (0 : Fin 2) * 128 + 1 * (y 0).val = (y 0).val; omega
  | ⟨1, _⟩ => show win1_3.index t (1 : Fin 2) * 128 + 1 * (y 1).val = (y 1).val; omega

/-- Window 4's block is its whole array at every point. -/
theorem res1_4 (c : Dev nD) (t : Fin cfg1.N) : iblk1 V c 4 t = V c (Pipeline.arrRef spec1 4) := by
  obtain ⟨a2, b2, a3, b3, a4, b4, a5, b5, a6, b6⟩ := idx_res1 t
  funext y
  show V c (Pipeline.arrRef spec1 4) (((cfg1.win 4).blk t).view.emb y) = V c (Pipeline.arrRef spec1 4) y
  refine congrArg _ (funext fun a => Fin.ext ?_)
  match a with
  | ⟨0, _⟩ => show win1_4.index t (0 : Fin 2) * 1 + 1 * (y 0).val = (y 0).val; omega
  | ⟨1, _⟩ => show win1_4.index t (1 : Fin 2) * 128 + 1 * (y 1).val = (y 1).val; omega

/-- Window 5's block is its whole array at every point. -/
theorem res1_5 (c : Dev nD) (t : Fin cfg1.N) : iblk1 V c 5 t = V c (Pipeline.arrRef spec1 5) := by
  obtain ⟨a2, b2, a3, b3, a4, b4, a5, b5, a6, b6⟩ := idx_res1 t
  funext y
  show V c (Pipeline.arrRef spec1 5) (((cfg1.win 5).blk t).view.emb y) = V c (Pipeline.arrRef spec1 5) y
  refine congrArg _ (funext fun a => Fin.ext ?_)
  match a with
  | ⟨0, _⟩ => show win1_5.index t (0 : Fin 2) * 128 + 1 * (y 0).val = (y 0).val; omega
  | ⟨1, _⟩ => show win1_5.index t (1 : Fin 2) * 128 + 1 * (y 1).val = (y 1).val; omega

/-- Window 6's block is its whole array at every point. -/
theorem res1_6 (c : Dev nD) (t : Fin cfg1.N) : iblk1 V c 6 t = V c (Pipeline.arrRef spec1 6) := by
  obtain ⟨a2, b2, a3, b3, a4, b4, a5, b5, a6, b6⟩ := idx_res1 t
  funext y
  show V c (Pipeline.arrRef spec1 6) (((cfg1.win 6).blk t).view.emb y) = V c (Pipeline.arrRef spec1 6) y
  refine congrArg _ (funext fun a => Fin.ext ?_)
  match a with
  | ⟨0, _⟩ => show win1_6.index t (0 : Fin 2) * 1 + 1 * (y 0).val = (y 0).val; omega
  | ⟨1, _⟩ => show win1_6.index t (1 : Fin 2) * 128 + 1 * (y 1).val = (y 1).val; omega

/-- Entry (p, k) of input window 0's block, read off its array. -/
theorem read1_0 (c : Dev nD) (t : Fin cfg1.N) (p : Fin 5000) (k : Fin 128) :
    iblk1 V c 0 t (ix2 p k) = V c (Pipeline.arrRef spec1 0) (ix2 (⟨t.val * 5000 + p.val, by have := lt1 t; have := p.isLt; omega⟩ : Fin 50000) k) := by
  show V c (Pipeline.arrRef spec1 0) (((cfg1.win 0).blk t).view.emb (ix2 p k)) = _
  rw [emb1_0]

/-- Entry (p, k) of input window 1's block, read off its array. -/
theorem read1_1 (c : Dev nD) (t : Fin cfg1.N) (p : Fin 5000) (k : Fin 128) :
    iblk1 V c 1 t (ix2 p k) = V c (Pipeline.arrRef spec1 1) (ix2 (⟨t.val * 5000 + p.val, by have := lt1 t; have := p.isLt; omega⟩ : Fin 50000) k) := by
  show V c (Pipeline.arrRef spec1 1) (((cfg1.win 1).blk t).view.emb (ix2 p k)) = _
  rw [emb1_1]

end Cert.KernelIdeal.Blocks

end
-- ==== Proof.LibPlainDot.lean ====
/-
  A product of two matrices read at an entry, on the extended reals.

  For dimension numbers that contract the left operand's second axis with the right operand's first (an M×K matrix
  times a K×N matrix, no batch axis), the contraction index has a single coordinate, and entry (r, c) of the product
  is the sum over k : Fin K of left (r, k) · right (k, c). The two forms in which a printed program spells such a
  product — the host's `dot_general`, and a `tpu.matmul` into the zero accumulator — are both that sum: the host's has no
  accumulator, and the zero word added on the left changes nothing.

  The statements take any dimension record `D` together with a proof that it is the plain record; for a printed record
  that proof is `rfl`.
-/
import Idealize.ShloMosaic.PureOps.Ideal.Laws
import Idealize.ShloMosaic.Lib.ValueIdx

noncomputable section

namespace Idealize.ShloMosaic.PlainDot

open Idealize.ShloMosaic Idealize.ShloMosaic.ValueIdx

variable {M K N : Nat}

/-- The left operand is read on its row axis at the entry's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand is read on its column axis at the entry's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction of a plain product, re-indexed by the one contracted coordinate. -/
theorem sum_eq (D : DotDims ⟨2, ![M, K]⟩ ⟨2, ![K, N]⟩ ⟨2, ![M, N]⟩) (hD : D = DotDims.plain M K N)
    (l : (⟨2, ![M, K]⟩ : Shape).Idx → EReal) (r : (⟨2, ![K, N]⟩ : Shape).Idx → EReal) (j : (⟨2, ![M, N]⟩ : Shape).Idx) :
    ∑ q : D.contr.Idx, l (D.lhsIdx j q) * r (D.rhsIdx j q) = ∑ k : Fin K, l (ix2 (j 0) k) * r (ix2 k (j 1)) := by
  subst hD
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single rfl _ _).trans hk
      | ⟨1, _⟩ => exact rhs_col _ _)
  exact congrArg₂ (fun x y => l x * r y) el er

/-- The host's `dot_general` of a plain product at an entry. -/
theorem hostDot_apply {φ₁ φ₂ : FTy} (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (j : (⟨2, ![M, N]⟩ : Shape).Idx) :
    Host.dotGeneral D prec l r j = ∑ k : Fin K, l (ix2 (j 0) k) * r (ix2 k (j 1)) := by
  simp only [Host.dotGeneral]
  rw [Ideal.dotGeneral_apply]
  exact sum_eq D hD l r j

/-- A `tpu.matmul` of a plain product into the zero accumulator at an entry. -/
theorem matmul_zero_apply {φ₁ φ₂ : FTy} (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (j : (⟨2, ![M, N]⟩ : Shape).Idx) :
    matmul D prec l r (constant (F := Ideal) ⟨2, ![M, N]⟩ .f32 0x00000000#32) j
      = ∑ k : Fin K, l (ix2 (j 0) k) * r (ix2 k (j 1)) := by
  simp only [matmul]
  rw [Ideal.matmul_constant_zero_apply]
  exact sum_eq D hD l r j

end Idealize.ShloMosaic.PlainDot

end
-- ==== Proof.LibConcatPair.lean ====
/-
  A concatenation of two arrays read at an entry, by coordinates.

  Two arrays of rank 2 stacked along the rows (axis 0) or side by side along the columns (axis 1), and two arrays of
  rank 1 joined end to end: an entry of the result whose coordinate on the joined axis lies below the first piece's
  extent is the first piece's entry at the same coordinates; past it, the second piece's entry with the first
  extent subtracted on that axis. The statements name the entry by its coordinates, so that a value proof meets no
  case analysis on the axis; the result's extent on the joined axis is any `c` for which the shapes concatenate.
-/
import Idealize.ShloMosaic.Lib.Pipeline.Value
import Idealize.ShloMosaic.Lib.ValueIdx

noncomputable section

namespace Idealize.ShloMosaic.ConcatPair

open Idealize.ShloMosaic Idealize.ShloMosaic.ValueIdx

variable {α : Type} {a b c n : Nat}

/-- Stacked rows, an entry in the upper piece. -/
theorem rows_fst (x₁ : (⟨2, ![a, n]⟩ : Shape).Idx → α) (x₂ : (⟨2, ![b, n]⟩ : Shape).Idx → α)
    (h : Shape.Concatenates [(⟨2, ![a, n]⟩ : Shape), ⟨2, ![b, n]⟩] ⟨2, ![c, n]⟩ (0 : Fin 2))
    (r : Fin a) (q : Fin n) (hr : r.val < c) :
    concatenate ⟨2, ![c, n]⟩ (0 : Fin 2) [⟨⟨2, ![a, n]⟩, x₁⟩, ⟨⟨2, ![b, n]⟩, x₂⟩] h (ix2 ⟨r.val, hr⟩ q) = x₁ (ix2 r q) :=
  concatenate_pair_apply_left (t := ⟨2, ![c, n]⟩) (s₁ := ⟨2, ![a, n]⟩) (s₂ := ⟨2, ![b, n]⟩) (0 : Fin 2) x₁ x₂ h
    (ix2 ⟨r.val, hr⟩ q) rfl (ix2 r q) (fun d => match d with | ⟨0, _⟩ => rfl | ⟨1, _⟩ => rfl)

/-- Stacked rows, an entry in the lower piece. -/
theorem rows_snd (x₁ : (⟨2, ![a, n]⟩ : Shape).Idx → α) (x₂ : (⟨2, ![b, n]⟩ : Shape).Idx → α)
    (h : Shape.Concatenates [(⟨2, ![a, n]⟩ : Shape), ⟨2, ![b, n]⟩] ⟨2, ![c, n]⟩ (0 : Fin 2))
    (r : Fin b) (q : Fin n) (hr : a + r.val < c) :
    concatenate ⟨2, ![c, n]⟩ (0 : Fin 2) [⟨⟨2, ![a, n]⟩, x₁⟩, ⟨⟨2, ![b, n]⟩, x₂⟩] h (ix2 ⟨a + r.val, hr⟩ q) = x₂ (ix2 r q) :=
  concatenate_pair_apply_right (t := ⟨2, ![c, n]⟩) (s₁ := ⟨2, ![a, n]⟩) (s₂ := ⟨2, ![b, n]⟩) (0 : Fin 2) x₁ x₂ h
    (ix2 ⟨a + r.val, hr⟩ q) rfl rfl (ix2 r q)
    (fun d hd => match d, hd with | ⟨0, _⟩, hd => absurd rfl hd | ⟨1, _⟩, _ => rfl)
    (Nat.add_comm r.val a)

/-- Side by side, an entry in the left piece. -/
theorem cols_fst (x₁ : (⟨2, ![n, a]⟩ : Shape).Idx → α) (x₂ : (⟨2, ![n, b]⟩ : Shape).Idx → α)
    (h : Shape.Concatenates [(⟨2, ![n, a]⟩ : Shape), ⟨2, ![n, b]⟩] ⟨2, ![n, c]⟩ (1 : Fin 2))
    (r : Fin n) (q : Fin a) (hq : q.val < c) :
    concatenate ⟨2, ![n, c]⟩ (1 : Fin 2) [⟨⟨2, ![n, a]⟩, x₁⟩, ⟨⟨2, ![n, b]⟩, x₂⟩] h (ix2 r ⟨q.val, hq⟩) = x₁ (ix2 r q) :=
  concatenate_pair_apply_left (t := ⟨2, ![n, c]⟩) (s₁ := ⟨2, ![n, a]⟩) (s₂ := ⟨2, ![n, b]⟩) (1 : Fin 2) x₁ x₂ h
    (ix2 r ⟨q.val, hq⟩) rfl (ix2 r q) (fun d => match d with | ⟨0, _⟩ => rfl | ⟨1, _⟩ => rfl)

/-- Side by side, an entry in the right piece. -/
theorem cols_snd (x₁ : (⟨2, ![n, a]⟩ : Shape).Idx → α) (x₂ : (⟨2, ![n, b]⟩ : Shape).Idx → α)
    (h : Shape.Concatenates [(⟨2, ![n, a]⟩ : Shape), ⟨2, ![n, b]⟩] ⟨2, ![n, c]⟩ (1 : Fin 2))
    (r : Fin n) (q : Fin b) (hq : a + q.val < c) :
    concatenate ⟨2, ![n, c]⟩ (1 : Fin 2) [⟨⟨2, ![n, a]⟩, x₁⟩, ⟨⟨2, ![n, b]⟩, x₂⟩] h (ix2 r ⟨a + q.val, hq⟩) = x₂ (ix2 r q) :=
  concatenate_pair_apply_right (t := ⟨2, ![n, c]⟩) (s₁ := ⟨2, ![n, a]⟩) (s₂ := ⟨2, ![n, b]⟩) (1 : Fin 2) x₁ x₂ h
    (ix2 r ⟨a + q.val, hq⟩) rfl rfl (ix2 r q)
    (fun d hd => match d, hd with | ⟨0, _⟩, _ => rfl | ⟨1, _⟩, hd => absurd rfl hd)
    (Nat.add_comm q.val a)

/-- End to end, an entry in the first piece. -/
theorem vec_fst (x₁ : (⟨1, ![a]⟩ : Shape).Idx → α) (x₂ : (⟨1, ![b]⟩ : Shape).Idx → α)
    (h : Shape.Concatenates [(⟨1, ![a]⟩ : Shape), ⟨1, ![b]⟩] ⟨1, ![c]⟩ (0 : Fin 1))
    (q : Fin a) (hq : q.val < c) :
    concatenate ⟨1, ![c]⟩ (0 : Fin 1) [⟨⟨1, ![a]⟩, x₁⟩, ⟨⟨1, ![b]⟩, x₂⟩] h (ix1 ⟨q.val, hq⟩) = x₁ (ix1 q) :=
  concatenate_pair_apply_left (t := ⟨1, ![c]⟩) (s₁ := ⟨1, ![a]⟩) (s₂ := ⟨1, ![b]⟩) (0 : Fin 1) x₁ x₂ h
    (ix1 ⟨q.val, hq⟩) rfl (ix1 q) (fun d => match d with | ⟨0, _⟩ => rfl)

/-- End to end, an entry in the second piece. -/
theorem vec_snd (x₁ : (⟨1, ![a]⟩ : Shape).Idx → α) (x₂ : (⟨1, ![b]⟩ : Shape).Idx → α)
    (h : Shape.Concatenates [(⟨1, ![a]⟩ : Shape), ⟨1, ![b]⟩] ⟨1, ![c]⟩ (0 : Fin 1))
    (q : Fin b) (hq : a + q.val < c) :
    concatenate ⟨1, ![c]⟩ (0 : Fin 1) [⟨⟨1, ![a]⟩, x₁⟩, ⟨⟨1, ![b]⟩, x₂⟩] h (ix1 ⟨a + q.val, hq⟩) = x₂ (ix1 q) :=
  concatenate_pair_apply_right (t := ⟨1, ![c]⟩) (s₁ := ⟨1, ![a]⟩) (s₂ := ⟨1, ![b]⟩) (0 : Fin 1) x₁ x₂ h
    (ix1 ⟨a + q.val, hq⟩) rfl rfl (ix1 q)
    (fun d hd => match d, hd with | ⟨0, _⟩, hd => absurd rfl hd)
    (Nat.add_comm q.val a)

end Idealize.ShloMosaic.ConcatPair

end
-- ==== Proof.LibDense.lean ====
/-
  GENERAL LEMMAS: an affine layer of a multi-layer perceptron, read one output at a time on the extended reals.

  Row `p` of a product of an M×K matrix with a K×N matrix, plus a bias row, depends on row `p` of the left matrix only:
  output `c` is `∑ k, x k · w k c + b c` (`lin`). The positive part (`relu`) and the joining of two rows end to end
  (`cat`) are pointwise in the row as well. The lemmas below read the two spellings of such a layer at an entry
  `(p, c)`: the vector program's (a product into the zero accumulator, the bias a `[1, N]` row broadcast down the rows,
  the positive part against a splat zero) and the host's (a `dot_general`, the bias an `[N]` array broadcast twice,
  the positive part against a broadcast scalar zero). Changes of float format are the identity on the extended reals.
  Also here: two blocks joined side by side read at an entry (`concat_cols_apply`), an `[N]` row broadcast over the rows
  (`rowBias_apply`) and an `[A]` column broadcast over the columns (`colBcast_apply`), each a double `broadcast_in_dim`.
-/
import Idealize.ShloMosaic.PureOps.Ideal.Laws
import Idealize.ShloMosaic.Lib.ValueIdx
import Idealize.ShloMosaic.Lib.ValueLayout
import Idealize.ShloMosaic.Lib.Pipeline.Value
import proofs.«105293_j58471684768170_2_alg».proof.Proof.LibPlainDot
import proofs.«105293_j58471684768170_2_alg».proof.Proof.LibConcatPair

noncomputable section

open scoped BigOperators

namespace Idealize.ShloMosaic.Dense

open Idealize.ShloMosaic Idealize.ShloMosaic.ValueIdx

/-- One output of an affine map: the row `x` against column `c` of `w`, plus the bias at `c`. -/
def lin {K N : Nat} (x : Fin K → EReal) (w : Fin K → Fin N → EReal) (b : Fin N → EReal) (c : Fin N) : EReal :=
  (∑ k : Fin K, x k * w k c) + b c

/-- The positive part, against the zero word (the same word on both sides: never evaluated). -/
def relu (v : EReal) : EReal := max v (Ideal.ofBits .f32 0x00000000#32)

/-- Two rows of lengths `a` and `b` joined end to end. -/
def cat {a b c : Nat} (hc : c = a + b) (u : Fin a → EReal) (v : Fin b → EReal) (j : Fin c) : EReal :=
  if h : j.val < a then u ⟨j.val, h⟩ else v ⟨j.val - a, by have := j.isLt; omega⟩

variable {M K N : Nat}

/-- Two blocks side by side, read at `(r, j)`: row `r` of the first joined with row `r` of the second. -/
theorem concat_cols_apply {n a b c : Nat} (hc : c = a + b) (x₁ : (⟨2, ![n, a]⟩ : Shape).Idx → EReal) (x₂ : (⟨2, ![n, b]⟩ : Shape).Idx → EReal)
    (h : Shape.Concatenates [(⟨2, ![n, a]⟩ : Shape), ⟨2, ![n, b]⟩] ⟨2, ![n, c]⟩ (1 : Fin 2)) (r : Fin n) (j : Fin c) :
    concatenate ⟨2, ![n, c]⟩ (1 : Fin 2) [⟨⟨2, ![n, a]⟩, x₁⟩, ⟨⟨2, ![n, b]⟩, x₂⟩] h (ix2 r j)
      = cat hc (fun q => x₁ (ix2 r q)) (fun q => x₂ (ix2 r q)) j := by
  unfold cat
  split
  · rename_i hlt
    exact ConcatPair.cols_fst x₁ x₂ h r ⟨j.val, hlt⟩ j.isLt
  · rename_i hge
    have hj := j.isLt
    have hlt : a + (j.val - a) < c := by omega
    have e : j = ⟨a + (j.val - a), hlt⟩ := Fin.ext (by show j.val = a + (j.val - a); omega)
    refine (congrArg (fun q => concatenate ⟨2, ![n, c]⟩ (1 : Fin 2) [⟨⟨2, ![n, a]⟩, x₁⟩, ⟨⟨2, ![n, b]⟩, x₂⟩] h (ix2 r q)) e).trans ?_
    exact ConcatPair.cols_snd x₁ x₂ h r ⟨j.val - a, by omega⟩ hlt

/-! ## The vector program's spelling -/

/-- A product into the zero accumulator plus a `[1, N]` bias row broadcast down the rows. -/
theorem matmul_bias_apply {φ₁ φ₂ : FTy} (D : DotDims ⟨2, ![M, K]⟩ ⟨2, ![K, N]⟩ ⟨2, ![M, N]⟩) (hD : D = DotDims.plain M K N)
    (l : FVec Ideal ⟨2, ![M, K]⟩ φ₁) (r : FVec Ideal ⟨2, ![K, N]⟩ φ₂) (b : FVec Ideal ⟨2, ![1, N]⟩ .f32)
    (hb : (⟨2, ![1, N]⟩ : Shape).Broadcasts ⟨2, ![M, N]⟩) (p : Fin M) (c : Fin N) :
    addf (matmul D none l r (constant (F := Ideal) ⟨2, ![M, N]⟩ .f32 0x00000000#32)) (broadcastTo ⟨2, ![M, N]⟩ b hb) (ix2 p c)
      = lin (fun k => l (ix2 p k)) (fun k n => r (ix2 k n)) (fun n => b (ix2 (0 : Fin 1) n)) c := by
  rw [addf_apply, PlainDot.matmul_zero_apply D hD none l r (ix2 p c), broadcastTo_1b_ab_apply b hb p c]
  rfl

/-- The same followed by the positive part against a splat zero. -/
theorem matmul_bias_relu_apply {φ₁ φ₂ : FTy} (D : DotDims ⟨2, ![M, K]⟩ ⟨2, ![K, N]⟩ ⟨2, ![M, N]⟩) (hD : D = DotDims.plain M K N)
    (l : FVec Ideal ⟨2, ![M, K]⟩ φ₁) (r : FVec Ideal ⟨2, ![K, N]⟩ φ₂) (b : FVec Ideal ⟨2, ![1, N]⟩ .f32)
    (hb : (⟨2, ![1, N]⟩ : Shape).Broadcasts ⟨2, ![M, N]⟩) (p : Fin M) (c : Fin N) :
    maximumf (addf (matmul D none l r (constant (F := Ideal) ⟨2, ![M, N]⟩ .f32 0x00000000#32)) (broadcastTo ⟨2, ![M, N]⟩ b hb))
        (broadcast ⟨2, ![M, N]⟩ (Scalar.ofBits (F := Ideal) .f32 0x00000000#32)) (ix2 p c)
      = relu (lin (fun k => l (ix2 p k)) (fun k n => r (ix2 k n)) (fun n => b (ix2 (0 : Fin 1) n)) c) := by
  rw [maximumf_apply, matmul_bias_apply D hD l r b hb p c]
  rfl

/-! ## The host's spelling -/

/-- An `[N]` bias broadcast to a `[1, N]` row and then down `M` rows reads, at `(p, c)`, the bias at `c`. -/
theorem rowBias_apply {α : Type} (b : (⟨1, ![N]⟩ : Shape).Idx → α)
    (h1 : (⟨1, ![N]⟩ : Shape).BroadcastsInDim ⟨2, ![1, N]⟩ ![1]) (h2 : (⟨2, ![1, N]⟩ : Shape).BroadcastsInDim ⟨2, ![M, N]⟩ ![0, 1])
    (p : Fin M) (c : Fin N) :
    broadcastInDim ⟨2, ![M, N]⟩ ![0, 1] h2 (broadcastInDim ⟨2, ![1, N]⟩ ![1] h1 b) (ix2 p c) = b (ix1 c) := by
  refine (broadcastInDim_apply _ h2 _ (ix2 p c) (ix2 (0 : Fin 1) c) fun a => ?_).trans
    (broadcastInDim_apply _ h1 b (ix2 (0 : Fin 1) c) (ix1 c) fun a => ?_)
  · match a with
    | ⟨0, _⟩ => show 0 = if (1 : Nat) = 1 then 0 else p.val; rw [if_pos rfl]
    | ⟨1, _⟩ =>
      show c.val = if N = 1 then 0 else c.val
      split
      · have := c.isLt; omega
      · rfl
  · match a with
    | ⟨0, _⟩ =>
      show c.val = if N = 1 then 0 else c.val
      split
      · have := c.isLt; omega
      · rfl

/-- A column `[A]` broadcast to `[A, 1]` and then over `B` columns reads, at `(e, q)`, the column at `e`. -/
theorem colBcast_apply {α : Type} {A B : Nat} (w : (⟨1, ![A]⟩ : Shape).Idx → α)
    (h1 : (⟨1, ![A]⟩ : Shape).BroadcastsInDim ⟨2, ![A, 1]⟩ ![0]) (h2 : (⟨2, ![A, 1]⟩ : Shape).BroadcastsInDim ⟨2, ![A, B]⟩ ![0, 1])
    (e : Fin A) (q : Fin B) :
    broadcastInDim ⟨2, ![A, B]⟩ ![0, 1] h2 (broadcastInDim ⟨2, ![A, 1]⟩ ![0] h1 w) (ix2 e q) = w (ix1 e) := by
  refine (broadcastInDim_apply _ h2 _ (ix2 e q) (ix2 e (0 : Fin 1)) fun a => ?_).trans
    (broadcastInDim_apply _ h1 w (ix2 e (0 : Fin 1)) (ix1 e) fun a => ?_)
  · match a with
    | ⟨0, _⟩ =>
      show e.val = if A = 1 then 0 else e.val
      split
      · have := e.isLt; omega
      · rfl
    | ⟨1, _⟩ => show 0 = if (1 : Nat) = 1 then 0 else q.val; rw [if_pos rfl]
  · match a with
    | ⟨0, _⟩ =>
      show e.val = if A = 1 then 0 else e.val
      split
      · have := e.isLt; omega
      · rfl

/-- A `dot_general` plus an `[N]` bias broadcast over the rows. -/
theorem hostDot_bias_apply {φ₁ φ₂ : FTy} (D : DotDims ⟨2, ![M, K]⟩ ⟨2, ![K, N]⟩ ⟨2, ![M, N]⟩) (hD : D = DotDims.plain M K N)
    (l : FVec Ideal ⟨2, ![M, K]⟩ φ₁) (r : FVec Ideal ⟨2, ![K, N]⟩ φ₂) (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![M, N]⟩ ![0, 1])
    (p : Fin M) (c : Fin N) :
    addf (Host.dotGeneral D none l r) (broadcastInDim ⟨2, ![M, N]⟩ ![0, 1] h2 (broadcastInDim ⟨2, ![1, N]⟩ ![1] h1 b)) (ix2 p c)
      = lin (fun k => l (ix2 p k)) (fun k n => r (ix2 k n)) (fun n => b (ix1 n)) c := by
  rw [addf_apply, PlainDot.hostDot_apply D hD none l r (ix2 p c), rowBias_apply b h1 h2 p c]
  rfl

/-- The same followed by the positive part against a broadcast scalar zero. -/
theorem hostDot_bias_relu_apply {φ₁ φ₂ : FTy} (D : DotDims ⟨2, ![M, K]⟩ ⟨2, ![K, N]⟩ ⟨2, ![M, N]⟩) (hD : D = DotDims.plain M K N)
    (l : FVec Ideal ⟨2, ![M, K]⟩ φ₁) (r : FVec Ideal ⟨2, ![K, N]⟩ φ₂) (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![M, N]⟩ ![0, 1])
    (h0 : (⟨0, ![]⟩ : Shape).BroadcastsInDim ⟨2, ![M, N]⟩ ![]) (p : Fin M) (c : Fin N) :
    maximumf (addf (Host.dotGeneral D none l r) (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32)) (ix2 p c)
      = relu (lin (fun k => l (ix2 p k)) (fun k n => r (ix2 k n)) (fun n => b (ix1 n)) c) := by
  rw [maximumf_apply, hostDot_bias_apply D hD l r b h1 h2 p c,
    broadcastInDim_apply _ h0 _ (ix2 p c) ix0 (fun a => a.elim0)]
  rfl

end Idealize.ShloMosaic.Dense

end
-- ==== Proof.Spec.lean ====
/-
  One layer of an equivariant graph network, one row at a time, on the extended reals.

  An edge e = (row, col) sees the features of its two endpoints, `hi` (the receiver, col) and `hj` (the sender, row),
  and the distance `d` between their coordinates. Its message is
      m = silu (W2ᵀ · silu (pre) + b2),   pre = Wa ᵀ· hi + Wbᵀ · hj + Wcᵀ · d + b1,
  gated by g = σ (Wgᵀ · m + bg): the gated message is m · g. The weight of the coordinate update is
      w = Wc2ᵀ · silu (Wc1ᵀ · (m · g) + bc1) + bc2,
  and a node n with features h and aggregated messages a is updated to
      h + (W2ᵀ · silu (Waᵀ · h + Wbᵀ · a + b1) + b2).
  Here silu x = x · σ x and σ x = 1 / (1 + e⁻ˣ). Every function below is a function of ONE row (one edge, one node):
  that is what makes the tiling of the edges and of the nodes immaterial. The first layer is written with its weight
  matrix already cut into the blocks that meet `hi`, `hj` and `d`; `lin_cat3` and `lin_cat2` say that this is the
  product of the whole matrix with the three (two) rows joined end to end.
-/
import Idealize.ShloMosaic.PureOps.Ideal.Laws
import Idealize.ShloMosaic.Lib.ValueIdx
import proofs.«105293_j58471684768170_2_alg».proof.Proof.LibDense

noncomputable section

open scoped BigOperators

namespace Cert.Egnn

open Idealize.ShloMosaic Idealize.ShloMosaic.ValueIdx Idealize.ShloMosaic.Dense

/-- `x · σ(x)`. -/
def silu (v : EReal) : EReal := v * Ideal.logistic v

/-- The edge's first pre-activation: the three blocks of the first weight matrix against the receiver's features, the
    sender's features and the distance, plus the bias. -/
def edgePre (hi hj : Fin 128 → EReal) (d : Fin 1 → EReal) (wa wb : Fin 128 → Fin 128 → EReal)
    (wc : Fin 1 → Fin 128 → EReal) (b1 : Fin 128 → EReal) (c : Fin 128) : EReal :=
  (∑ k : Fin 128, hi k * wa k c) + (∑ k : Fin 128, hj k * wb k c) + (∑ k : Fin 1, d k * wc k c) + b1 c

/-- The message before its gate. -/
def msg0 (hi hj : Fin 128 → EReal) (d : Fin 1 → EReal) (wa wb : Fin 128 → Fin 128 → EReal)
    (wc : Fin 1 → Fin 128 → EReal) (b1 : Fin 128 → EReal) (w2 : Fin 128 → Fin 128 → EReal) (b2 : Fin 128 → EReal)
    (c : Fin 128) : EReal :=
  silu (lin (fun k => silu (edgePre hi hj d wa wb wc b1 k)) w2 b2 c)

/-- The gate of a message `m`. -/
def gate (m : Fin 128 → EReal) (wg : Fin 128 → Fin 1 → EReal) (bg : Fin 1 → EReal) : EReal :=
  Ideal.logistic (lin m wg bg 0)

/-- A message `m` times its gate. -/
def gated (m : Fin 128 → EReal) (wg : Fin 128 → Fin 1 → EReal) (bg : Fin 1 → EReal) (c : Fin 128) : EReal :=
  m c * gate m wg bg

/-- The weight of the coordinate update, from the gated message `mg`. -/
def coordW (mg : Fin 128 → EReal) (wc1 : Fin 128 → Fin 128 → EReal) (bc1 : Fin 128 → EReal)
    (wc2 : Fin 128 → Fin 1 → EReal) (bc2 : Fin 1 → EReal) : EReal :=
  lin (fun k => silu (lin mg wc1 bc1 k)) wc2 bc2 0

/-- The node's first pre-activation: two blocks of the weight against its features and its aggregated messages. -/
def nodePre (h a : Fin 128 → EReal) (wa wb : Fin 128 → Fin 128 → EReal) (b1 : Fin 128 → EReal) (c : Fin 128) : EReal :=
  (∑ k : Fin 128, h k * wa k c) + (∑ k : Fin 128, a k * wb k c) + b1 c

/-- The node's updated features. -/
def nodeOut (h a : Fin 128 → EReal) (wa wb : Fin 128 → Fin 128 → EReal) (b1 : Fin 128 → EReal)
    (w2 : Fin 128 → Fin 128 → EReal) (b2 : Fin 128 → EReal) (c : Fin 128) : EReal :=
  h c + lin (fun k => silu (nodePre h a wa wb b1 k)) w2 b2 c

/-! ## A product with a matrix whose rows are cut in blocks -/

/-- A sum over `a + b` terms is the sum of the first `a` plus the sum of the last `b`. -/
theorem sum_split {a b n : Nat} (hn : n = a + b) (f : Fin n → EReal) :
    ∑ k : Fin n, f k = (∑ k : Fin a, f ⟨k.val, by have := k.isLt; omega⟩) + ∑ k : Fin b, f ⟨a + k.val, by have := k.isLt; omega⟩ := by
  subst hn
  rw [Fin.sum_univ_add]
  rfl

/-- Two rows joined end to end against a matrix of `a + b` rows: the two blocks' products added. -/
theorem lin_cat2 {a b n N : Nat} (hn : n = a + b) (u : Fin a → EReal) (v : Fin b → EReal)
    (w : Fin n → Fin N → EReal) (c : Fin N) :
    ∑ k : Fin n, cat hn u v k * w k c
      = (∑ k : Fin a, u k * w ⟨k.val, by have := k.isLt; omega⟩ c) + ∑ k : Fin b, v k * w ⟨a + k.val, by have := k.isLt; omega⟩ c := by
  rw [sum_split hn]
  refine congrArg₂ (· + ·) (Finset.sum_congr rfl fun k _ => ?_) (Finset.sum_congr rfl fun k _ => ?_)
  · unfold cat
    rw [dif_pos (show (⟨k.val, _⟩ : Fin n).val < a from k.isLt)]
  · unfold cat
    rw [dif_neg (show ¬ (⟨a + k.val, _⟩ : Fin n).val < a from by show ¬ a + k.val < a; omega)]
    exact congrArg (fun i => v i * _) (Fin.ext (by show a + k.val - a = k.val; omega))

end Cert.Egnn

end
-- ==== Proof.Arrays.lean ====
/-
  The layer's three results as whole arrays.

  Row e of the gated-message array depends on row e of the two gathered feature arrays and of the distance column, and
  on the weights; row e of the coordinate updates on row e of the coordinate differences and of the gated messages;
  row n of the new node features on row n of the features and of the aggregated messages. Each is the row function
  of the specification applied row by row.
-/
import proofs.«105293_j58471684768170_2_alg».proof.Proof.Spec

noncomputable section

namespace Cert.Egnn

open Idealize.ShloMosaic Idealize.ShloMosaic.ValueIdx Idealize.ShloMosaic.Dense

/-- A rank-2 array of extended reals. -/
abbrev Arr (r c : Nat) : Type := (⟨2, ![r, c]⟩ : Shape).Idx → EReal

/-- The gated message of every edge. -/
def msgArr {E : Nat} (hi hj : Arr E 128) (d : Arr E 1) (wa wb : Arr 128 128) (wc b1 : Arr 1 128)
    (w2 : Arr 128 128) (b2 : Arr 1 128) (wg : Arr 128 1) (bg : Arr 1 1) : Arr E 128 := fun j =>
  gated (msg0 (fun k => hi (ix2 (j 0) k)) (fun k => hj (ix2 (j 0) k)) (fun k => d (ix2 (j 0) k))
      (fun k n => wa (ix2 k n)) (fun k n => wb (ix2 k n)) (fun k n => wc (ix2 k n)) (fun n => b1 (ix2 (0 : Fin 1) n))
      (fun k n => w2 (ix2 k n)) (fun n => b2 (ix2 (0 : Fin 1) n)))
    (fun k n => wg (ix2 k n)) (fun n => bg (ix2 (0 : Fin 1) n)) (j 1)

/-- The coordinate update of every edge: its coordinate difference times the weight its gated message gives. -/
def coordArr {E : Nat} (cd : Arr E 3) (mg : Arr E 128) (wc1 : Arr 128 128) (bc1 : Arr 1 128) (wc2 : Arr 128 1)
    (bc2 : Arr 1 1) : Arr E 3 := fun j =>
  cd j * coordW (fun c => mg (ix2 (j 0) c)) (fun a n => wc1 (ix2 a n)) (fun n => bc1 (ix2 (0 : Fin 1) n))
    (fun a n => wc2 (ix2 a n)) (fun n => bc2 (ix2 (0 : Fin 1) n))

/-- The updated features of every node. -/
def nodeArr {N : Nat} (h a : Arr N 128) (wa wb : Arr 128 128) (b1 : Arr 1 128) (w2 : Arr 128 128) (b2 : Arr 1 128) :
    Arr N 128 := fun j =>
  nodeOut (fun k => h (ix2 (j 0) k)) (fun k => a (ix2 (j 0) k)) (fun k n => wa (ix2 k n)) (fun k n => wb (ix2 k n))
    (fun n => b1 (ix2 (0 : Fin 1) n)) (fun k n => w2 (ix2 k n)) (fun n => b2 (ix2 (0 : Fin 1) n)) (j 1)

end Cert.Egnn

end
-- ==== Proof.LibKeepdims.lean ====
/-
  GENERAL LEMMAS: a rank-2 array summed along its second axis with the sum kept as a column — what
  `sum(x, axis=-1, keepdims=True)` becomes in a vector program — read at an index given by coordinates.
  • `multiReduction_add_axis1_apply`: the lane sum of an `[a, b]` array from the zero word, at `i`, is the sum of row `i`;
  • `shapeCast_a_a1_apply`: an `[a]` array cast to the column `[a, 1]` reads, at `(i, u)`, the operand at `i`;
  • `broadcastTo_a1_ab_apply`: a column `[a, 1]` broadcast to `[a, b]` reads, at `(p, c)`, the column at `(p, 0)`.
  (The column transposed to a row is the library's `transpose_ix2_apply`; a row broadcast down the rows its
  `broadcastTo_1b_ab_apply`.)
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Idealize.ShloMosaic.ValueIdx

open Idealize.ShloMosaic

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The lane sum of an `[a, b]` array of extended reals, accumulated from the zero word: at `i` it is the sum of row `i`. -/
theorem multiReduction_add_axis1_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (i : Fin a) :
    multiReduction .add [1] ⟨1, ![a]⟩ src 0x00000000#32 h hφ hacc (ix1 i) = ∑ k : Fin b, src (ix2 i k) := by
  refine (Ideal.multiReduction_add_single src 0x00000000#32 h hφ hacc (ix1 i)).trans ?_
  refine Finset.sum_congr rfl fun k _ => congrArg src ?_
  funext c
  match c with
  | ⟨0, _⟩ => exact Fin.ext rfl
  | ⟨1, _⟩ => exact Fin.ext rfl

end Idealize.ShloMosaic.ValueIdx

end
-- ==== Proof.PayEdge.lean ====
/-
  The edge region's computed values read at an entry.

  Each value the edge region stores is, at row `p`, a function of row `p` of its operands only: the message before its
  gate (`msg0`), the gated message (`gated`), and the coordinate difference times the weight of the gated message
  (`coordW`). A product into the zero accumulator is the sum over the contracted coordinate; a `[1, N]` bias row
  broadcast down the rows reads the bias at the column; a `[M, 1]` column broadcast over the columns reads the column at
  the row; a cast to the same shape and a change of float format are the identity on the extended reals.
-/
import proofs.«105293_j58471684768170_2_alg».proof.Proof.Gen.KernelIdeal.Skeleton
import proofs.«105293_j58471684768170_2_alg».proof.Proof.Spec
import proofs.«105293_j58471684768170_2_alg».proof.Proof.LibDense
import proofs.«105293_j58471684768170_2_alg».proof.Proof.LibKeepdims
import Idealize.ShloMosaic.Lib.ValueLayout
import Idealize.ShloMosaic.Lib.Pipeline.Value

noncomputable section

open scoped BigOperators

namespace Cert.KernelIdeal.Pay

open Cert.KernelIdeal Cert.KernelIdeal.Gen Cert.Egnn Idealize.ShloMosaic Idealize.ShloMosaic.ValueIdx Idealize.ShloMosaic.Dense

/-- `x · σ(x)` lane by lane is `silu` of the lane. -/
private theorem silu_vec_apply {s : Shape} (v : FVec Ideal s .f32) (i : s.Idx) : mulf v (logistic v) i = silu (v i) := rfl

/-- The edge's first layer at `(p, k)`: the three products added, plus the bias row. -/
theorem edge_l1 (x0 x1 : FVec Ideal S4000x128 .bf16) (x2 : FVec Ideal S4000x1 .f32) (x4 x5 : FVec Ideal S128x128 .f32)
    (x6 x7 : FVec Ideal S1x128 .f32) (p : Fin 4000) (k : Fin 128) :
    addf (addf (addf (matmul dot_S4000x128_S128x128_S4000x128_1_0_0_1_n_n none x0 (truncf .bf16 x4 bitsLt_bf16_f32) (constant (F := Ideal) S4000x128 .f32 0x00000000#32))
          (matmul dot_S4000x128_S128x128_S4000x128_1_0_0_1_n_n none x1 (truncf .bf16 x5 bitsLt_bf16_f32) (constant (F := Ideal) S4000x128 .f32 0x00000000#32)))
        (matmul dot_S4000x1_S1x128_S4000x128_1_0_0_1_n_n none (truncf .bf16 x2 bitsLt_bf16_f32) (truncf .bf16 x6 bitsLt_bf16_f32) (constant (F := Ideal) S4000x128 .f32 0x00000000#32)))
      (broadcastTo S4000x128 x7 broadcasts_S1x128_S4000x128) (ix2 p k)
      = edgePre (fun c => x0 (ix2 p c)) (fun c => x1 (ix2 p c)) (fun c => x2 (ix2 p c)) (fun a n => x4 (ix2 a n))
          (fun a n => x5 (ix2 a n)) (fun a n => x6 (ix2 a n)) (fun n => x7 (ix2 (0 : Fin 1) n)) k := by
  rw [addf_apply, addf_apply, addf_apply, PlainDot.matmul_zero_apply dot_S4000x128_S128x128_S4000x128_1_0_0_1_n_n rfl none _ _ (ix2 p k),
    PlainDot.matmul_zero_apply dot_S4000x128_S128x128_S4000x128_1_0_0_1_n_n rfl none _ _ (ix2 p k),
    PlainDot.matmul_zero_apply dot_S4000x1_S1x128_S4000x128_1_0_0_1_n_n rfl none _ _ (ix2 p k),
    broadcastTo_1b_ab_apply x7 _ p k]
  rfl

/-- The edge region's message before its gate, at `(p, q)`. -/
theorem pay1_apply (x0 x1 : Vec Ideal S4000x128 .bf16) (x2 : Vec Ideal S4000x1 .f32) (x4 x5 : Vec Ideal S128x128 .f32)
    (x6 x7 : Vec Ideal S1x128 .f32) (x8 : Vec Ideal S128x128 .f32) (x9 : Vec Ideal S1x128 .f32) (p : Fin 4000) (q : Fin 128) :
    k0_pay1 x0 x1 x2 x4 x5 x6 x7 x8 x9 (ix2 p q)
      = msg0 (fun k => x0 (ix2 p k)) (fun k => x1 (ix2 p k)) (fun k => x2 (ix2 p k)) (fun k n => x4 (ix2 k n))
          (fun k n => x5 (ix2 k n)) (fun k n => x6 (ix2 k n)) (fun n => x7 (ix2 (0 : Fin 1) n)) (fun k n => x8 (ix2 k n))
          (fun n => x9 (ix2 (0 : Fin 1) n)) q := by
  unfold k0_pay1
  simp only [shapeCast_self]
  rw [silu_vec_apply, matmul_bias_apply dot_S4000x128_S128x128_S4000x128_1_0_0_1_n_n rfl _ _ x9 _ p q]
  unfold msg0
  refine congrArg silu ?_
  refine congrArg (fun f => lin f (fun k n => x8 (ix2 k n)) (fun n => x9 (ix2 (0 : Fin 1) n)) q) (funext fun k => ?_)
  exact congrArg silu (edge_l1 x0 x1 x2 x4 x5 x6 x7 p k)

/-- The gated message at `(p, q)`. -/
theorem pay2_apply (v36 : FVec Ideal S4000x128 .f32) (v37 : Vec Ideal S128x1 .f32) (v41 : Vec Ideal S1x1 .f32)
    (p : Fin 4000) (q : Fin 128) :
    k0_pay2 v36 v37 v41 (ix2 p q)
      = gated (fun c => v36 (ix2 p c)) (fun k n => v37 (ix2 k n)) (fun n => v41 (ix2 (0 : Fin 1) n)) q := by
  unfold k0_pay2
  simp only [shapeCast_self]
  rw [mulf_apply, broadcastTo_a1_ab_apply _ _ p q]
  unfold gated gate
  refine congrArg (fun t => v36 (ix2 p q) * t) ?_
  exact congrArg Ideal.logistic (matmul_bias_apply dot_S4000x128_S128x1_S4000x1_1_0_0_1_n_n rfl _ _ v41 _ p (0 : Fin 1))

/-- The stored gated message (a change of float format, the identity on the extended reals) at `(p, q)`. -/
theorem pay3_apply (v36 : FVec Ideal S4000x128 .f32) (v37 : Vec Ideal S128x1 .f32) (v41 : Vec Ideal S1x1 .f32)
    (p : Fin 4000) (q : Fin 128) :
    k0_pay3 v36 v37 v41 (ix2 p q)
      = gated (fun c => v36 (ix2 p c)) (fun k n => v37 (ix2 k n)) (fun n => v41 (ix2 (0 : Fin 1) n)) q :=
  (show k0_pay3 v36 v37 v41 (ix2 p q) = k0_pay2 v36 v37 v41 (ix2 p q) from rfl).trans (pay2_apply v36 v37 v41 p q)

/-- The coordinate update's summand at `(p, k)`: the coordinate difference times the weight of the gated message. -/
theorem pay4_apply (v36 : FVec Ideal S4000x128 .f32) (v37 : Vec Ideal S128x1 .f32) (v41 : Vec Ideal S1x1 .f32)
    (v48 : Vec Ideal S128x128 .f32) (v52 : Vec Ideal S1x128 .f32) (v58 : Vec Ideal S128x1 .f32) (v62 : Vec Ideal S1x1 .f32)
    (v68 : Vec Ideal S4000x3 .f32) (p : Fin 4000) (k : Fin 3) :
    k0_pay4 v36 v37 v41 v48 v52 v58 v62 v68 (ix2 p k)
      = v68 (ix2 p k) * coordW (fun c => k0_pay2 v36 v37 v41 (ix2 p c)) (fun a n => v48 (ix2 a n))
          (fun n => v52 (ix2 (0 : Fin 1) n)) (fun a n => v58 (ix2 a n)) (fun n => v62 (ix2 (0 : Fin 1) n)) := by
  unfold k0_pay4
  simp only [shapeCast_self]
  rw [mulf_apply, broadcastTo_a1_ab_apply _ _ p k, matmul_bias_apply dot_S4000x128_S128x1_S4000x1_1_0_0_1_n_n rfl _ _ v62 _ p (0 : Fin 1)]
  unfold coordW
  refine congrArg (fun t => v68 (ix2 p k) * t) ?_
  refine congrArg (fun f => lin f (fun a n => v58 (ix2 a n)) (fun n => v62 (ix2 (0 : Fin 1) n)) (0 : Fin 1)) (funext fun c => ?_)
  exact congrArg silu (matmul_bias_apply dot_S4000x128_S128x128_S4000x128_1_0_0_1_n_n rfl _ _ v52 _ p c)

end Cert.KernelIdeal.Pay

end
-- ==== Proof.Region0.lean ====
/-
  The edge region: from blocks to the arrays.

  The region walks the 600000 edges in 150 blocks of 4000 rows. At every point the values written back are the gated
  messages and the coordinate updates of the block's rows; entry (p, k) of block t of an edge-indexed array is entry
  (4000·t + p, k) of the array, the weights are the same whole arrays at every point, and row r of an output array
  lies in the block of point r / 4000. So the two output arrays end holding the gated message and the coordinate
  update of every edge.
-/
import proofs.«105293_j58471684768170_2_alg».proof.Proof.Gen.KernelIdeal.Frame
import proofs.«105293_j58471684768170_2_alg».proof.Proof.Blocks
import proofs.«105293_j58471684768170_2_alg».proof.Proof.Arrays
import proofs.«105293_j58471684768170_2_alg».proof.Proof.PayEdge
import Idealize.ShloMosaic.Lib.Pipeline.Value
import Idealize.ShloMosaic.Lib.ValueIdx

set_option maxRecDepth 16384

noncomputable section

namespace Cert.KernelIdeal.Regions

open Cert.KernelIdeal Cert.KernelIdeal.Gen Cert.KernelIdeal.Blocks Cert.KernelIdeal.Pay Cert.Egnn
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The zero offset of a store or load that spans its whole buffer. -/
theorem edge_off_zero : (![0, 0] : Fin 2 → Nat) = fun _ => 0 := funext fun a => by fin_cases a <;> rfl

/-- The gated message of every edge, from the arrays the region finds. -/
abbrev msgResult (c : Dev nD) : Arr 600000 128 :=
  msgArr (V c (Pipeline.arrRef spec0 0)) (V c (Pipeline.arrRef spec0 1)) (V c (Pipeline.arrRef spec0 2)) (V c (Pipeline.arrRef spec0 4)) (V c (Pipeline.arrRef spec0 5)) (V c (Pipeline.arrRef spec0 6)) (V c (Pipeline.arrRef spec0 7)) (V c (Pipeline.arrRef spec0 8)) (V c (Pipeline.arrRef spec0 9)) (V c (Pipeline.arrRef spec0 10)) (V c (Pipeline.arrRef spec0 11))

/-- The coordinate update of every edge, from the arrays the region finds. -/
abbrev coordResult (c : Dev nD) : Arr 600000 3 :=
  coordArr (V c (Pipeline.arrRef spec0 3)) (msgResult V c) (V c (Pipeline.arrRef spec0 12)) (V c (Pipeline.arrRef spec0 13)) (V c (Pipeline.arrRef spec0 14)) (V c (Pipeline.arrRef spec0 15))

/-- What the body leaves in the message window's buffer is its one stored value. -/
theorem out0_16_eq (x0 x1 : Vec Ideal S4000x128 .bf16) (x2 : Vec Ideal S4000x1 .f32) (x3 : Vec Ideal S4000x3 .f32)
    (x4 x5 : Vec Ideal S128x128 .f32) (x6 x7 : Vec Ideal S1x128 .f32) (x8 : Vec Ideal S128x128 .f32) (x9 : Vec Ideal S1x128 .f32)
    (x10 : Vec Ideal S128x1 .f32) (x11 : Vec Ideal S1x1 .f32) (x12 : Vec Ideal S128x128 .f32) (x13 : Vec Ideal S1x128 .f32)
    (x14 : Vec Ideal S128x1 .f32) (x15 : Vec Ideal S1x1 .f32) :
    out0_16 x0 x1 x2 x3 x4 x5 x6 x7 x8 x9 x10 x11 x12 x13 x14 x15 = k0_pay3 (k0_pay1 x0 x1 x2 x4 x5 x6 x7 x8 x9) x10 x11 := by
  unfold out0_16
  rw [View.canon_unit_zero edge_off_zero]
  simp only [View.ld_unit_zero (S := S4000x128) edge_off_zero, View.ld_unit_zero (S := S4000x1) edge_off_zero,
    View.ld_unit_zero (S := S128x128) edge_off_zero, View.ld_unit_zero (S := S1x128) edge_off_zero,
    View.ld_unit_zero (S := S128x1) edge_off_zero, View.ld_unit_zero (S := S1x1) edge_off_zero]

/-- What the body leaves in the coordinate window's buffer is its one stored value. -/
theorem out0_17_eq (x0 x1 : Vec Ideal S4000x128 .bf16) (x2 : Vec Ideal S4000x1 .f32) (x3 : Vec Ideal S4000x3 .f32)
    (x4 x5 : Vec Ideal S128x128 .f32) (x6 x7 : Vec Ideal S1x128 .f32) (x8 : Vec Ideal S128x128 .f32) (x9 : Vec Ideal S1x128 .f32)
    (x10 : Vec Ideal S128x1 .f32) (x11 : Vec Ideal S1x1 .f32) (x12 : Vec Ideal S128x128 .f32) (x13 : Vec Ideal S1x128 .f32)
    (x14 : Vec Ideal S128x1 .f32) (x15 : Vec Ideal S1x1 .f32) :
    out0_17 x0 x1 x2 x3 x4 x5 x6 x7 x8 x9 x10 x11 x12 x13 x14 x15
      = k0_pay4 (k0_pay1 x0 x1 x2 x4 x5 x6 x7 x8 x9) x10 x11 x12 x13 x14 x15 x3 := by
  unfold out0_17
  rw [View.canon_unit_zero edge_off_zero]
  simp only [View.ld_unit_zero (S := S4000x128) edge_off_zero, View.ld_unit_zero (S := S4000x1) edge_off_zero,
    View.ld_unit_zero (S := S128x128) edge_off_zero, View.ld_unit_zero (S := S1x128) edge_off_zero,
    View.ld_unit_zero (S := S128x1) edge_off_zero, View.ld_unit_zero (S := S1x1) edge_off_zero,
    View.ld_unit_zero (S := S4000x3) edge_off_zero]

/-- Row `p` of a block whose edge rows are rows `r` of the three edge arrays is row `r` of the gated messages. -/
theorem msg_rows (A0 A1 : Arr 600000 128) (A2 : Arr 600000 1) (w4 w5 : Arr 128 128) (w6 w7 : Arr 1 128) (w8 : Arr 128 128)
    (w9 : Arr 1 128) (w10 : Arr 128 1) (w11 : Arr 1 1)
    (x0 x1 : Vec Ideal S4000x128 .bf16) (x2 : Vec Ideal S4000x1 .f32) (r : Fin 600000) (p : Fin 4000) (q : Fin 128)
    (h0 : ∀ k, x0 (ix2 p k) = A0 (ix2 r k)) (h1 : ∀ k, x1 (ix2 p k) = A1 (ix2 r k)) (h2 : ∀ k, x2 (ix2 p k) = A2 (ix2 r k)) :
    k0_pay2 (k0_pay1 x0 x1 x2 w4 w5 w6 w7 w8 w9) w10 w11 (ix2 p q) = msgArr A0 A1 A2 w4 w5 w6 w7 w8 w9 w10 w11 (ix2 r q) := by
  rw [pay2_apply]
  unfold msgArr
  refine congrArg (fun m => gated m (fun k n => w10 (ix2 k n)) (fun n => w11 (ix2 (0 : Fin 1) n)) q) (funext fun c => ?_)
  show k0_pay1 x0 x1 x2 w4 w5 w6 w7 w8 w9 (ix2 p c) = msg0 _ _ _ _ _ _ _ _ _ c
  rw [pay1_apply, funext h0, funext h1, funext h2]

/-- Row `p` of a block whose coordinate differences and gated messages are rows `r` of their arrays is row `r` of the
    coordinate updates. -/
theorem coord_rows (A3 : Arr 600000 3) (M : Arr 600000 128) (w12 : Arr 128 128) (w13 : Arr 1 128) (w14 : Arr 128 1) (w15 : Arr 1 1)
    (v36 : FVec Ideal S4000x128 .f32) (v37 : Vec Ideal S128x1 .f32) (v41 : Vec Ideal S1x1 .f32) (x3 : Vec Ideal S4000x3 .f32)
    (r : Fin 600000) (p : Fin 4000) (k : Fin 3)
    (h3 : x3 (ix2 p k) = A3 (ix2 r k)) (hm : ∀ c, k0_pay2 v36 v37 v41 (ix2 p c) = M (ix2 r c)) :
    k0_pay4 v36 v37 v41 w12 w13 w14 w15 x3 (ix2 p k) = coordArr A3 M w12 w13 w14 w15 (ix2 r k) := by
  rw [pay4_apply, h3, funext hm]
  rfl

/-- What point `t` writes back to the message array is block `t` of the gated messages of the arrays. -/
theorem msg_flushed (c : Dev nD) (t : Fin cfg0.N) :
    (dat0 V c).flushed 16 t = ((cfg0.win 16).blk t).view.read (Elt Ideal) (msgResult V c) := by
  show (cfg0.win 16).cut (grid0.coords t) ((dat0 V c).after 16 t) = _
  rw [after0_16, out0_16_eq (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t),
    res0_4 V c t, res0_5 V c t, res0_6 V c t, res0_7 V c t, res0_8 V c t, res0_9 V c t, res0_10 V c t, res0_11 V c t]
  funext y
  obtain ⟨p, q, rfl⟩ : ∃ (p : Fin 4000) (q : Fin 128), y = ix2 p q := ⟨y 0, y 1, eq_ix2 y⟩
  show k0_pay3 (k0_pay1 (iblk0 V c 0 t) (iblk0 V c 1 t) (iblk0 V c 2 t) (V c (Pipeline.arrRef spec0 4)) (V c (Pipeline.arrRef spec0 5)) (V c (Pipeline.arrRef spec0 6)) (V c (Pipeline.arrRef spec0 7)) (V c (Pipeline.arrRef spec0 8)) (V c (Pipeline.arrRef spec0 9))) (V c (Pipeline.arrRef spec0 10)) (V c (Pipeline.arrRef spec0 11)) (ix2 p q)
    = msgResult V c (((cfg0.win 16).blk t).view.emb (ix2 p q))
  rw [emb0_16 t p q]
  exact msg_rows _ _ _ _ _ _ _ _ _ _ _ (iblk0 V c 0 t) (iblk0 V c 1 t) (iblk0 V c 2 t) _ p q (fun k => read0_0 V c t p k) (fun k => read0_1 V c t p k)
    (fun k => read0_2 V c t p k)

set_option maxHeartbeats 1600000 in
/-- What point `t` writes back to the coordinate array is block `t` of the coordinate updates of the arrays. -/
theorem coord_flushed (c : Dev nD) (t : Fin cfg0.N) :
    (dat0 V c).flushed 17 t = ((cfg0.win 17).blk t).view.read (Elt Ideal) (coordResult V c) := by
  show (cfg0.win 17).cut (grid0.coords t) ((dat0 V c).after 17 t) = _
  rw [after0_17, out0_17_eq (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t),
    res0_4 V c t, res0_5 V c t, res0_6 V c t, res0_7 V c t, res0_8 V c t, res0_9 V c t, res0_10 V c t, res0_11 V c t,
    res0_12 V c t, res0_13 V c t, res0_14 V c t, res0_15 V c t]
  funext y
  obtain ⟨p, k, rfl⟩ : ∃ (p : Fin 4000) (k : Fin 3), y = ix2 p k := ⟨y 0, y 1, eq_ix2 y⟩
  show k0_pay4 (k0_pay1 (iblk0 V c 0 t) (iblk0 V c 1 t) (iblk0 V c 2 t) (V c (Pipeline.arrRef spec0 4)) (V c (Pipeline.arrRef spec0 5)) (V c (Pipeline.arrRef spec0 6)) (V c (Pipeline.arrRef spec0 7)) (V c (Pipeline.arrRef spec0 8)) (V c (Pipeline.arrRef spec0 9))) (V c (Pipeline.arrRef spec0 10)) (V c (Pipeline.arrRef spec0 11))
      (V c (Pipeline.arrRef spec0 12)) (V c (Pipeline.arrRef spec0 13)) (V c (Pipeline.arrRef spec0 14)) (V c (Pipeline.arrRef spec0 15)) (iblk0 V c 3 t) (ix2 p k)
    = coordResult V c (((cfg0.win 17).blk t).view.emb (ix2 p k))
  rw [emb0_17 t p k]
  exact coord_rows _ (msgResult V c) _ _ _ _ _ _ _ (iblk0 V c 3 t) _ p k (read0_3 V c t p k)
    (fun q => msg_rows _ _ _ _ _ _ _ _ _ _ _ (iblk0 V c 0 t) (iblk0 V c 1 t) (iblk0 V c 2 t) _ p q (fun k => read0_0 V c t p k)
      (fun k => read0_1 V c t p k) (fun k => read0_2 V c t p k))

/-- An index of the message array is in point `t`'s block iff each coordinate is in the block's range on its axis. -/
theorem msg_mem_blk (t : Fin cfg0.N) (i : S600000x128.Idx) :
    i ∈ ((cfg0.win 16).blk t).view.set ↔ ∀ a : Fin 2, win0_16.index t a * S4000x128.size a ≤ (i a).val
      ∧ (i a).val < win0_16.index t a * S4000x128.size a + S4000x128.size a := by
  show i ∈ ((View.whole main_v43_0).slice (win0_16.rect t)).set ↔ _
  rw [View.set_slice_whole, Rect.mem_set_unit]
  exact Iff.rfl

/-- Row `r` of the message array lies in the block of point `r / 4000`: the 150 blocks fill the array. -/
theorem msg_cover (i : S600000x128.Idx) :
    ∃ t : Fin cfg0.N, (cfg0.win 16).flush t = true ∧ i ∈ ((cfg0.win 16).blk t).view.set := by
  have hN : cfg0.N = 150 := N_0
  have hi0 : (i 0).val < 600000 := (i 0).isLt
  have hi1 : (i 1).val < 128 := (i 1).isLt
  obtain ⟨a0, b0, a1, b1, a2, b2, a3, b3, a16, b16, a17, b17⟩ := idx_mov0 ⟨(i 0).val / 4000, by omega⟩
  refine ⟨⟨(i 0).val / 4000, by omega⟩, flush0_16 _, ?_⟩
  rw [msg_mem_blk]
  intro a
  match a with
  | ⟨0, _⟩ =>
    show win0_16.index ⟨(i 0).val / 4000, _⟩ (0 : Fin 2) * 4000 ≤ (i 0).val
      ∧ (i 0).val < win0_16.index ⟨(i 0).val / 4000, _⟩ (0 : Fin 2) * 4000 + 4000
    rw [a16]
    show (i 0).val / 4000 * 4000 ≤ (i 0).val ∧ (i 0).val < (i 0).val / 4000 * 4000 + 4000
    omega
  | ⟨1, _⟩ =>
    show win0_16.index ⟨(i 0).val / 4000, _⟩ (1 : Fin 2) * 128 ≤ (i 1).val
      ∧ (i 1).val < win0_16.index ⟨(i 0).val / 4000, _⟩ (1 : Fin 2) * 128 + 128
    rw [b16]
    omega

/-- An index of the coordinate array is in point `t`'s block iff each coordinate is in the block's range on its axis. -/
theorem coord_mem_blk (t : Fin cfg0.N) (i : S600000x3.Idx) :
    i ∈ ((cfg0.win 17).blk t).view.set ↔ ∀ a : Fin 2, win0_17.index t a * S4000x3.size a ≤ (i a).val
      ∧ (i a).val < win0_17.index t a * S4000x3.size a + S4000x3.size a := by
  show i ∈ ((View.whole main_v43_1).slice (win0_17.rect t)).set ↔ _
  rw [View.set_slice_whole, Rect.mem_set_unit]
  exact Iff.rfl

/-- Row `r` of the coordinate array lies in the block of point `r / 4000`: the 150 blocks fill the array. -/
theorem coord_cover (i : S600000x3.Idx) :
    ∃ t : Fin cfg0.N, (cfg0.win 17).flush t = true ∧ i ∈ ((cfg0.win 17).blk t).view.set := by
  have hN : cfg0.N = 150 := N_0
  have hi0 : (i 0).val < 600000 := (i 0).isLt
  have hi1 : (i 1).val < 3 := (i 1).isLt
  obtain ⟨a0, b0, a1, b1, a2, b2, a3, b3, a16, b16, a17, b17⟩ := idx_mov0 ⟨(i 0).val / 4000, by omega⟩
  refine ⟨⟨(i 0).val / 4000, by omega⟩, flush0_17 _, ?_⟩
  rw [coord_mem_blk]
  intro a
  match a with
  | ⟨0, _⟩ =>
    show win0_17.index ⟨(i 0).val / 4000, _⟩ (0 : Fin 2) * 4000 ≤ (i 0).val
      ∧ (i 0).val < win0_17.index ⟨(i 0).val / 4000, _⟩ (0 : Fin 2) * 4000 + 4000
    rw [a17]
    show (i 0).val / 4000 * 4000 ≤ (i 0).val ∧ (i 0).val < (i 0).val / 4000 * 4000 + 4000
    omega
  | ⟨1, _⟩ =>
    show win0_17.index ⟨(i 0).val / 4000, _⟩ (1 : Fin 2) * 3 ≤ (i 1).val
      ∧ (i 1).val < win0_17.index ⟨(i 0).val / 4000, _⟩ (1 : Fin 2) * 3 + 3
    rw [b17]
    omega

/-- The edge region leaves the gated message of every edge in its first output array. -/
theorem final16 (c : Dev nD) :
    (dat0 V c).arrAt 16 cfg0.N = msgArr (V c (Pipeline.arrRef spec0 0)) (V c (Pipeline.arrRef spec0 1)) (V c (Pipeline.arrRef spec0 2)) (V c (Pipeline.arrRef spec0 4)) (V c (Pipeline.arrRef spec0 5)) (V c (Pipeline.arrRef spec0 6)) (V c (Pipeline.arrRef spec0 7)) (V c (Pipeline.arrRef spec0 8)) (V c (Pipeline.arrRef spec0 9)) (V c (Pipeline.arrRef spec0 10)) (V c (Pipeline.arrRef spec0 11)) :=
  (dat0 V c).arrAt_eq_of_cover 16 (msgResult V c) (fun t _ => msg_flushed V c t) fun i => msg_cover i

/-- The edge region leaves the coordinate update of every edge in its second output array. -/
theorem final17 (c : Dev nD) :
    (dat0 V c).arrAt 17 cfg0.N = coordArr (V c (Pipeline.arrRef spec0 3)) (msgArr (V c (Pipeline.arrRef spec0 0)) (V c (Pipeline.arrRef spec0 1)) (V c (Pipeline.arrRef spec0 2)) (V c (Pipeline.arrRef spec0 4)) (V c (Pipeline.arrRef spec0 5)) (V c (Pipeline.arrRef spec0 6)) (V c (Pipeline.arrRef spec0 7)) (V c (Pipeline.arrRef spec0 8)) (V c (Pipeline.arrRef spec0 9)) (V c (Pipeline.arrRef spec0 10)) (V c (Pipeline.arrRef spec0 11)))
      (V c (Pipeline.arrRef spec0 12)) (V c (Pipeline.arrRef spec0 13)) (V c (Pipeline.arrRef spec0 14)) (V c (Pipeline.arrRef spec0 15)) :=
  (dat0 V c).arrAt_eq_of_cover 17 (coordResult V c) (fun t _ => coord_flushed V c t) fun i => coord_cover i

end Cert.KernelIdeal.Regions

end
-- ==== Proof.Weights.lean ====
/-
  Blocks of rows of a weight matrix, and a bias vector laid out as a one-row matrix, read at an entry.
-/
import proofs.«105293_j58471684768170_2_alg».proof.Proof.Arrays
import Idealize.ShloMosaic.Lib.Pipeline.Value
import Idealize.ShloMosaic.Lib.ValueLayout

noncomputable section

namespace Cert.Egnn

open Idealize.ShloMosaic Idealize.ShloMosaic.ValueIdx

/-- Rows `o … o + n − 1` of an array, cut out as a slice: entry (k, j) of the slice is entry (o + k, j) of the array. -/
theorem slice_rows {R C n o : Nat} (x : Arr R C) (h : (⟨2, ![R, C]⟩ : Shape).Slices ![o, 0] ⟨2, ![n, C]⟩) (hb : o + n ≤ R) :
    (fun (k : Fin n) (j : Fin C) => extractStridedSlice ⟨2, ![n, C]⟩ ![o, 0] x h (ix2 k j))
      = fun k j => x (ix2 ⟨o + k.val, by have := k.isLt; omega⟩ j) := by
  funext k j
  exact extractStridedSlice_apply _ x h _ _ (fun a => match a with
    | ⟨0, _⟩ => rfl
    | ⟨1, _⟩ => by show j.val = 0 + j.val; omega)

/-- The first `n` rows. -/
theorem slice_rows0 {R C n : Nat} (x : Arr R C) (h : (⟨2, ![R, C]⟩ : Shape).Slices ![0, 0] ⟨2, ![n, C]⟩) (hb : n ≤ R) :
    (fun (k : Fin n) (j : Fin C) => extractStridedSlice ⟨2, ![n, C]⟩ ![0, 0] x h (ix2 k j))
      = fun k j => x (ix2 ⟨k.val, by have := k.isLt; omega⟩ j) := by
  funext k j
  exact extractStridedSlice_apply _ x h _ _ (fun a => match a with
    | ⟨0, _⟩ => by show k.val = 0 + k.val; omega
    | ⟨1, _⟩ => by show j.val = 0 + j.val; omega)

/-- A vector laid out as a one-row matrix, read along that row. -/
theorem row_of_vec {a : Nat} (x : (⟨1, ![a]⟩ : Shape).Idx → EReal) (h : (⟨1, ![a]⟩ : Shape).ShapeCasts ⟨2, ![1, a]⟩) :
    (fun n : Fin a => shapeCast ⟨2, ![1, a]⟩ x h (ix2 (0 : Fin 1) n)) = fun n => x (ix1 n) :=
  funext fun n => shapeCast_a_1a_apply x h 0 n

end Cert.Egnn

end
-- ==== Proof.RefRead1.lean ====
/-
  The host's spellings of the logistic function and of x · σ(x), and three blocks joined side by side, read at an entry.

  On the extended reals σ(x) = 1 / (1 + e⁻ˣ) is, by definition, the quotient of 1 by 1 + exp (−x); a host program spells
  it with a negation, an exponential, an addition to a broadcast constant 1 and a division of a broadcast constant 1.
  The word 0x3F800000 denotes 1.
-/
import Idealize.ShloMosaic.PureOps.Ideal.Laws
import Idealize.ShloMosaic.Lib.ValueIdx
import Idealize.ShloMosaic.Lib.Pipeline.Value
import proofs.«105293_j58471684768170_2_alg».proof.Proof.Spec

noncomputable section

open scoped BigOperators

namespace Cert.ReferenceIdeal.RefValue

open Idealize.ShloMosaic Idealize.ShloMosaic.ValueIdx Idealize.ShloMosaic.Dense Cert.Egnn

/-- The word `0x3F800000` is the number one. -/
theorem ofBits_one_f32 : Ideal.ofBits .f32 0x3F800000#32 = 1 := by
  simp [Ideal.ofBits, Ideal.ieee, -EReal.coe_mul]; norm_num

/-- A scalar constant one broadcast to any shape reads one everywhere. -/
theorem bcast_one_apply {s : Shape} (h : (⟨0, ![]⟩ : Shape).BroadcastsInDim s ![]) (i : s.Idx) :
    broadcastInDim s ![] h (constant (F := Ideal) ⟨0, ![]⟩ .f32 0x3F800000#32) i = (1 : EReal) :=
  (broadcastInDim_apply _ h _ i ix0 (fun a => a.elim0)).trans ofBits_one_f32

/-- The host's `1 / (1 + exp (−x))` is the logistic function at every element. -/
theorem host_sigmoid {s : Shape} (x : FVec Ideal s .f32) (h1 h2 : (⟨0, ![]⟩ : Shape).BroadcastsInDim s ![]) (i : s.Idx) :
    Host.divf (broadcastInDim s ![] h1 (constant (F := Ideal) ⟨0, ![]⟩ .f32 0x3F800000#32))
        (addf (broadcastInDim s ![] h2 (constant (F := Ideal) ⟨0, ![]⟩ .f32 0x3F800000#32)) (Host.exp (Host.negf x))) i
      = Ideal.logistic (x i) := by
  show Ideal.div (broadcastInDim s ![] h1 (constant (F := Ideal) ⟨0, ![]⟩ .f32 0x3F800000#32) i)
      (broadcastInDim s ![] h2 (constant (F := Ideal) ⟨0, ![]⟩ .f32 0x3F800000#32) i + Ideal.exp (-(x i)))
    = Ideal.div 1 (1 + Ideal.exp (-(x i)))
  rw [bcast_one_apply h1 i]

/-- The host's `x * (1 / (1 + exp (−x)))` is `x · σ(x)` at every element. -/
theorem host_silu {s : Shape} (x : FVec Ideal s .f32) (h1 h2 : (⟨0, ![]⟩ : Shape).BroadcastsInDim s ![]) (i : s.Idx) :
    mulf x (Host.divf (broadcastInDim s ![] h1 (constant (F := Ideal) ⟨0, ![]⟩ .f32 0x3F800000#32))
        (addf (broadcastInDim s ![] h2 (constant (F := Ideal) ⟨0, ![]⟩ .f32 0x3F800000#32)) (Host.exp (Host.negf x)))) i
      = x i * Ideal.logistic (x i) :=
  congrArg (fun t => x i * t) (host_sigmoid x h1 h2 i)

/-! ## Three blocks side by side -/

section Concat3

variable {α : Type} {n a b c d : Nat}

/-- Three blocks side by side, an entry in the first. -/
theorem cols3_fst (x₁ : (⟨2, ![n, a]⟩ : Shape).Idx → α) (x₂ : (⟨2, ![n, b]⟩ : Shape).Idx → α) (x₃ : (⟨2, ![n, c]⟩ : Shape).Idx → α)
    (h : Shape.Concatenates [(⟨2, ![n, a]⟩ : Shape), ⟨2, ![n, b]⟩, ⟨2, ![n, c]⟩] ⟨2, ![n, d]⟩ (1 : Fin 2))
    (r : Fin n) (q : Fin a) (hq : q.val < d) :
    concatenate ⟨2, ![n, d]⟩ (1 : Fin 2) [⟨⟨2, ![n, a]⟩, x₁⟩, ⟨⟨2, ![n, b]⟩, x₂⟩, ⟨⟨2, ![n, c]⟩, x₃⟩] h (ix2 r ⟨q.val, hq⟩)
      = x₁ (ix2 r q) :=
  concatenate_apply_piece (t := ⟨2, ![n, d]⟩) (1 : Fin 2) [⟨⟨2, ![n, a]⟩, x₁⟩, ⟨⟨2, ![n, b]⟩, x₂⟩, ⟨⟨2, ![n, c]⟩, x₃⟩] h
    (ix2 r ⟨q.val, hq⟩) 0 (show 0 < 3 by omega) ⟨2, ![n, a]⟩ x₁ rfl rfl 0 rfl (ix2 r q)
    (fun e he => match e, he with | ⟨0, _⟩, _ => rfl | ⟨1, _⟩, he => absurd rfl he)
    (Nat.zero_add _)

/-- Three blocks side by side, an entry in the second. -/
theorem cols3_snd (x₁ : (⟨2, ![n, a]⟩ : Shape).Idx → α) (x₂ : (⟨2, ![n, b]⟩ : Shape).Idx → α) (x₃ : (⟨2, ![n, c]⟩ : Shape).Idx → α)
    (h : Shape.Concatenates [(⟨2, ![n, a]⟩ : Shape), ⟨2, ![n, b]⟩, ⟨2, ![n, c]⟩] ⟨2, ![n, d]⟩ (1 : Fin 2))
    (r : Fin n) (q : Fin b) (hq : a + q.val < d) :
    concatenate ⟨2, ![n, d]⟩ (1 : Fin 2) [⟨⟨2, ![n, a]⟩, x₁⟩, ⟨⟨2, ![n, b]⟩, x₂⟩, ⟨⟨2, ![n, c]⟩, x₃⟩] h (ix2 r ⟨a + q.val, hq⟩)
      = x₂ (ix2 r q) :=
  concatenate_apply_piece (t := ⟨2, ![n, d]⟩) (1 : Fin 2) [⟨⟨2, ![n, a]⟩, x₁⟩, ⟨⟨2, ![n, b]⟩, x₂⟩, ⟨⟨2, ![n, c]⟩, x₃⟩] h
    (ix2 r ⟨a + q.val, hq⟩) 1 (show 1 < 3 by omega) ⟨2, ![n, b]⟩ x₂ rfl rfl a (Nat.add_zero a) (ix2 r q)
    (fun e he => match e, he with | ⟨0, _⟩, _ => rfl | ⟨1, _⟩, he => absurd rfl he)
    rfl

/-- Three blocks side by side, an entry in the third. -/
theorem cols3_thd (x₁ : (⟨2, ![n, a]⟩ : Shape).Idx → α) (x₂ : (⟨2, ![n, b]⟩ : Shape).Idx → α) (x₃ : (⟨2, ![n, c]⟩ : Shape).Idx → α)
    (h : Shape.Concatenates [(⟨2, ![n, a]⟩ : Shape), ⟨2, ![n, b]⟩, ⟨2, ![n, c]⟩] ⟨2, ![n, d]⟩ (1 : Fin 2))
    (r : Fin n) (q : Fin c) (hq : a + b + q.val < d) :
    concatenate ⟨2, ![n, d]⟩ (1 : Fin 2) [⟨⟨2, ![n, a]⟩, x₁⟩, ⟨⟨2, ![n, b]⟩, x₂⟩, ⟨⟨2, ![n, c]⟩, x₃⟩] h (ix2 r ⟨a + b + q.val, hq⟩)
      = x₃ (ix2 r q) :=
  concatenate_apply_piece (t := ⟨2, ![n, d]⟩) (1 : Fin 2) [⟨⟨2, ![n, a]⟩, x₁⟩, ⟨⟨2, ![n, b]⟩, x₂⟩, ⟨⟨2, ![n, c]⟩, x₃⟩] h
    (ix2 r ⟨a + b + q.val, hq⟩) 2 (show 2 < 3 by omega) ⟨2, ![n, c]⟩ x₃ rfl rfl (a + b) (by show a + (b + 0) = a + b; rw [Nat.add_zero]) (ix2 r q)
    (fun e he => match e, he with | ⟨0, _⟩, _ => rfl | ⟨1, _⟩, he => absurd rfl he)
    rfl

end Concat3

/-! ## The two first layers, whose left operand is a row of blocks -/

/-- A product with a 257-row matrix plus a bias, when the left operand's row `p` is `hi`, `hj` and `d` end to end
    (257 = 128 + 128 + 1): the three blocks' products plus the bias. -/
theorem edge_first_layer {M : Nat} (D : DotDims ⟨2, ![M, 257]⟩ ⟨2, ![257, 128]⟩ ⟨2, ![M, 128]⟩) (hD : D = DotDims.plain M 257 128)
    (l : FVec Ideal ⟨2, ![M, 257]⟩ .f32) (r : FVec Ideal ⟨2, ![257, 128]⟩ .f32) (b : FVec Ideal ⟨1, ![128]⟩ .f32)
    (h1 : (⟨1, ![128]⟩ : Shape).BroadcastsInDim ⟨2, ![1, 128]⟩ ![1]) (h2 : (⟨2, ![1, 128]⟩ : Shape).BroadcastsInDim ⟨2, ![M, 128]⟩ ![0, 1])
    (p : Fin M) (c : Fin 128) (hi hj : Fin 128 → EReal) (d : Fin 1 → EReal)
    (hfst : ∀ k : Fin 128, l (ix2 p ⟨k.val, by have := k.isLt; omega⟩) = hi k)
    (hsnd : ∀ k : Fin 128, l (ix2 p ⟨128 + k.val, by have := k.isLt; omega⟩) = hj k)
    (hthd : ∀ k : Fin 1, l (ix2 p ⟨256 + k.val, by have := k.isLt; omega⟩) = d k) :
    addf (Host.dotGeneral D none l r) (broadcastInDim ⟨2, ![M, 128]⟩ ![0, 1] h2 (broadcastInDim ⟨2, ![1, 128]⟩ ![1] h1 b)) (ix2 p c)
      = edgePre hi hj d (fun k n => r (ix2 ⟨k.val, by have := k.isLt; omega⟩ n))
          (fun k n => r (ix2 ⟨128 + k.val, by have := k.isLt; omega⟩ n))
          (fun k n => r (ix2 ⟨256 + k.val, by have := k.isLt; omega⟩ n)) (fun n => b (ix1 n)) c := by
  refine (hostDot_bias_apply D hD l r b h1 h2 p c).trans ?_
  unfold lin edgePre
  refine congrArg (· + b (ix1 c)) ?_
  refine (sum_split (show 257 = 256 + 1 from rfl) _).trans ?_
  refine congrArg₂ (· + ·) ((sum_split (show 256 = 128 + 128 from rfl) _).trans ?_) (Finset.sum_congr rfl fun k _ => ?_)
  · refine congrArg₂ (· + ·) (Finset.sum_congr rfl fun k _ => ?_) (Finset.sum_congr rfl fun k _ => ?_)
    · exact congrArg (· * _) (hfst k)
    · exact congrArg (· * _) (hsnd k)
  · exact congrArg (· * _) (hthd k)

/-- A product with a 256-row matrix plus a bias, when the left operand is two blocks side by side
    (256 = 128 + 128): the two blocks' products plus the bias. -/
theorem node_first_layer {M : Nat} (D : DotDims ⟨2, ![M, 256]⟩ ⟨2, ![256, 128]⟩ ⟨2, ![M, 128]⟩) (hD : D = DotDims.plain M 256 128)
    (u v : FVec Ideal ⟨2, ![M, 128]⟩ .f32)
    (hc : Shape.Concatenates [(⟨2, ![M, 128]⟩ : Shape), ⟨2, ![M, 128]⟩] ⟨2, ![M, 256]⟩ (1 : Fin 2))
    (r : FVec Ideal ⟨2, ![256, 128]⟩ .f32) (b : FVec Ideal ⟨1, ![128]⟩ .f32)
    (h1 : (⟨1, ![128]⟩ : Shape).BroadcastsInDim ⟨2, ![1, 128]⟩ ![1]) (h2 : (⟨2, ![1, 128]⟩ : Shape).BroadcastsInDim ⟨2, ![M, 128]⟩ ![0, 1])
    (p : Fin M) (c : Fin 128) :
    addf (Host.dotGeneral D none
          (concatenate ⟨2, ![M, 256]⟩ (1 : Fin 2) [⟨⟨2, ![M, 128]⟩, u⟩, ⟨⟨2, ![M, 128]⟩, v⟩] hc : FVec Ideal ⟨2, ![M, 256]⟩ .f32) r)
        (broadcastInDim ⟨2, ![M, 128]⟩ ![0, 1] h2 (broadcastInDim ⟨2, ![1, 128]⟩ ![1] h1 b)) (ix2 p c)
      = nodePre (fun k => u (ix2 p k)) (fun k => v (ix2 p k)) (fun k j => r (ix2 ⟨k.val, by have := k.isLt; omega⟩ j))
          (fun k j => r (ix2 ⟨128 + k.val, by have := k.isLt; omega⟩ j)) (fun j => b (ix1 j)) c := by
  refine (hostDot_bias_apply D hD _ r b h1 h2 p c).trans ?_
  unfold lin nodePre
  refine congrArg (· + b (ix1 c)) ?_
  refine (Finset.sum_congr rfl fun k _ => ?_).trans
    (lin_cat2 (show 256 = 128 + 128 from rfl) (fun k => u (ix2 p k)) (fun k => v (ix2 p k)) (fun k j => r (ix2 k j)) c)
  exact congrArg (· * r (ix2 k c)) (concat_cols_apply (show 256 = 128 + 128 from rfl) u v hc p k)

end Cert.ReferenceIdeal.RefValue

end
-- ==== Proof.RefRead2.lean ====
/-
  The reference's edge stage read at an entry: the gated message of edge e at feature c.

  The three-block row [h(col e), h(row e), dist e] against the 257-row first weight matrix is the sum of the three blocks'
  products (257 = 128 + 128 + 1); the two hidden layers are x · σ(x) of affine maps; the gate is σ of an affine map into
  one column, broadcast over the 128 features.
-/
import proofs.«105293_j58471684768170_2_alg».proof.Proof.Spec
import proofs.«105293_j58471684768170_2_alg».proof.Proof.RefRead1
import proofs.«105293_j58471684768170_2_alg».proof.Proof.ReadP

noncomputable section

open scoped BigOperators

namespace Cert.ReferenceIdeal.RefValue

open Cert.ReferenceIdeal Cert.ReferenceIdeal.Gen Cert.ReferenceIdeal.ReadP Cert.Egnn Idealize.ShloMosaic Idealize.ShloMosaic.ValueIdx Idealize.ShloMosaic.Dense

variable (x0 : (⟨S50000x128, .f32⟩ : BufTy).Contents (Elt Ideal)) (x1 : (⟨S50000x3, .f32⟩ : BufTy).Contents (Elt Ideal)) (x2 : (⟨S2x600000, .i32⟩ : BufTy).Contents (Elt Ideal)) (x3 : (⟨S257x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x1, .f32⟩ : BufTy).Contents (Elt Ideal)) (x8 : (⟨S1, .f32⟩ : BufTy).Contents (Elt Ideal))

/-- The joined row at a column of the first block. -/
theorem ref_v34_fst (e : Fin 600000) (k : Fin 128) :
    val_main_v34 x0 x1 x2 (ix2 e ⟨k.val, by have := k.isLt; omega⟩) = val_main_v33 x0 x2 (ix2 e k) := by
  unfold val_main_v34
  exact cols3_fst _ _ _ concatenates_S600000x128_S600000x128_S600000x1_S600000x257_d1 e k _

/-- The joined row at a column of the second block. -/
theorem ref_v34_snd (e : Fin 600000) (k : Fin 128) :
    val_main_v34 x0 x1 x2 (ix2 e ⟨128 + k.val, by have := k.isLt; omega⟩) = val_main_v26 x0 x2 (ix2 e k) := by
  unfold val_main_v34
  exact cols3_snd _ _ _ concatenates_S600000x128_S600000x128_S600000x1_S600000x257_d1 e k _

/-- The joined row at the column of the third block. -/
theorem ref_v34_thd (e : Fin 600000) (k : Fin 1) :
    val_main_v34 x0 x1 x2 (ix2 e ⟨256 + k.val, by have := k.isLt; omega⟩) = val_main_v19 x1 x2 (ix2 e k) := by
  unfold val_main_v34
  exact cols3_thd (a := 128) (b := 128) _ _ _ concatenates_S600000x128_S600000x128_S600000x1_S600000x257_d1 e k _

/-- The first affine layer of an edge: the three blocks' products plus the bias. -/
theorem ref_v38 (e : Fin 600000) (c : Fin 128) :
    val_main_v38 x0 x1 x2 x3 x4 (ix2 e c) = edgePre (fun k => val_main_v33 x0 x2 (ix2 e k)) (fun k => val_main_v26 x0 x2 (ix2 e k)) (fun k => val_main_v19 x1 x2 (ix2 e k)) (fun k n => x3 (ix2 ⟨k.val, by have := k.isLt; omega⟩ n)) (fun k n => x3 (ix2 ⟨128 + k.val, by have := k.isLt; omega⟩ n)) (fun k n => x3 (ix2 ⟨256 + k.val, by have := k.isLt; omega⟩ n)) (fun n => x4 (ix1 n)) c :=
  edge_first_layer dot_S600000x257_S257x128_S600000x128_1_0_0_1_n_n rfl (val_main_v34 x0 x1 x2) x3 x4
    bcast_S128_S1x128_1 bcast_S1x128_S600000x128_0_1 e c _ _ _
    (ref_v34_fst x0 x1 x2 e) (ref_v34_snd x0 x1 x2 e) (ref_v34_thd x0 x1 x2 e)

/-- The first activation. -/
theorem ref_v39 (i : S600000x128.Idx) : val_main_v39 x0 x1 x2 x3 x4 i = silu (val_main_v38 x0 x1 x2 x3 x4 i) :=
  host_silu (val_main_v38 x0 x1 x2 x3 x4) bcast_S_S600000x128 bcast_S_S600000x128 i

/-- The second affine layer. -/
theorem ref_v43 (e : Fin 600000) (c : Fin 128) :
    val_main_v43 x0 x1 x2 x3 x4 x5 x6 (ix2 e c) = lin (fun k => val_main_v39 x0 x1 x2 x3 x4 (ix2 e k)) (fun k n => x5 (ix2 k n)) (fun n => x6 (ix1 n)) c :=
  hostDot_bias_apply dot_S600000x128_S128x128_S600000x128_1_0_0_1_n_n rfl (val_main_v39 x0 x1 x2 x3 x4) x5 x6
    bcast_S128_S1x128_1 bcast_S1x128_S600000x128_0_1 e c

/-- The second activation. -/
theorem ref_v44 (i : S600000x128.Idx) : val_main_v44 x0 x1 x2 x3 x4 x5 x6 i = silu (val_main_v43 x0 x1 x2 x3 x4 x5 x6 i) :=
  host_silu (val_main_v43 x0 x1 x2 x3 x4 x5 x6) bcast_S_S600000x128 bcast_S_S600000x128 i

/-- The message of edge `e` before its gate. -/
theorem ref_v44_msg (e : Fin 600000) (c : Fin 128) :
    val_main_v44 x0 x1 x2 x3 x4 x5 x6 (ix2 e c) = msg0 (fun k => val_main_v33 x0 x2 (ix2 e k)) (fun k => val_main_v26 x0 x2 (ix2 e k)) (fun k => val_main_v19 x1 x2 (ix2 e k)) (fun k n => x3 (ix2 ⟨k.val, by have := k.isLt; omega⟩ n)) (fun k n => x3 (ix2 ⟨128 + k.val, by have := k.isLt; omega⟩ n)) (fun k n => x3 (ix2 ⟨256 + k.val, by have := k.isLt; omega⟩ n)) (fun n => x4 (ix1 n)) (fun k n => x5 (ix2 k n)) (fun n => x6 (ix1 n)) c := by
  rw [ref_v44, ref_v43]
  unfold msg0
  refine congrArg silu (congrArg (fun f => lin f _ _ c) (funext fun k => ?_))
  rw [ref_v39, ref_v38]

/-- The gate's affine map, one column. -/
theorem ref_v48 (e : Fin 600000) (u : Fin 1) :
    val_main_v48 x0 x1 x2 x3 x4 x5 x6 x7 x8 (ix2 e u) = lin (fun k => val_main_v44 x0 x1 x2 x3 x4 x5 x6 (ix2 e k)) (fun k n => x7 (ix2 k n)) (fun n => x8 (ix1 n)) u :=
  hostDot_bias_apply dot_S600000x128_S128x1_S600000x1_1_0_0_1_n_n rfl (val_main_v44 x0 x1 x2 x3 x4 x5 x6) x7 x8
    bcast_S1_S1x1_1 bcast_S1x1_S600000x1_0_1 e u

/-- The gate. -/
theorem ref_v54 (i : S600000x1.Idx) : val_main_v54 x0 x1 x2 x3 x4 x5 x6 x7 x8 i = Ideal.logistic (val_main_v48 x0 x1 x2 x3 x4 x5 x6 x7 x8 i) :=
  host_sigmoid (val_main_v48 x0 x1 x2 x3 x4 x5 x6 x7 x8) bcast_S_S600000x1 bcast_S_S600000x1 i

/-- The gate broadcast over the features. -/
theorem ref_v55 (e : Fin 600000) (c : Fin 128) :
    val_main_v55 x0 x1 x2 x3 x4 x5 x6 x7 x8 (ix2 e c) = val_main_v54 x0 x1 x2 x3 x4 x5 x6 x7 x8 (ix2 e (0 : Fin 1)) :=
  (val_main_v55_apply x0 x1 x2 x3 x4 x5 x6 x7 x8 (ix2 e c)).trans
    (congrArg (val_main_v54 x0 x1 x2 x3 x4 x5 x6 x7 x8) (funext fun a => match a with | ⟨0, _⟩ => rfl | ⟨1, _⟩ => rfl))

/-- **The gated message of edge `e` at feature `c`.** -/
theorem ref_msg (e : Fin 600000) (c : Fin 128) :
    val_main_v56 x0 x1 x2 x3 x4 x5 x6 x7 x8 (ix2 e c) = gated (msg0 (fun k => val_main_v33 x0 x2 (ix2 e k)) (fun k => val_main_v26 x0 x2 (ix2 e k)) (fun k => val_main_v19 x1 x2 (ix2 e k)) (fun k n => x3 (ix2 ⟨k.val, by have := k.isLt; omega⟩ n)) (fun k n => x3 (ix2 ⟨128 + k.val, by have := k.isLt; omega⟩ n)) (fun k n => x3 (ix2 ⟨256 + k.val, by have := k.isLt; omega⟩ n)) (fun n => x4 (ix1 n)) (fun k n => x5 (ix2 k n)) (fun n => x6 (ix1 n))) (fun k n => x7 (ix2 k n)) (fun n => x8 (ix1 n)) c := by
  show val_main_v44 x0 x1 x2 x3 x4 x5 x6 (ix2 e c) * val_main_v55 x0 x1 x2 x3 x4 x5 x6 x7 x8 (ix2 e c) = _
  unfold gated gate
  rw [ref_v55, ref_v54, ref_v48]
  exact congrArg₂ (· * ·) (ref_v44_msg x0 x1 x2 x3 x4 x5 x6 e c)
    (congrArg Ideal.logistic (congrArg (fun f => lin f _ _ (0 : Fin 1)) (funext fun k => ref_v44_msg x0 x1 x2 x3 x4 x5 x6 e k)))

end Cert.ReferenceIdeal.RefValue

end
-- ==== Proof.RefRead3.lean ====
/-
  The reference's coordinate stage read at an entry: the difference vector of edge e scaled by the weight computed from
  the edge's gated message (an affine map, x · σ(x), an affine map into one column, broadcast over the three coordinates).
-/
import proofs.«105293_j58471684768170_2_alg».proof.Proof.Spec
import proofs.«105293_j58471684768170_2_alg».proof.Proof.RefRead1
import proofs.«105293_j58471684768170_2_alg».proof.Proof.ReadP

noncomputable section

open scoped BigOperators

namespace Cert.ReferenceIdeal.RefValue

open Cert.ReferenceIdeal Cert.ReferenceIdeal.Gen Cert.ReferenceIdeal.ReadP Cert.Egnn Idealize.ShloMosaic Idealize.ShloMosaic.ValueIdx Idealize.ShloMosaic.Dense

variable (x0 : (⟨S50000x128, .f32⟩ : BufTy).Contents (Elt Ideal)) (x1 : (⟨S50000x3, .f32⟩ : BufTy).Contents (Elt Ideal)) (x2 : (⟨S2x600000, .i32⟩ : BufTy).Contents (Elt Ideal)) (x3 : (⟨S257x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x1, .f32⟩ : BufTy).Contents (Elt Ideal)) (x8 : (⟨S1, .f32⟩ : BufTy).Contents (Elt Ideal)) (x13 : (⟨S128x128, .f32⟩ : BufTy).Contents (Elt Ideal)) (x14 : (⟨S128, .f32⟩ : BufTy).Contents (Elt Ideal)) (x15 : (⟨S128x1, .f32⟩ : BufTy).Contents (Elt Ideal)) (x16 : (⟨S1, .f32⟩ : BufTy).Contents (Elt Ideal))

/-- The weight's first affine layer, on the gated message. -/
theorem ref_v74 (e : Fin 600000) (c : Fin 128) :
    val_main_v74 x0 x1 x2 x3 x4 x5 x6 x7 x8 x13 x14 (ix2 e c) = lin (fun c => val_main_v56 x0 x1 x2 x3 x4 x5 x6 x7 x8 (ix2 e c)) (fun a n => x13 (ix2 a n)) (fun n => x14 (ix1 n)) c :=
  hostDot_bias_apply dot_S600000x128_S128x128_S600000x128_1_0_0_1_n_n rfl (val_main_v56 x0 x1 x2 x3 x4 x5 x6 x7 x8) x13 x14
    bcast_S128_S1x128_1 bcast_S1x128_S600000x128_0_1 e c

/-- Its activation. -/
theorem ref_v75 (i : S600000x128.Idx) : val_main_v75 x0 x1 x2 x3 x4 x5 x6 x7 x8 x13 x14 i = silu (val_main_v74 x0 x1 x2 x3 x4 x5 x6 x7 x8 x13 x14 i) :=
  host_silu (val_main_v74 x0 x1 x2 x3 x4 x5 x6 x7 x8 x13 x14) bcast_S_S600000x128 bcast_S_S600000x128 i

/-- The weight's second affine layer, one column. -/
theorem ref_v79 (e : Fin 600000) (u : Fin 1) :
    val_main_v79 x0 x1 x2 x3 x4 x5 x6 x7 x8 x13 x14 x15 x16 (ix2 e u) = lin (fun k => val_main_v75 x0 x1 x2 x3 x4 x5 x6 x7 x8 x13 x14 (ix2 e k)) (fun a n => x15 (ix2 a n)) (fun n => x16 (ix1 n)) u :=
  hostDot_bias_apply dot_S600000x128_S128x1_S600000x1_1_0_0_1_n_n rfl (val_main_v75 x0 x1 x2 x3 x4 x5 x6 x7 x8 x13 x14) x15 x16
    bcast_S1_S1x1_1 bcast_S1x1_S600000x1_0_1 e u

/-- The weight of edge `e`. -/
theorem ref_v79_coordW (e : Fin 600000) :
    val_main_v79 x0 x1 x2 x3 x4 x5 x6 x7 x8 x13 x14 x15 x16 (ix2 e (0 : Fin 1)) = coordW (fun c => val_main_v56 x0 x1 x2 x3 x4 x5 x6 x7 x8 (ix2 e c)) (fun a n => x13 (ix2 a n)) (fun n => x14 (ix1 n)) (fun a n => x15 (ix2 a n)) (fun n => x16 (ix1 n)) := by
  rw [ref_v79]
  unfold coordW
  refine congrArg (fun f => lin f _ _ (0 : Fin 1)) (funext fun k => ?_)
  rw [ref_v75, ref_v74]

/-- The weight broadcast over the three coordinates. -/
theorem ref_v80 (e : Fin 600000) (k : Fin 3) :
    val_main_v80 x0 x1 x2 x3 x4 x5 x6 x7 x8 x13 x14 x15 x16 (ix2 e k) = val_main_v79 x0 x1 x2 x3 x4 x5 x6 x7 x8 x13 x14 x15 x16 (ix2 e (0 : Fin 1)) :=
  (val_main_v80_apply x0 x1 x2 x3 x4 x5 x6 x7 x8 x13 x14 x15 x16 (ix2 e k)).trans
    (congrArg (val_main_v79 x0 x1 x2 x3 x4 x5 x6 x7 x8 x13 x14 x15 x16) (funext fun a => match a with | ⟨0, _⟩ => rfl | ⟨1, _⟩ => rfl))

/-- **The coordinate update carried by edge `e`, coordinate `k`.** -/
theorem ref_coord (e : Fin 600000) (k : Fin 3) :
    val_main_v81 x0 x1 x2 x3 x4 x5 x6 x7 x8 x13 x14 x15 x16 (ix2 e k)
      = val_main_v18 x1 x2 (ix2 e k) * coordW (fun c => val_main_v56 x0 x1 x2 x3 x4 x5 x6 x7 x8 (ix2 e c)) (fun a n => x13 (ix2 a n)) (fun n => x14 (ix1 n)) (fun a n => x15 (ix2 a n)) (fun n => x16 (ix1 n)) := by
  show val_main_v18 x1 x2 (ix2 e k) * val_main_v80 x0 x1 x2 x3 x4 x5 x6 x7 x8 x13 x14 x15 x16 (ix2 e k) = _
  rw [ref_v80, ref_v79_coordW]

end Cert.ReferenceIdeal.RefValue

end
-- ==== Proof.BridgeEdge.lean ====
/-
  The per-edge region's two arrays are the reference's gated messages and coordinate updates.

  At the region's entry the two gathered feature arrays, the distances and the coordinate differences are the
  reference's own stages, the three weight windows are the three blocks of rows of the first weight matrix, and each
  bias window is its vector laid out as a row. Row by row the region computes the specification's gated message and
  coordinate update of those; the reference's stages read row by row are the same two functions of the same rows.
-/
import proofs.«105293_j58471684768170_2_alg».proof.Proof.Fold2
import proofs.«105293_j58471684768170_2_alg».proof.Proof.Region0
import proofs.«105293_j58471684768170_2_alg».proof.Proof.Weights
import proofs.«105293_j58471684768170_2_alg».proof.Proof.RefRead2
import proofs.«105293_j58471684768170_2_alg».proof.Proof.RefRead3

set_option maxRecDepth 16384

noncomputable section

namespace Cert.Bridge

open Cert.KernelIdeal Cert.KernelIdeal.Gen Cert.KernelIdeal.Fold Cert.Egnn
open Idealize.ShloMosaic Idealize.ShloMosaic.TcCoe Idealize.ShloMosaic.ValueIdx Idealize.ShloMosaic.Dense Idealize.SL.Sem

variable (m : (ℓ : Loc nD τ sig) → Buf (Elt Ideal) ℓ) (ρ : Dev nD → PrngReg)

/-! ## The region's input arrays at its entry -/

theorem in0 (c : Dev nD) : (V3 m ρ c (Pipeline.arrRef spec0 0)) = Cert.ReferenceIdeal.ReadP.val_main_v33 (F := Ideal) (m ((c : Thread nD τ).loc main_arg0)) (m ((c : Thread nD τ).loc main_arg2)) := at3_hi m ρ c
theorem in1 (c : Dev nD) : (V3 m ρ c (Pipeline.arrRef spec0 1)) = Cert.ReferenceIdeal.ReadP.val_main_v26 (F := Ideal) (m ((c : Thread nD τ).loc main_arg0)) (m ((c : Thread nD τ).loc main_arg2)) := at3_hj m ρ c
theorem in2 (c : Dev nD) : (V3 m ρ c (Pipeline.arrRef spec0 2)) = Cert.ReferenceIdeal.ReadP.val_main_v19 (F := Ideal) (m ((c : Thread nD τ).loc main_arg1)) (m ((c : Thread nD τ).loc main_arg2)) := at3_dist m ρ c
theorem in3 (c : Dev nD) : (V3 m ρ c (Pipeline.arrRef spec0 3)) = Cert.ReferenceIdeal.ReadP.val_main_v18 (F := Ideal) (m ((c : Thread nD τ).loc main_arg1)) (m ((c : Thread nD τ).loc main_arg2)) := at3_cdiff m ρ c
theorem in4 (c : Dev nD) : (V3 m ρ c (Pipeline.arrRef spec0 4)) = extractStridedSlice S128x128 ![0, 0] (m ((c : Thread nD τ).loc main_arg3)) slices_S257x128_S128x128_0_0 := at3_v35 m ρ c
theorem in5 (c : Dev nD) : (V3 m ρ c (Pipeline.arrRef spec0 5)) = extractStridedSlice S128x128 ![128, 0] (m ((c : Thread nD τ).loc main_arg3)) slices_S257x128_S128x128_128_0 := at3_v36 m ρ c
theorem in6 (c : Dev nD) : (V3 m ρ c (Pipeline.arrRef spec0 6)) = extractStridedSlice S1x128 ![256, 0] (m ((c : Thread nD τ).loc main_arg3)) slices_S257x128_S1x128_256_0 := at3_v37 m ρ c
theorem in7 (c : Dev nD) : (V3 m ρ c (Pipeline.arrRef spec0 7)) = shapeCast S1x128 (m ((c : Thread nD τ).loc main_arg4)) shapeCasts_S128_S1x128 := at3_v38 m ρ c
theorem in8 (c : Dev nD) : (V3 m ρ c (Pipeline.arrRef spec0 8)) = (m ((c : Thread nD τ).loc main_arg5)) := at3_arg5 m ρ c
theorem in9 (c : Dev nD) : (V3 m ρ c (Pipeline.arrRef spec0 9)) = shapeCast S1x128 (m ((c : Thread nD τ).loc main_arg6)) shapeCasts_S128_S1x128 := at3_v39 m ρ c
theorem in10 (c : Dev nD) : (V3 m ρ c (Pipeline.arrRef spec0 10)) = (m ((c : Thread nD τ).loc main_arg7)) := at3_arg7 m ρ c
theorem in11 (c : Dev nD) : (V3 m ρ c (Pipeline.arrRef spec0 11)) = shapeCast S1x1 (m ((c : Thread nD τ).loc main_arg8)) shapeCasts_S1_S1x1 := at3_v40 m ρ c
theorem in12 (c : Dev nD) : (V3 m ρ c (Pipeline.arrRef spec0 12)) = (m ((c : Thread nD τ).loc main_arg13)) := at3_arg13 m ρ c
theorem in13 (c : Dev nD) : (V3 m ρ c (Pipeline.arrRef spec0 13)) = shapeCast S1x128 (m ((c : Thread nD τ).loc main_arg14)) shapeCasts_S128_S1x128 := at3_v41 m ρ c
theorem in14 (c : Dev nD) : (V3 m ρ c (Pipeline.arrRef spec0 14)) = (m ((c : Thread nD τ).loc main_arg15)) := at3_arg15 m ρ c
theorem in15 (c : Dev nD) : (V3 m ρ c (Pipeline.arrRef spec0 15)) = shapeCast S1x1 (m ((c : Thread nD τ).loc main_arg16)) shapeCasts_S1_S1x1 := at3_v42 m ρ c

/-! ## The gated messages -/

/-- Equal arrays give equal message arrays. -/
theorem msgArr_congr {E : Nat} {hi hi' hj hj' : Arr E 128} {d d' : Arr E 1} {wa wa' wb wb' : Arr 128 128} {wc wc' b1 b1' : Arr 1 128}
    {w2 w2' : Arr 128 128} {b2 b2' : Arr 1 128} {wg wg' : Arr 128 1} {bg bg' : Arr 1 1}
    (e0 : hi = hi') (e1 : hj = hj') (e2 : d = d') (e3 : wa = wa') (e4 : wb = wb') (e5 : wc = wc') (e6 : b1 = b1')
    (e7 : w2 = w2') (e8 : b2 = b2') (e9 : wg = wg') (e10 : bg = bg') :
    msgArr hi hj d wa wb wc b1 w2 b2 wg bg = msgArr hi' hj' d' wa' wb' wc' b1' w2' b2' wg' bg' := by
  subst e0 e1 e2 e3 e4 e5 e6 e7 e8 e9 e10; rfl

/-- The specification's message array of the reference's gathered stages and the cut weights is the reference's
    gated-message stage. -/
theorem msg_spec (c : Dev nD) : msgArr (E := 600000) (Cert.ReferenceIdeal.ReadP.val_main_v33 (F := Ideal) (m ((c : Thread nD τ).loc main_arg0)) (m ((c : Thread nD τ).loc main_arg2))) (Cert.ReferenceIdeal.ReadP.val_main_v26 (F := Ideal) (m ((c : Thread nD τ).loc main_arg0)) (m ((c : Thread nD τ).loc main_arg2))) (Cert.ReferenceIdeal.ReadP.val_main_v19 (F := Ideal) (m ((c : Thread nD τ).loc main_arg1)) (m ((c : Thread nD τ).loc main_arg2)))
      (extractStridedSlice S128x128 ![0, 0] (m ((c : Thread nD τ).loc main_arg3)) slices_S257x128_S128x128_0_0) (extractStridedSlice S128x128 ![128, 0] (m ((c : Thread nD τ).loc main_arg3)) slices_S257x128_S128x128_128_0)
      (extractStridedSlice S1x128 ![256, 0] (m ((c : Thread nD τ).loc main_arg3)) slices_S257x128_S1x128_256_0) (shapeCast S1x128 (m ((c : Thread nD τ).loc main_arg4)) shapeCasts_S128_S1x128) (m ((c : Thread nD τ).loc main_arg5))
      (shapeCast S1x128 (m ((c : Thread nD τ).loc main_arg6)) shapeCasts_S128_S1x128) (m ((c : Thread nD τ).loc main_arg7)) (shapeCast S1x1 (m ((c : Thread nD τ).loc main_arg8)) shapeCasts_S1_S1x1)
    = Cert.ReferenceIdeal.ReadP.val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  funext j
  obtain ⟨e, q, rfl⟩ : ∃ (e : Fin 600000) (q : Fin 128), j = ix2 e q := ⟨j 0, j 1, eq_ix2 j⟩
  rw [Cert.ReferenceIdeal.RefValue.ref_msg]
  unfold msgArr
  rw [slice_rows0 (R := 257) (n := 128) (m ((c : Thread nD τ).loc main_arg3)) slices_S257x128_S128x128_0_0 (by omega),
    slice_rows (R := 257) (n := 128) (o := 128) (m ((c : Thread nD τ).loc main_arg3)) slices_S257x128_S128x128_128_0 (by omega),
    slice_rows (R := 257) (n := 1) (o := 256) (m ((c : Thread nD τ).loc main_arg3)) slices_S257x128_S1x128_256_0 (by omega),
    row_of_vec (m ((c : Thread nD τ).loc main_arg4)) shapeCasts_S128_S1x128, row_of_vec (m ((c : Thread nD τ).loc main_arg6)) shapeCasts_S128_S1x128,
    row_of_vec (m ((c : Thread nD τ).loc main_arg8)) shapeCasts_S1_S1x1]

/-- The region's message array as the reference's stage. -/
theorem msg_form (c : Dev nD) : msgArr (V3 m ρ c (Pipeline.arrRef spec0 0)) (V3 m ρ c (Pipeline.arrRef spec0 1)) (V3 m ρ c (Pipeline.arrRef spec0 2)) (V3 m ρ c (Pipeline.arrRef spec0 4)) (V3 m ρ c (Pipeline.arrRef spec0 5)) (V3 m ρ c (Pipeline.arrRef spec0 6)) (V3 m ρ c (Pipeline.arrRef spec0 7)) (V3 m ρ c (Pipeline.arrRef spec0 8)) (V3 m ρ c (Pipeline.arrRef spec0 9)) (V3 m ρ c (Pipeline.arrRef spec0 10)) (V3 m ρ c (Pipeline.arrRef spec0 11))
    = Cert.ReferenceIdeal.ReadP.val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (msgArr_congr (in0 m ρ c) (in1 m ρ c) (in2 m ρ c) (in4 m ρ c) (in5 m ρ c) (in6 m ρ c) (in7 m ρ c) (in8 m ρ c) (in9 m ρ c)
    (in10 m ρ c) (in11 m ρ c)).trans (msg_spec m c)

/-- What the region's write-backs leave in its first output array. -/
theorem msg_arr (c : Dev nD) : (dat0 (V3 m ρ) c).arrAt 16 cfg0.N
    = Cert.ReferenceIdeal.ReadP.val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (Cert.KernelIdeal.Regions.final16 (V3 m ρ) c).trans (msg_form m ρ c)

/-! ## The coordinate updates -/

/-- Equal arrays give equal coordinate-update arrays. -/
theorem coordArr_congr {E : Nat} {cd cd' : Arr E 3} {mg mg' : Arr E 128} {wc1 wc1' : Arr 128 128} {bc1 bc1' : Arr 1 128}
    {wc2 wc2' : Arr 128 1} {bc2 bc2' : Arr 1 1}
    (e0 : cd = cd') (e1 : mg = mg') (e2 : wc1 = wc1') (e3 : bc1 = bc1') (e4 : wc2 = wc2') (e5 : bc2 = bc2') :
    coordArr cd mg wc1 bc1 wc2 bc2 = coordArr cd' mg' wc1' bc1' wc2' bc2' := by
  subst e0 e1 e2 e3 e4 e5; rfl

/-- The specification's coordinate updates of the reference's stages are the reference's coordinate-update stage. -/
theorem coord_spec (c : Dev nD) : coordArr (E := 600000) (Cert.ReferenceIdeal.ReadP.val_main_v18 (F := Ideal) (m ((c : Thread nD τ).loc main_arg1)) (m ((c : Thread nD τ).loc main_arg2)))
      (Cert.ReferenceIdeal.ReadP.val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg13)) (shapeCast S1x128 (m ((c : Thread nD τ).loc main_arg14)) shapeCasts_S128_S1x128) (m ((c : Thread nD τ).loc main_arg15))
      (shapeCast S1x1 (m ((c : Thread nD τ).loc main_arg16)) shapeCasts_S1_S1x1)
    = Cert.ReferenceIdeal.ReadP.val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg13)) (m ((c : Thread nD τ).loc main_arg14)) (m ((c : Thread nD τ).loc main_arg15)) (m ((c : Thread nD τ).loc main_arg16)) := by
  funext j
  obtain ⟨e, k, rfl⟩ : ∃ (e : Fin 600000) (k : Fin 3), j = ix2 e k := ⟨j 0, j 1, eq_ix2 j⟩
  rw [Cert.ReferenceIdeal.RefValue.ref_coord]
  unfold coordArr
  rw [row_of_vec (m ((c : Thread nD τ).loc main_arg14)) shapeCasts_S128_S1x128, row_of_vec (m ((c : Thread nD τ).loc main_arg16)) shapeCasts_S1_S1x1]

theorem coord_arr (c : Dev nD) : (dat0 (V3 m ρ) c).arrAt 17 cfg0.N
    = Cert.ReferenceIdeal.ReadP.val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg13)) (m ((c : Thread nD τ).loc main_arg14)) (m ((c : Thread nD τ).loc main_arg15)) (m ((c : Thread nD τ).loc main_arg16)) :=
  (Cert.KernelIdeal.Regions.final17 (V3 m ρ) c).trans
    ((coordArr_congr (in3 m ρ c) (msg_form m ρ c) (in12 m ρ c) (in13 m ρ c) (in14 m ρ c) (in15 m ρ c)).trans (coord_spec m c))

end Cert.Bridge

end
-- ==== Proof.PayNode.lean ====
/-
  The node region's computed value read at an entry.

  At row `p` the stored value is the node update (`nodeOut`) of row `p` of the features and of the aggregated
  messages: two products into the zero accumulator added, a bias row, `x · σ(x)`, a second product and bias, and the
  features added back. A cast to the same shape and a change of float format are the identity on the extended reals.
-/
import proofs.«105293_j58471684768170_2_alg».proof.Proof.Gen.KernelIdeal.Skeleton
import proofs.«105293_j58471684768170_2_alg».proof.Proof.Spec
import proofs.«105293_j58471684768170_2_alg».proof.Proof.LibDense
import proofs.«105293_j58471684768170_2_alg».proof.Proof.LibKeepdims
import Idealize.ShloMosaic.Lib.ValueLayout
import Idealize.ShloMosaic.Lib.Pipeline.Value

noncomputable section

open scoped BigOperators

namespace Cert.KernelIdeal.Pay

open Cert.KernelIdeal Cert.KernelIdeal.Gen Cert.Egnn Idealize.ShloMosaic Idealize.ShloMosaic.ValueIdx Idealize.ShloMosaic.Dense

/-- `x · σ(x)` lane by lane is `silu` of the lane. -/
private theorem silu_vec_apply {s : Shape} (v : FVec Ideal s .f32) (i : s.Idx) : mulf v (logistic v) i = silu (v i) := rfl

/-- The node's first layer at `(p, k)`: the two products added, plus the bias row. -/
theorem node_l1 (v0 v1 : FVec Ideal S5000x128 .f32) (v5 v8 : FVec Ideal S128x128 .f32) (v14 : FVec Ideal S1x128 .f32)
    (p : Fin 5000) (k : Fin 128) :
    addf (addf (matmul dot_S5000x128_S128x128_S5000x128_1_0_0_1_n_n none (truncf .bf16 v0 bitsLt_bf16_f32) (truncf .bf16 v5 bitsLt_bf16_f32) (constant (F := Ideal) S5000x128 .f32 0x00000000#32))
        (matmul dot_S5000x128_S128x128_S5000x128_1_0_0_1_n_n none (truncf .bf16 v1 bitsLt_bf16_f32) (truncf .bf16 v8 bitsLt_bf16_f32) (constant (F := Ideal) S5000x128 .f32 0x00000000#32)))
      (broadcastTo S5000x128 v14 broadcasts_S1x128_S5000x128) (ix2 p k)
      = nodePre (fun c => v0 (ix2 p c)) (fun c => v1 (ix2 p c)) (fun a n => v5 (ix2 a n)) (fun a n => v8 (ix2 a n)) (fun n => v14 (ix2 (0 : Fin 1) n)) k := by
  rw [addf_apply, addf_apply, PlainDot.matmul_zero_apply dot_S5000x128_S128x128_S5000x128_1_0_0_1_n_n rfl none _ _ (ix2 p k),
    PlainDot.matmul_zero_apply dot_S5000x128_S128x128_S5000x128_1_0_0_1_n_n rfl none _ _ (ix2 p k),
    broadcastTo_1b_ab_apply v14 _ p k]
  rfl

/-- The node region's stored value at `(p, q)` is the node update of row `p`. -/
theorem payNode_apply (v0 v1 : Vec Ideal S5000x128 .f32) (v5 v8 : Vec Ideal S128x128 .f32) (v14 : Vec Ideal S1x128 .f32)
    (v20 : Vec Ideal S128x128 .f32) (v24 : Vec Ideal S1x128 .f32) (p : Fin 5000) (q : Fin 128) :
    k1_pay1 v0 v1 v5 v8 v14 v20 v24 (ix2 p q)
      = nodeOut (fun k => v0 (ix2 p k)) (fun k => v1 (ix2 p k)) (fun k n => v5 (ix2 k n)) (fun k n => v8 (ix2 k n))
          (fun n => v14 (ix2 (0 : Fin 1) n)) (fun k n => v20 (ix2 k n)) (fun n => v24 (ix2 (0 : Fin 1) n)) q := by
  unfold k1_pay1
  simp only [shapeCast_self]
  rw [addf_apply, matmul_bias_apply dot_S5000x128_S128x128_S5000x128_1_0_0_1_n_n rfl _ _ v24 _ p q]
  unfold nodeOut
  refine congrArg (fun t => v0 (ix2 p q) + t) ?_
  refine congrArg (fun f => lin f (fun k n => v20 (ix2 k n)) (fun n => v24 (ix2 (0 : Fin 1) n)) q) (funext fun k => ?_)
  exact congrArg silu (node_l1 v0 v1 v5 v8 v14 p k)

end Cert.KernelIdeal.Pay

end
-- ==== Proof.Region1.lean ====
/-
  The node region: from blocks to the array.

  The region walks the 50000 nodes in ten blocks of 5000 rows. At every point the value written back is the node
  update of the block's rows; entry (p, k) of block t is entry (5000·t + p, k) of the array, the weights are the same
  whole arrays at every point, and row r of the array lies in the block of point r / 5000. So the output array ends
  holding the node update of every row.
-/
import proofs.«105293_j58471684768170_2_alg».proof.Proof.Gen.KernelIdeal.Frame
import proofs.«105293_j58471684768170_2_alg».proof.Proof.Blocks
import proofs.«105293_j58471684768170_2_alg».proof.Proof.Arrays
import proofs.«105293_j58471684768170_2_alg».proof.Proof.PayNode
import Idealize.ShloMosaic.Lib.Pipeline.Value
import Idealize.ShloMosaic.Lib.ValueIdx

set_option maxRecDepth 16384

noncomputable section

namespace Cert.KernelIdeal.Regions

open Cert.KernelIdeal Cert.KernelIdeal.Gen Cert.KernelIdeal.Blocks Cert.KernelIdeal.Pay Cert.Egnn
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The zero offset of a store or load that spans its whole buffer. -/
theorem node_off_zero : (![0, 0] : Fin 2 → Nat) = fun _ => 0 := funext fun a => by fin_cases a <;> rfl

/-- The new node features of every node, from the arrays the region finds. -/
abbrev nodeResult (c : Dev nD) : Arr 50000 128 :=
  nodeArr (V c (Pipeline.arrRef spec1 0)) (V c (Pipeline.arrRef spec1 1)) (V c (Pipeline.arrRef spec1 2)) (V c (Pipeline.arrRef spec1 3))
    (V c (Pipeline.arrRef spec1 4)) (V c (Pipeline.arrRef spec1 5)) (V c (Pipeline.arrRef spec1 6))

/-- What the body leaves in the output window's buffer is its one stored value. -/
theorem out1_7_eq (x0 x1 : Vec Ideal S5000x128 .f32) (x2 x3 : Vec Ideal S128x128 .f32) (x4 : Vec Ideal S1x128 .f32)
    (x5 : Vec Ideal S128x128 .f32) (x6 : Vec Ideal S1x128 .f32) :
    out1_7 x0 x1 x2 x3 x4 x5 x6 = k1_pay1 x0 x1 x2 x3 x4 x5 x6 := by
  unfold out1_7
  rw [View.canon_unit_zero node_off_zero]
  simp only [View.ld_unit_zero (S := S5000x128) node_off_zero, View.ld_unit_zero (S := S128x128) node_off_zero,
    View.ld_unit_zero (S := S1x128) node_off_zero]

/-- Row `p` of a block whose feature rows are rows `r` of the two arrays is row `r` of the node update. -/
theorem node_rows (A0 A1 : Arr 50000 128) (w2 w3 : Arr 128 128) (w4 : Arr 1 128) (w5 : Arr 128 128) (w6 : Arr 1 128)
    (x0 x1 : Vec Ideal S5000x128 .f32) (r : Fin 50000) (p : Fin 5000) (q : Fin 128)
    (h0 : ∀ k, x0 (ix2 p k) = A0 (ix2 r k)) (h1 : ∀ k, x1 (ix2 p k) = A1 (ix2 r k)) :
    k1_pay1 x0 x1 w2 w3 w4 w5 w6 (ix2 p q) = nodeArr A0 A1 w2 w3 w4 w5 w6 (ix2 r q) := by
  rw [payNode_apply]
  unfold nodeArr
  rw [funext h0, funext h1]

/-- What point `t` writes back is block `t` of the node update of the arrays. -/
theorem node_flushed (c : Dev nD) (t : Fin cfg1.N) :
    (dat1 V c).flushed 7 t = ((cfg1.win 7).blk t).view.read (Elt Ideal) (nodeResult V c) := by
  show (cfg1.win 7).cut (grid1.coords t) ((dat1 V c).after 7 t) = _
  rw [after1_7, out1_7_eq (iblk1 V c 0 t) (iblk1 V c 1 t) (iblk1 V c 2 t) (iblk1 V c 3 t) (iblk1 V c 4 t) (iblk1 V c 5 t) (iblk1 V c 6 t),
    res1_2 V c t, res1_3 V c t, res1_4 V c t, res1_5 V c t, res1_6 V c t]
  funext y
  obtain ⟨p, q, rfl⟩ : ∃ (p : Fin 5000) (q : Fin 128), y = ix2 p q := ⟨y 0, y 1, eq_ix2 y⟩
  show k1_pay1 (iblk1 V c 0 t) (iblk1 V c 1 t) (V c (Pipeline.arrRef spec1 2)) (V c (Pipeline.arrRef spec1 3))
      (V c (Pipeline.arrRef spec1 4)) (V c (Pipeline.arrRef spec1 5)) (V c (Pipeline.arrRef spec1 6)) (ix2 p q)
    = nodeResult V c (((cfg1.win 7).blk t).view.emb (ix2 p q))
  rw [emb1_7 t p q]
  exact node_rows _ _ _ _ _ _ _ (iblk1 V c 0 t) (iblk1 V c 1 t) _ p q (fun k => read1_0 V c t p k) (fun k => read1_1 V c t p k)

/-- An index of the array is in point `t`'s block iff each coordinate is in the block's range on its axis. -/
theorem node_mem_blk (t : Fin cfg1.N) (i : S50000x128.Idx) :
    i ∈ ((cfg1.win 7).blk t).view.set ↔ ∀ a : Fin 2, win1_7.index t a * S5000x128.size a ≤ (i a).val
      ∧ (i a).val < win1_7.index t a * S5000x128.size a + S5000x128.size a := by
  show i ∈ ((View.whole main_v55).slice (win1_7.rect t)).set ↔ _
  rw [View.set_slice_whole, Rect.mem_set_unit]
  exact Iff.rfl

/-- Row `r` of the array lies in the block of point `r / 5000`: the ten blocks fill the array. -/
theorem node_cover (i : S50000x128.Idx) :
    ∃ t : Fin cfg1.N, (cfg1.win 7).flush t = true ∧ i ∈ ((cfg1.win 7).blk t).view.set := by
  have hN : cfg1.N = 10 := N_1
  have hi0 : (i 0).val < 50000 := (i 0).isLt
  have hi1 : (i 1).val < 128 := (i 1).isLt
  obtain ⟨a0, b0, a1, b1, a7, b7⟩ := idx_mov1 ⟨(i 0).val / 5000, by omega⟩
  refine ⟨⟨(i 0).val / 5000, by omega⟩, flush1_7 _, ?_⟩
  rw [node_mem_blk]
  intro a
  match a with
  | ⟨0, _⟩ =>
    show win1_7.index ⟨(i 0).val / 5000, _⟩ (0 : Fin 2) * 5000 ≤ (i 0).val
      ∧ (i 0).val < win1_7.index ⟨(i 0).val / 5000, _⟩ (0 : Fin 2) * 5000 + 5000
    rw [a7]
    show (i 0).val / 5000 * 5000 ≤ (i 0).val ∧ (i 0).val < (i 0).val / 5000 * 5000 + 5000
    omega
  | ⟨1, _⟩ =>
    show win1_7.index ⟨(i 0).val / 5000, _⟩ (1 : Fin 2) * 128 ≤ (i 1).val
      ∧ (i 1).val < win1_7.index ⟨(i 0).val / 5000, _⟩ (1 : Fin 2) * 128 + 128
    rw [b7]
    omega

/-- The node region leaves the node update of the arrays it finds in its output array. -/
theorem final7 (c : Dev nD) :
    (dat1 V c).arrAt 7 cfg1.N = nodeArr (V c (Pipeline.arrRef spec1 0)) (V c (Pipeline.arrRef spec1 1)) (V c (Pipeline.arrRef spec1 2))
      (V c (Pipeline.arrRef spec1 3)) (V c (Pipeline.arrRef spec1 4)) (V c (Pipeline.arrRef spec1 5)) (V c (Pipeline.arrRef spec1 6)) :=
  (dat1 V c).arrAt_eq_of_cover 7 (nodeResult V c) (fun t _ => node_flushed V c t) fun i => node_cover i

end Cert.KernelIdeal.Regions

end
-- ==== Proof.RefRead4.lean ====
/-
  The reference's node stage read at an entry: node n's features plus a two-layer map of its features joined with its
  aggregated messages. The joined row against the 256-row weight matrix is the sum of the two blocks' products.
-/
import proofs.«105293_j58471684768170_2_alg».proof.Proof.Spec
import proofs.«105293_j58471684768170_2_alg».proof.Proof.RefRead1
import proofs.«105293_j58471684768170_2_alg».proof.Proof.ReadP

noncomputable section

open scoped BigOperators

namespace Cert.ReferenceIdeal.RefValue

open Cert.ReferenceIdeal Cert.ReferenceIdeal.Gen Cert.ReferenceIdeal.ReadP Cert.Egnn Idealize.ShloMosaic Idealize.ShloMosaic.ValueIdx Idealize.ShloMosaic.Dense

variable (x0 : (⟨S50000x128, .f32⟩ : BufTy).Contents (Elt Ideal)) (x1 : (⟨S50000x3, .f32⟩ : BufTy).Contents (Elt Ideal)) (x2 : (⟨S2x600000, .i32⟩ : BufTy).Contents (Elt Ideal)) (x3 : (⟨S257x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x1, .f32⟩ : BufTy).Contents (Elt Ideal)) (x8 : (⟨S1, .f32⟩ : BufTy).Contents (Elt Ideal)) (x9 : (⟨S256x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal))

/-- The node's first affine layer: two blocks' products plus the bias. -/
theorem ref_v64 (n : Fin 50000) (c : Fin 128) :
    val_main_v64 x0 x1 x2 x3 x4 x5 x6 x7 x8 x9 x10 (ix2 n c) = nodePre (fun k => x0 (ix2 n k)) (fun k => val_main_v59 x0 x1 x2 x3 x4 x5 x6 x7 x8 (ix2 n k)) (fun k j => x9 (ix2 ⟨k.val, by have := k.isLt; omega⟩ j)) (fun k j => x9 (ix2 ⟨128 + k.val, by have := k.isLt; omega⟩ j)) (fun j => x10 (ix1 j)) c := by
  unfold val_main_v64 val_main_v61 val_main_v60 val_main_v63 val_main_v62
  exact node_first_layer dot_S50000x256_S256x128_S50000x128_1_0_0_1_n_n rfl x0 (val_main_v59 x0 x1 x2 x3 x4 x5 x6 x7 x8)
    concatenates_S50000x128_S50000x128_S50000x256_d1 x9 x10 bcast_S128_S1x128_1 bcast_S1x128_S50000x128_0_1 n c

/-- Its activation. -/
theorem ref_v65 (i : S50000x128.Idx) : val_main_v65 x0 x1 x2 x3 x4 x5 x6 x7 x8 x9 x10 i = silu (val_main_v64 x0 x1 x2 x3 x4 x5 x6 x7 x8 x9 x10 i) :=
  host_silu (val_main_v64 x0 x1 x2 x3 x4 x5 x6 x7 x8 x9 x10) bcast_S_S50000x128 bcast_S_S50000x128 i

/-- The node's second affine layer. -/
theorem ref_v69 (n : Fin 50000) (c : Fin 128) :
    val_main_v69 x0 x1 x2 x3 x4 x5 x6 x7 x8 x9 x10 x11 x12 (ix2 n c) = lin (fun k => val_main_v65 x0 x1 x2 x3 x4 x5 x6 x7 x8 x9 x10 (ix2 n k)) (fun k j => x11 (ix2 k j)) (fun j => x12 (ix1 j)) c :=
  hostDot_bias_apply dot_S50000x128_S128x128_S50000x128_1_0_0_1_n_n rfl (val_main_v65 x0 x1 x2 x3 x4 x5 x6 x7 x8 x9 x10) x11 x12
    bcast_S128_S1x128_1 bcast_S1x128_S50000x128_0_1 n c

/-- **The updated features of node `n` at feature `c`.** -/
theorem ref_node (n : Fin 50000) (c : Fin 128) :
    val_main_v70 x0 x1 x2 x3 x4 x5 x6 x7 x8 x9 x10 x11 x12 (ix2 n c)
      = nodeOut (fun k => x0 (ix2 n k)) (fun k => val_main_v59 x0 x1 x2 x3 x4 x5 x6 x7 x8 (ix2 n k)) (fun k j => x9 (ix2 ⟨k.val, by have := k.isLt; omega⟩ j)) (fun k j => x9 (ix2 ⟨128 + k.val, by have := k.isLt; omega⟩ j)) (fun j => x10 (ix1 j)) (fun k j => x11 (ix2 k j)) (fun j => x12 (ix1 j)) c := by
  show x0 (ix2 n c) + val_main_v69 x0 x1 x2 x3 x4 x5 x6 x7 x8 x9 x10 x11 x12 (ix2 n c) = _
  unfold nodeOut
  rw [ref_v69]
  refine congrArg (fun f => x0 (ix2 n c) + lin f _ _ c) (funext fun k => ?_)
  rw [ref_v65, ref_v64]

end Cert.ReferenceIdeal.RefValue

end
-- ==== Proof.BridgeNode.lean ====
/-
  The two results of the idealized kernel are the reference's two results, as arrays.

  The aggregated messages are the same scatter-add, at the same receiver indices into the same zero array, of equal
  message arrays (widening changes nothing on the extended reals). The per-node region computes, row by row, the
  specification's node update of the node features and those aggregated messages against the two blocks of rows of the
  node weight; the reference's last stage read row by row is the same function. The new coordinates are the
  coordinates plus the same scatter-add of equal coordinate-update arrays.
-/
import proofs.«105293_j58471684768170_2_alg».proof.Proof.BridgeEdge
import proofs.«105293_j58471684768170_2_alg».proof.Proof.Region1
import proofs.«105293_j58471684768170_2_alg».proof.Proof.RefRead4

set_option maxRecDepth 16384

noncomputable section

namespace Cert.Bridge

open Cert.KernelIdeal Cert.KernelIdeal.Gen Cert.KernelIdeal.Fold Cert.Egnn
open Idealize.ShloMosaic Idealize.ShloMosaic.TcCoe Idealize.ShloMosaic.ValueIdx Idealize.ShloMosaic.Dense Idealize.SL.Sem

variable (m : (ℓ : Loc nD τ sig) → Buf (Elt Ideal) ℓ) (ρ : Dev nD → PrngReg)

/-! ## The per-node region's input arrays at its entry -/

theorem nin0 (c : Dev nD) : (V5 m ρ c (Pipeline.arrRef spec1 0)) = (m ((c : Thread nD τ).loc main_arg0)) := at5_arg0 m ρ c
theorem nin2 (c : Dev nD) : (V5 m ρ c (Pipeline.arrRef spec1 2)) = extractStridedSlice S128x128 ![0, 0] (m ((c : Thread nD τ).loc main_arg9)) slices_S256x128_S128x128_0_0 := at5_v51 m ρ c
theorem nin3 (c : Dev nD) : (V5 m ρ c (Pipeline.arrRef spec1 3)) = extractStridedSlice S128x128 ![128, 0] (m ((c : Thread nD τ).loc main_arg9)) slices_S256x128_S128x128_128_0 := at5_v52 m ρ c
theorem nin4 (c : Dev nD) : (V5 m ρ c (Pipeline.arrRef spec1 4)) = shapeCast S1x128 (m ((c : Thread nD τ).loc main_arg10)) shapeCasts_S128_S1x128 := at5_v53 m ρ c
theorem nin5 (c : Dev nD) : (V5 m ρ c (Pipeline.arrRef spec1 5)) = (m ((c : Thread nD τ).loc main_arg11)) := at5_arg11 m ρ c
theorem nin6 (c : Dev nD) : (V5 m ρ c (Pipeline.arrRef spec1 6)) = shapeCast S1x128 (m ((c : Thread nD τ).loc main_arg12)) shapeCasts_S128_S1x128 := at5_v54 m ρ c

/-- The aggregated messages are the reference's. -/
theorem nin1 (c : Dev nD) : (V5 m ρ c (Pipeline.arrRef spec1 1)) = Cert.ReferenceIdeal.ReadP.val_main_v59 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (at5_v47 m ρ c).trans ?_
  rw [msg_arr, at3_col]
  rfl

/-! ## The two results -/

/-- Equal arrays give equal node-update arrays. -/
theorem nodeArr_congr {N : Nat} {h h' a a' : Arr N 128} {wa wa' wb wb' : Arr 128 128} {b1 b1' : Arr 1 128} {w2 w2' : Arr 128 128}
    {b2 b2' : Arr 1 128} (e0 : h = h') (e1 : a = a') (e2 : wa = wa') (e3 : wb = wb') (e4 : b1 = b1') (e5 : w2 = w2') (e6 : b2 = b2') :
    nodeArr h a wa wb b1 w2 b2 = nodeArr h' a' wa' wb' b1' w2' b2' := by
  subst e0 e1 e2 e3 e4 e5 e6; rfl

/-- The specification's node update of the features, the reference's aggregated messages and the cut node weight is the
    reference's first result. -/
theorem node_spec (c : Dev nD) : nodeArr (N := 50000) (m ((c : Thread nD τ).loc main_arg0)) (Cert.ReferenceIdeal.ReadP.val_main_v59 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)))
      (extractStridedSlice S128x128 ![0, 0] (m ((c : Thread nD τ).loc main_arg9)) slices_S256x128_S128x128_0_0)
      (extractStridedSlice S128x128 ![128, 0] (m ((c : Thread nD τ).loc main_arg9)) slices_S256x128_S128x128_128_0)
      (shapeCast S1x128 (m ((c : Thread nD τ).loc main_arg10)) shapeCasts_S128_S1x128) (m ((c : Thread nD τ).loc main_arg11)) (shapeCast S1x128 (m ((c : Thread nD τ).loc main_arg12)) shapeCasts_S128_S1x128)
    = Cert.ReferenceIdeal.ReadP.val_main_v70 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  funext j
  obtain ⟨n, q, rfl⟩ : ∃ (n : Fin 50000) (q : Fin 128), j = ix2 n q := ⟨j 0, j 1, eq_ix2 j⟩
  rw [Cert.ReferenceIdeal.RefValue.ref_node]
  unfold nodeArr
  rw [slice_rows0 (R := 256) (n := 128) (m ((c : Thread nD τ).loc main_arg9)) slices_S256x128_S128x128_0_0 (by omega),
    slice_rows (R := 256) (n := 128) (o := 128) (m ((c : Thread nD τ).loc main_arg9)) slices_S256x128_S128x128_128_0 (by omega),
    row_of_vec (m ((c : Thread nD τ).loc main_arg10)) shapeCasts_S128_S1x128, row_of_vec (m ((c : Thread nD τ).loc main_arg12)) shapeCasts_S128_S1x128]

theorem out0 (c : Dev nD) : W7 m ρ c (Proc.devRef .tc main_v55)
    = Cert.ReferenceIdeal.ReadP.val_main_v70 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) :=
  (result0 m ρ c).trans ((Cert.KernelIdeal.Regions.final7 (V5 m ρ) c).trans
    ((nodeArr_congr (nin0 m ρ c) (nin1 m ρ c) (nin2 m ρ c) (nin3 m ρ c) (nin4 m ρ c) (nin5 m ρ c) (nin6 m ρ c)).trans (node_spec m c)))

theorem out1 (c : Dev nD) : W7 m ρ c (Proc.devRef .tc main_v56)
    = Cert.ReferenceIdeal.ReadP.val_main_v85 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg13)) (m ((c : Thread nD τ).loc main_arg14)) (m ((c : Thread nD τ).loc main_arg15)) (m ((c : Thread nD τ).loc main_arg16)) := by
  refine (result1 m ρ c).trans ?_
  rw [coord_arr, at3_col]
  rfl

end Cert.Bridge

end
-- ==== Proof.lean ====
/-
  One layer of an equivariant graph network (messages along 600000 edges between 50000 nodes, gated, summed per
  receiver; node features and coordinates updated), computed by two tiled regions and the host operations around them,
  against the same layer written as plain array operations.

  The kernel program gathers the endpoint features and coordinates of every edge on the host, runs the edge
  multilayer perceptron on blocks of 4000 edges, adds messages and coordinate updates up per receiver on the host, runs
  the node perceptron on blocks of 5000 nodes, and adds the aggregated coordinate updates to the coordinates. The
  reference does the same with whole arrays, the first edge layer and the first node layer as ONE product with the
  joined inputs where the kernel adds the products with the weight's blocks of rows. On the extended reals the two
  agree entry by entry: a sum over joined rows is the sum of the blocks' sums (associativity and commutativity of
  addition only, so no finiteness is used), a change of float format is the identity, and the kernel's logistic is the
  reference's 1 / (1 + e⁻ˣ). The frames are the generated ones; the idealization rewrote nothing.

  Modules: Spec (the layer one row at a time), Arrays (the three results as whole arrays), PayEdge / PayNode (the
  regions' bodies at an entry), Blocks (where a block sits in its array), Region0 / Region1 (what the write-backs leave),
  KernelRun and Fold / Fold2 (every buffer through the program's seven segments), RefRead1–4 (the reference's stages at
  an entry), RefRun / RefArgs / RefRunTop (the reference's run, read back stretch by stretch), BridgeEdge / BridgeNode
  (the two programs' arrays are equal). RunP and ReadP are copies of two generated modules (their headers say what
  differs).
-/
import proofs.«105293_j58471684768170_2_alg».proof.Defs
import proofs.«105293_j58471684768170_2_alg».proof.Proof.Gen.Kernel
import proofs.«105293_j58471684768170_2_alg».proof.Proof.Gen.Kernel.Skeleton
import proofs.«105293_j58471684768170_2_alg».proof.Proof.Gen.Kernel.Launch
import proofs.«105293_j58471684768170_2_alg».proof.Proof.Gen.Kernel.Points
import proofs.«105293_j58471684768170_2_alg».proof.Proof.Gen.Kernel.Frame
import proofs.«105293_j58471684768170_2_alg».proof.Proof.Gen.KernelIdeal
import proofs.«105293_j58471684768170_2_alg».proof.Proof.Gen.KernelIdeal.Skeleton
import proofs.«105293_j58471684768170_2_alg».proof.Proof.Gen.KernelIdeal.Launch
import proofs.«105293_j58471684768170_2_alg».proof.Proof.Gen.KernelIdeal.Points
import proofs.«105293_j58471684768170_2_alg».proof.Proof.Gen.KernelIdeal.Frame
import proofs.«105293_j58471684768170_2_alg».proof.Proof.Gen.ReferenceIdeal
import proofs.«105293_j58471684768170_2_alg».proof.Proof.Gen.Pre_finite_inputs
import proofs.«105293_j58471684768170_2_alg».proof.Proof.RefRunTop
import proofs.«105293_j58471684768170_2_alg».proof.Proof.KernelRun
import proofs.«105293_j58471684768170_2_alg».proof.Proof.BridgeNode
import Idealize.ShloMosaic.Adequacy
import Idealize.ShloMosaic.Init

set_option maxRecDepth 16384

noncomputable section

namespace Cert.Proof

open Idealize.ShloMosaic Idealize.ShloMosaic.TcCoe Idealize.SL.Sem

/-- The word-level kernel runs and leaves its arguments unchanged. -/
theorem frame_kernel : Cert.frame_Kernel (hKernel := Cert.Kernel.Gen.facts) (hPre_finite_inputs := Cert.Pre_finite_inputs.Gen.facts) :=
  fun m ρ _ => Cert.Kernel.Gen.frame m ρ

/-- So does the idealized kernel. -/
theorem frame_ideal : Cert.frame_KernelIdeal (hKernelIdeal := Cert.KernelIdeal.Gen.facts) (hPre_finite_inputs := Cert.Pre_finite_inputs.Gen.facts) :=
  fun m ρ _ => Cert.KernelIdeal.Gen.frame m ρ

/-- The reference's run, its results dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2)
    (Cert.ReferenceIdeal.RefRun.run m ρ)

/-- Both idealized programs end with the reference's two stages of the kernel's arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.ReferenceIdeal.ReadP.val_main_v70 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), fun c => Cert.ReferenceIdeal.ReadP.val_main_v85 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)), ?_, ?_⟩
  · refine (θ_run Cert.KernelIdeal.defs _ _).mono (fun r h c => ?_) (Cert.KernelIdeal.RunValue.run_fold (F := Ideal) m ρ)
    exact ⟨(h c _ (Cert.KernelIdeal.Gen.mem_uc Cert.KernelIdeal.main_v55 (by decide))).trans (Cert.Bridge.out0 m ρ c),
      (h c _ (Cert.KernelIdeal.Gen.mem_uc Cert.KernelIdeal.main_v56 (by decide))).trans (Cert.Bridge.out1 m ρ c),
      (h c _ (Cert.KernelIdeal.Gen.mem_uc Cert.KernelIdeal.main_arg0 (by decide))).trans (Cert.KernelIdeal.Gen.W7_main_arg0 m ρ c),
      (h c _ (Cert.KernelIdeal.Gen.mem_uc Cert.KernelIdeal.main_arg1 (by decide))).trans (Cert.KernelIdeal.Gen.W7_main_arg1 m ρ c),
      (h c _ (Cert.KernelIdeal.Gen.mem_uc Cert.KernelIdeal.main_arg2 (by decide))).trans (Cert.KernelIdeal.Gen.W7_main_arg2 m ρ c),
      (h c _ (Cert.KernelIdeal.Gen.mem_uc Cert.KernelIdeal.main_arg3 (by decide))).trans (Cert.KernelIdeal.Gen.W7_main_arg3 m ρ c),
      (h c _ (Cert.KernelIdeal.Gen.mem_uc Cert.KernelIdeal.main_arg4 (by decide))).trans (Cert.KernelIdeal.Gen.W7_main_arg4 m ρ c),
      (h c _ (Cert.KernelIdeal.Gen.mem_uc Cert.KernelIdeal.main_arg5 (by decide))).trans (Cert.KernelIdeal.Gen.W7_main_arg5 m ρ c),
      (h c _ (Cert.KernelIdeal.Gen.mem_uc Cert.KernelIdeal.main_arg6 (by decide))).trans (Cert.KernelIdeal.Gen.W7_main_arg6 m ρ c),
      (h c _ (Cert.KernelIdeal.Gen.mem_uc Cert.KernelIdeal.main_arg7 (by decide))).trans (Cert.KernelIdeal.Gen.W7_main_arg7 m ρ c),
      (h c _ (Cert.KernelIdeal.Gen.mem_uc Cert.KernelIdeal.main_arg8 (by decide))).trans (Cert.KernelIdeal.Gen.W7_main_arg8 m ρ c),
      (h c _ (Cert.KernelIdeal.Gen.mem_uc Cert.KernelIdeal.main_arg9 (by decide))).trans (Cert.KernelIdeal.Gen.W7_main_arg9 m ρ c),
      (h c _ (Cert.KernelIdeal.Gen.mem_uc Cert.KernelIdeal.main_arg10 (by decide))).trans (Cert.KernelIdeal.Gen.W7_main_arg10 m ρ c),
      (h c _ (Cert.KernelIdeal.Gen.mem_uc Cert.KernelIdeal.main_arg11 (by decide))).trans (Cert.KernelIdeal.Gen.W7_main_arg11 m ρ c),
      (h c _ (Cert.KernelIdeal.Gen.mem_uc Cert.KernelIdeal.main_arg12 (by decide))).trans (Cert.KernelIdeal.Gen.W7_main_arg12 m ρ c),
      (h c _ (Cert.KernelIdeal.Gen.mem_uc Cert.KernelIdeal.main_arg13 (by decide))).trans (Cert.KernelIdeal.Gen.W7_main_arg13 m ρ c),
      (h c _ (Cert.KernelIdeal.Gen.mem_uc Cert.KernelIdeal.main_arg14 (by decide))).trans (Cert.KernelIdeal.Gen.W7_main_arg14 m ρ c),
      (h c _ (Cert.KernelIdeal.Gen.mem_uc Cert.KernelIdeal.main_arg15 (by decide))).trans (Cert.KernelIdeal.Gen.W7_main_arg15 m ρ c),
      (h c _ (Cert.KernelIdeal.Gen.mem_uc Cert.KernelIdeal.main_arg16 (by decide))).trans (Cert.KernelIdeal.Gen.W7_main_arg16 m ρ c)⟩
  · refine (θ_run Cert.ReferenceIdeal.defs _ _).mono (fun r h c => ⟨(h c).1.trans ?_, (h c).2.1.trans ?_, (h c).2.2⟩)
      (Cert.ReferenceIdeal.RefRun.run m' ρ')
    · rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1]
    · rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2]

theorem claim : Cert.Claim := ⟨Cert.Kernel.Gen.facts, Cert.KernelIdeal.Gen.facts, Cert.ReferenceIdeal.Gen.facts, Cert.Pre_finite_inputs.Gen.facts,
  frame_kernel, frame_ideal, frame_reference, trivial, algebraic⟩

end Cert.Proof

end
